-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x16x1024 : Shape := ⟨4, ![16, 16, 16, 1024]⟩
abbrev S16x1024x512 : Shape := ⟨3, ![16, 1024, 512]⟩
abbrev S512x1024 : Shape := ⟨2, ![512, 1024]⟩
abbrev S1024x1024 : Shape := ⟨2, ![1024, 1024]⟩
abbrev S1024 : Shape := ⟨1, ![1024]⟩
abbrev S512 : Shape := ⟨1, ![512]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S16x16x16x1024 : S_.BroadcastsInDim S16x16x16x1024 (![] : Fin 0 → Fin S16x16x16x1024.rank)
  reducesTo_S16x16x16x1024_S_d0_1_2_3 : S16x16x16x1024.ReducesTo [0, 1, 2, 3] S_
  h_S_ : 0 < S_.numel
  bcast_S_S16x1024x512 : S_.BroadcastsInDim S16x1024x512 (![] : Fin 0 → Fin S16x1024x512.rank)
  reducesTo_S16x1024x512_S_d0_1_2 : S16x1024x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S512 : S_.BroadcastsInDim S512 (![] : Fin 0 → Fin S512.rank)
  reducesTo_S512_S_d0 : S512.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part4 {F : FTy → Type} [FloatOps F] (main_arg14 : FVec F S4096x1024 .f32) (main_arg15 : FVec F S1024 .f32) (main_v63 : IVec S_ 1) (main_v67 : IVec S_ 1) : IVec S_ 1 :=
  let main_v68 : IVec S_ 1 := andi main_v63 main_v67
  let main_v69 : FVec F S4096x1024 .f32 := Host.absf main_arg14
  let main_cst_26 : FVec F S_ .f32 := constant S_ .f32 0x7F800000#32
  let main_v70 : FVec F S4096x1024 .f32 := broadcastInDim S4096x1024 ![] bcast_S_S4096x1024 main_cst_26
  let main_v71 : IVec S4096x1024 1 := cmpf .olt main_v69 main_v70
  let main_c_27 : IVec S_ 1 := constantI S_ 1 1#1
  let main_v72 : IVec S_ 1 := (fun x v => Host.reduce IntOp.andi x v reducesTo_S4096x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  main_v78

def fn_part3 {F : FTy → Type} [FloatOps F] (main_arg11 : FVec F S1024 .f32) (main_arg12 : FVec F S1024x4096 .f32) (main_arg13 : FVec F S4096 .f32) (main_arg14 : FVec F S4096x1024 .f32) (main_arg15 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x4096 .f32 := Host.absf main_arg12
  let main_cst_22 : FVec F S_ .f32 := constant S_ .f32 0x7F800000#32
  let main_v60 : FVec F S1024x4096 .f32 := broadcastInDim S1024x4096 ![] bcast_S_S1024x4096 main_cst_22
  let main_v61 : IVec S1024x4096 1 := cmpf .olt main_v59 main_v60
  let main_c_23 : IVec S_ 1 := constantI S_ 1 1#1
  let main_v62 : IVec S_ 1 := (fun x v => Host.reduce IntOp.andi x v reducesTo_S1024x4096_S_d0_1 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_arg14 main_arg15 main_v63 main_v67

def fn_part2 {F : FTy → Type} [FloatOps F] (main_arg7 : FVec F S1024 .f32) (main_arg8 : FVec F S512 .f32) (main_arg9 : FVec F S512 .f32) (main_arg10 : FVec F S1024 .f32) (main_arg11 : FVec F S1024 .f32) (main_arg12 : FVec F S1024x4096 .f32) (main_arg13 : FVec F S4096 .f32) (main_arg14 : FVec F S4096x1024 .f32) (main_arg15 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_v48 main_v49 main_v50

def fn_part1 {F : FTy → Type} [FloatOps F] (main_arg4 : FVec F S1024x1024 .f32) (main_arg5 : FVec F S1024x1024 .f32) (main_arg6 : FVec F S1024 .f32) (main_arg7 : FVec F S1024 .f32) (main_arg8 : FVec F S512 .f32) (main_arg9 : FVec F S512 .f32) (main_arg10 : FVec F S1024 .f32) (main_arg11 : FVec F S1024 .f32) (main_arg12 : FVec F S1024x4096 .f32) (main_arg13 : FVec F S4096 .f32) (main_arg14 : FVec F S4096x1024 .f32) (main_arg15 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16x16x16x1024 .f32) (main_arg1 : FVec F S16x1024x512 .f32) (main_arg2 : FVec F S512x1024 .f32) (main_arg3 : FVec F S1024x1024 .f32) (main_arg4 : FVec F S1024x1024 .f32) (main_arg5 : FVec F S1024x1024 .f32) (main_arg6 : FVec F S1024 .f32) (main_arg7 : FVec F S1024 .f32) (main_arg8 : FVec F S512 .f32) (main_arg9 : FVec F S512 .f32) (main_arg10 : FVec F S1024 .f32) (main_arg11 : FVec F S1024 .f32) (main_arg12 : FVec F S1024x4096 .f32) (main_arg13 : FVec F S4096 .f32) (main_arg14 : FVec F S4096x1024 .f32) (main_arg15 : FVec F S1024 .f32) : IVec S_ 1 :=
  let main_v0 : FVec F S16x16x16x1024 .f32 := Host.absf main_arg0
  let main_cst : FVec F S_ .f32 := constant S_ .f32 0x7F800000#32
  let main_v1 : FVec F S16x16x16x1024 .f32 := broadcastInDim S16x16x16x1024 ![] bcast_S_S16x16x16x1024 main_cst
  let main_v2 : IVec S16x16x16x1024 1 := cmpf .olt main_v0 main_v1
  let main_c : IVec S_ 1 := constantI S_ 1 1#1
  let main_v3 : IVec S_ 1 := (fun x v => Host.reduce IntOp.andi x v reducesTo_S16x16x16x1024_S_d0_1_2_3 h_S_) main_v2 main_c
  let main_v4 : FVec F S16x1024x512 .f32 := Host.absf main_arg1
  let main_cst_0 : FVec F S_ .f32 := constant S_ .f32 0x7F800000#32
  let main_v5 : FVec F S16x1024x512 .f32 := broadcastInDim S16x1024x512 ![] bcast_S_S16x1024x512 main_cst_0
  let main_v6 : IVec S16x1024x512 1 := cmpf .olt main_v4 main_v5
  let main_c_1 : IVec S_ 1 := constantI S_ 1 1#1
  let main_v7 : IVec S_ 1 := (fun x v => Host.reduce IntOp.andi x v reducesTo_S16x1024x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16x16x16x1024 : Shape := ⟨4, ![16, 16, 16, 1024]⟩
abbrev S16x1024x512 : Shape := ⟨3, ![16, 1024, 512]⟩
abbrev S512x1024 : Shape := ⟨2, ![512, 1024]⟩
abbrev S1024x1024 : Shape := ⟨2, ![1024, 1024]⟩
abbrev S1024 : Shape := ⟨1, ![1024]⟩
abbrev S512 : Shape := ⟨1, ![512]⟩
abbrev S1024x4096 : Shape := ⟨2, ![1024, 4096]⟩
abbrev S4096 : Shape := ⟨1, ![4096]⟩
abbrev S4096x1024 : Shape := ⟨2, ![4096, 1024]⟩
abbrev S16x256x1024 : Shape := ⟨3, ![16, 256, 1024]⟩
abbrev S16x1024x1024 : Shape := ⟨3, ![16, 1024, 1024]⟩
abbrev S1x256x1024 : Shape := ⟨3, ![1, 256, 1024]⟩
abbrev S1x128x512 : Shape := ⟨3, ![1, 128, 512]⟩
abbrev S1x128x1024 : Shape := ⟨3, ![1, 128, 1024]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S128x512 : Shape := ⟨2, ![128, 512]⟩
abbrev S128 : Shape := ⟨1, ![128]⟩
abbrev S128x1 : Shape := ⟨2, ![128, 1]⟩
abbrev S1x512 : Shape := ⟨2, ![1, 512]⟩
abbrev S128x1024 : Shape := ⟨2, ![128, 1024]⟩
abbrev S128x64 : Shape := ⟨2, ![128, 64]⟩
abbrev S64x256 : Shape := ⟨2, ![64, 256]⟩
abbrev S256x64 : Shape := ⟨2, ![256, 64]⟩
abbrev S128x256 : Shape := ⟨2, ![128, 256]⟩
abbrev S128x4096 : Shape := ⟨2, ![128, 4096]⟩
abbrev S1x4096 : Shape := ⟨2, ![1, 4096]⟩

abbrev nBuf : Space → Nat
  | .hbm => 25
  | .vmem => 22
  | .smem => 0
  | _ => 0

abbrev bufTy : (tb : Table) → Fin (tcTables nBuf tb) → BufTy
  | .hbm, ⟨0, _⟩ => ⟨S16x16x16x1024, .f32⟩
  | .hbm, ⟨1, _⟩ => ⟨S16x1024x512, .f32⟩
  | .hbm, ⟨2, _⟩ => ⟨S512x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S512, .f32⟩
  | .hbm, ⟨9, _⟩ => ⟨S512, .f32⟩
  | .hbm, ⟨10, _⟩ => ⟨S1024, .f32⟩
  | .hbm, ⟨11, _⟩ => ⟨S1024, .f32⟩
  | .hbm, ⟨12, _⟩ => ⟨S1024x4096, .f32⟩
  | .hbm, ⟨13, _⟩ => ⟨S4096, .f32⟩
  | .hbm, ⟨14, _⟩ => ⟨S4096x1024, .f32⟩
  | .hbm, ⟨15, _⟩ => ⟨S1024, .f32⟩
  | .hbm, ⟨16, _⟩ => ⟨S16x256x1024, .f32⟩
  | .hbm, ⟨17, _⟩ => ⟨S16x256x1024, .bf16⟩
  | .hbm, ⟨18, _⟩ => ⟨S512x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x4096, .bf16⟩
  | .hbm, ⟨23, _⟩ => ⟨S4096x1024, .bf16⟩
  | .hbm, ⟨24, _⟩ => ⟨S16x1024x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x128x512, .f32⟩
  | .local _ .vmem, ⟨3, _⟩ => ⟨S1x128x512, .f32⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024, .f32⟩
  | .local _ .vmem, ⟨9, _⟩ => ⟨S1024, .f32⟩
  | .local _ .vmem, ⟨10, _⟩ => ⟨S512, .f32⟩
  | .local _ .vmem, ⟨11, _⟩ => ⟨S512, .f32⟩
  | .local _ .vmem, ⟨12, _⟩ => ⟨S1024, .f32⟩
  | .local _ .vmem, ⟨13, _⟩ => ⟨S1024, .f32⟩
  | .local _ .vmem, ⟨14, _⟩ => ⟨S1024x4096, .bf16⟩
  | .local _ .vmem, ⟨15, _⟩ => ⟨S4096, .f32⟩
  | .local _ .vmem, ⟨16, _⟩ => ⟨S4096x1024, .bf16⟩
  | .local _ .vmem, ⟨17, _⟩ => ⟨S1024, .f32⟩
  | .local _ .vmem, ⟨18, _⟩ => ⟨S1x128x1024, .f32⟩
  | .local _ .vmem, ⟨19, _⟩ => ⟨S1x128x1024, .f32⟩
  | .local _ .vmem, ⟨20, _⟩ => ⟨S1024x256, .bf16⟩
  | .local _ .vmem, ⟨21, _⟩ => ⟨S256x1024, .bf16⟩
  | _, _ => ⟨S16x16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  shapeCasts_S16x16x16x1024_S16x256x1024 : S16x16x16x1024.ShapeCasts S16x256x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  reduces_S256x1024_S256 : S256x1024.Reduces [1] S256
  shapeCasts_S256_S256x1 : S256.ShapeCasts S256x1
  broadcasts_S256x1_S256x1024 : S256x1.Broadcasts S256x1024
  shapeCasts_S1024_S1x1024 : S1024.ShapeCasts S1x1024
  broadcasts_S1x1024_S256x1024 : S1x1024.Broadcasts S256x1024
  transposes_S256x1024_p1_0_S1024x256 : S256x1024.Transposes [1, 0] S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  packedbf16_S256x1024_S256x1024_0_0 : (Rect.unit (s := S256x1024) ![0, 0] S256x1024.size inb_S256x1024_S256x1024_0_0).PackedRows (EltTy.packing .bf16)
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512_S512_0 : ∀ a, (![0] : Fin 1 → Nat) a + S512.size a ≤ S512.size a
  h_S512 : 0 < S512.numel
  reduces_S128x512_S128 : S128x512.Reduces [1] S128
  shapeCasts_S128_S128x1 : S128.ShapeCasts S128x1
  broadcasts_S128x1_S128x512 : S128x1.Broadcasts S128x512
  shapeCasts_S512_S1x512 : S512.ShapeCasts S1x512
  broadcasts_S1x512_S128x512 : S1x512.Broadcasts S128x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  slices_S128x1024_o0_0_S128x64 : S128x1024.Slices ![0, 0] S128x64
  inb_S1024x256_S64x256_0_0 : ∀ a, (![0, 0] : Fin 2 → Nat) a + S64x256.size a ≤ S1024x256.size a
  h_S64x256 : 0 < S64x256.numel
  inb_S256x1024_S256x64_0_0 : ∀ a, (![0, 0] : Fin 2 → Nat) a + S256x64.size a ≤ S256x1024.size a
  h_S256x64 : 0 < S256x64.numel
  reduces_S128x256_S128 : S128x256.Reduces [1] S128
  broadcasts_S128x1_S128x256 : S128x1.Broadcasts S128x256
  slices_S128x1024_o0_64_S128x64 : S128x1024.Slices ![0, 64] S128x64
  inb_S1024x256_S64x256_64_0 : ∀ a, (![64, 0] : Fin 2 → Nat) a + S64x256.size a ≤ S1024x256.size a
  inb_S256x1024_S256x64_0_64 : ∀ a, (![0, 64] : Fin 2 → Nat) a + S256x64.size a ≤ S256x1024.size a
  slices_S128x1024_o0_128_S128x64 : S128x1024.Slices ![0, 128] S128x64
  inb_S1024x256_S64x256_128_0 : ∀ a, (![128, 0] : Fin 2 → Nat) a + S64x256.size a ≤ S1024x256.size a
  inb_S256x1024_S256x64_0_128 : ∀ a, (![0, 128] : Fin 2 → Nat) a + S256x64.size a ≤ S256x1024.size a
  slices_S128x1024_o0_192_S128x64 : S128x1024.Slices ![0, 192] S128x64
  inb_S1024x256_S64x256_192_0 : ∀ a, (![192, 0] : Fin 2 → Nat) a + S64x256.size a ≤ S1024x256.size a
  inb_S256x1024_S256x64_0_192 : ∀ a, (![0, 192] : Fin 2 → Nat) a + S256x64.size a ≤ S256x1024.size a
  slices_S128x1024_o0_256_S128x64 : S128x1024.Slices ![0, 256] S128x64
  inb_S1024x256_S64x256_256_0 : ∀ a, (![256, 0] : Fin 2 → Nat) a + S64x256.size a ≤ S1024x256.size a
  inb_S256x1024_S256x64_0_256 : ∀ a, (![0, 256] : Fin 2 → Nat) a + S256x64.size a ≤ S256x1024.size a
  slices_S128x1024_o0_320_S128x64 : S128x1024.Slices ![0, 320] S128x64
  inb_S1024x256_S64x256_320_0 : ∀ a, (![320, 0] : Fin 2 → Nat) a + S64x256.size a ≤ S1024x256.size a
  inb_S256x1024_S256x64_0_320 : ∀ a, (![0, 320] : Fin 2 → Nat) a + S256x64.size a ≤ S256x1024.size a
  slices_S128x1024_o0_384_S128x64 : S128x1024.Slices ![0, 384] S128x64
  inb_S1024x256_S64x256_384_0 : ∀ a, (![384, 0] : Fin 2 → Nat) a + S64x256.size a ≤ S1024x256.size a
  inb_S256x1024_S256x64_0_384 : ∀ a, (![0, 384] : Fin 2 → Nat) a + S256x64.size a ≤ S256x1024.size a
  slices_S128x1024_o0_448_S128x64 : S128x1024.Slices ![0, 448] S128x64
  inb_S1024x256_S64x256_448_0 : ∀ a, (![448, 0] : Fin 2 → Nat) a + S64x256.size a ≤ S1024x256.size a
  inb_S256x1024_S256x64_0_448 : ∀ a, (![0, 448] : Fin 2 → Nat) a + S256x64.size a ≤ S256x1024.size a
  slices_S128x1024_o0_512_S128x64 : S128x1024.Slices ![0, 512] S128x64
  inb_S1024x256_S64x256_512_0 : ∀ a, (![512, 0] : Fin 2 → Nat) a + S64x256.size a ≤ S1024x256.size a
  inb_S256x1024_S256x64_0_512 : ∀ a, (![0, 512] : Fin 2 → Nat) a + S256x64.size a ≤ S256x1024.size a
  slices_S128x1024_o0_576_S128x64 : S128x1024.Slices ![0, 576] S128x64
  inb_S1024x256_S64x256_576_0 : ∀ a, (![576, 0] : Fin 2 → Nat) a + S64x256.size a ≤ S1024x256.size a
  inb_S256x1024_S256x64_0_576 : ∀ a, (![0, 576] : Fin 2 → Nat) a + S256x64.size a ≤ S256x1024.size a
  slices_S128x1024_o0_640_S128x64 : S128x1024.Slices ![0, 640] S128x64
  inb_S1024x256_S64x256_640_0 : ∀ a, (![640, 0] : Fin 2 → Nat) a + S64x256.size a ≤ S1024x256.size a
  inb_S256x1024_S256x64_0_640 : ∀ a, (![0, 640] : Fin 2 → Nat) a + S256x64.size a ≤ S256x1024.size a
  slices_S128x1024_o0_704_S128x64 : S128x1024.Slices ![0, 704] S128x64
  inb_S1024x256_S64x256_704_0 : ∀ a, (![704, 0] : Fin 2 → Nat) a + S64x256.size a ≤ S1024x256.size a
  inb_S256x1024_S256x64_0_704 : ∀ a, (![0, 704] : Fin 2 → Nat) a + S256x64.size a ≤ S256x1024.size a
  slices_S128x1024_o0_768_S128x64 : S128x1024.Slices ![0, 768] S128x64
  inb_S1024x256_S64x256_768_0 : ∀ a, (![768, 0] : Fin 2 → Nat) a + S64x256.size a ≤ S1024x256.size a
  inb_S256x1024_S256x64_0_768 : ∀ a, (![0, 768] : Fin 2 → Nat) a + S256x64.size a ≤ S256x1024.size a
  slices_S128x1024_o0_832_S128x64 : S128x1024.Slices ![0, 832] S128x64
  inb_S1024x256_S64x256_832_0 : ∀ a, (![832, 0] : Fin 2 → Nat) a + S64x256.size a ≤ S1024x256.size a
  inb_S256x1024_S256x64_0_832 : ∀ a, (![0, 832] : Fin 2 → Nat) a + S256x64.size a ≤ S256x1024.size a
  slices_S128x1024_o0_896_S128x64 : S128x1024.Slices ![0, 896] S128x64
  inb_S1024x256_S64x256_896_0 : ∀ a, (![896, 0] : Fin 2 → Nat) a + S64x256.size a ≤ S1024x256.size a
  inb_S256x1024_S256x64_0_896 : ∀ a, (![0, 896] : Fin 2 → Nat) a + S256x64.size a ≤ S256x1024.size a
  slices_S128x1024_o0_960_S128x64 : S128x1024.Slices ![0, 960] S128x64
  inb_S1024x256_S64x256_960_0 : ∀ a, (![960, 0] : Fin 2 → Nat) a + S64x256.size a ≤ S1024x256.size a
  inb_S256x1024_S256x64_0_960 : ∀ a, (![0, 960] : Fin 2 → Nat) a + S256x64.size a ≤ S256x1024.size a
  concatenates_S128x64_S128x64_S128x64_S128x64_S128x64_S128x64_S128x64_S128x64_S128x64_S128x64_S128x64_S128x64_S128x64_S128x64_S128x64_S128x64_S128x1024_d1 : Shape.Concatenates [S128x64, S128x64, S128x64, S128x64, S128x64, S128x64, S128x64, S128x64, S128x64, S128x64, S128x64, S128x64, S128x64, S128x64, S128x64, S128x64] S128x1024 1
  reduces_S128x1024_S128 : S128x1024.Reduces [1] S128
  broadcasts_S128x1_S128x1024 : S128x1.Broadcasts S128x1024
  broadcasts_S1x1024_S128x1024 : S1x1024.Broadcasts S128x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  dot_S256x1024_S1024x1024_S256x1024_1_0_0_1_n_n_wf : DotDims.WF S256x1024 S1024x1024 S256x1024 [1] [0] [0] [1] [] []
  dot_S128x512_S512x1024_S128x1024_1_0_0_1_n_n_wf : DotDims.WF S128x512 S512x1024 S128x1024 [1] [0] [0] [1] [] []
  dot_S128x64_S64x256_S128x256_1_0_0_1_n_n_wf : DotDims.WF S128x64 S64x256 S128x256 [1] [0] [0] [1] [] []
  dot_S128x256_S256x64_S128x64_1_0_0_1_n_n_wf : DotDims.WF S128x256 S256x64 S128x64 [1] [0] [0] [1] [] []
  dot_S128x1024_S1024x1024_S128x1024_1_0_0_1_n_n_wf : DotDims.WF S128x1024 S1024x1024 S128x1024 [1] [0] [0] [1] [] []
  dot_S128x1024_S1024x4096_S128x4096_1_0_0_1_n_n_wf : DotDims.WF S128x1024 S1024x4096 S128x4096 [1] [0] [0] [1] [] []
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x256x1024.size a
  hwx0_0 : ∀ i : grid0.Coords, EltTy.bits .bf16 = 32 ∨ (Rect.block (s := S16x256x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S16x1024x512.size a
  hwx0_1 : ∀ i : grid0.Coords, EltTy.bits .f32 = 32 ∨ (Rect.block (s := S16x1024x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024.size a ≤ S1024.size a
  hwx0_11 : ∀ i : grid0.Coords, EltTy.bits .f32 = 32 ∨ (Rect.block (s := S1024) S1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x4096.size a ≤ S1024x4096.size a
  hwx0_12 : ∀ i : grid0.Coords, EltTy.bits .bf16 = 32 ∨ (Rect.block (s := S1024x4096) S1024x4096.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4096.size a ≤ S4096.size a
  hwx0_13 : ∀ i : grid0.Coords, EltTy.bits .f32 = 32 ∨ (Rect.block (s := S4096) S4096.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S4096x1024.size a ≤ S4096x1024.size a
  hwx0_14 : ∀ i : grid0.Coords, EltTy.bits .bf16 = 32 ∨ (Rect.block (s := S4096x1024) S4096x1024.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024.size a ≤ S1024.size a
  hwx0_15 : ∀ i : grid0.Coords, EltTy.bits .f32 = 32 ∨ (Rect.block (s := S1024) S1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x128x1024.size a ≤ S16x1024x1024.size a
  hwx0_16 : ∀ i : grid0.Coords, EltTy.bits .f32 = 32 ∨ (Rect.block (s := S16x1024x1024) S1x128x1024.size (cc0_transform_16 i) (hinb0_16 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x64_S64x256_S128x256_1_0_0_1_n_n : DotDims S128x64 S64x256 S128x256 where
  lhsContracting := [1]
  rhsContracting := [0]
  lhsNonContracting := [0]
  rhsNonContracting := [1]
  lhsBatch := []
  rhsBatch := []
  wf := dot_S128x64_S64x256_S128x256_1_0_0_1_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_v1) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1024x4096.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S4096.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S4096x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8) S1x128x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16x16x16x1024 : Shape := ⟨4, ![16, 16, 16, 1024]⟩
abbrev S16x1024x512 : Shape := ⟨3, ![16, 1024, 512]⟩
abbrev S512x1024 : Shape := ⟨2, ![512, 1024]⟩
abbrev S1024x1024 : Shape := ⟨2, ![1024, 1024]⟩
abbrev S1024 : Shape := ⟨1, ![1024]⟩
abbrev S512 : Shape := ⟨1, ![512]⟩
abbrev S1024x4096 : Shape := ⟨2, ![1024, 4096]⟩
abbrev S4096 : Shape := ⟨1, ![4096]⟩
abbrev S4096x1024 : Shape := ⟨2, ![4096, 1024]⟩
abbrev S16x256x1024 : Shape := ⟨3, ![16, 256, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x1024 : Shape := ⟨2, ![16, 1024]⟩
abbrev S16x1024x1 : Shape := ⟨3, ![16, 1024, 1]⟩
abbrev S1x1x512 : Shape := ⟨3, ![1, 1, 512]⟩
abbrev S16x1024x1024 : Shape := ⟨3, ![16, 1024, 1024]⟩
abbrev S16x1024x16x64 : Shape := ⟨4, ![16, 1024, 16, 64]⟩
abbrev S16x16x1024x64 : Shape := ⟨4, ![16, 16, 1024, 64]⟩
abbrev S16x256x16x64 : Shape := ⟨4, ![16, 256, 16, 64]⟩
abbrev S16x16x256x64 : Shape := ⟨4, ![16, 16, 256, 64]⟩
abbrev S16x16x1024x256 : Shape := ⟨4, ![16, 16, 1024, 256]⟩
abbrev S16x16x1024 : Shape := ⟨3, ![16, 16, 1024]⟩
abbrev S16x16x1024x1 : Shape := ⟨4, ![16, 16, 1024, 1]⟩
abbrev S16x1024x4096 : Shape := ⟨3, ![16, 1024, 4096]⟩
abbrev S1x1x4096 : Shape := ⟨3, ![1, 1, 4096]⟩

abbrev nBuf : Space → Nat
  | .hbm => 162
  | .vmem => 0
  | .smem => 0
  | _ => 0

abbrev hbmTy0_0 (i : Nat) : BufTy := match i % 128 with
  | 0 => ⟨S16x16x16x1024, .f32⟩
  | 1 => ⟨S16x1024x512, .f32⟩
  | 2 => ⟨S512x1024, .f32⟩
  | 3 => ⟨S1024x1024, .f32⟩
  | 4 => ⟨S1024x1024, .f32⟩
  | 5 => ⟨S1024x1024, .f32⟩
  | 6 => ⟨S1024, .f32⟩
  | 7 => ⟨S1024, .f32⟩
  | 8 => ⟨S512, .f32⟩
  | 9 => ⟨S512, .f32⟩
  | 10 => ⟨S1024, .f32⟩
  | 11 => ⟨S1024, .f32⟩
  | 12 => ⟨S1024x4096, .f32⟩
  | 13 => ⟨S4096, .f32⟩
  | 14 => ⟨S4096x1024, .f32⟩
  | 15 => ⟨S1024, .f32⟩
  | 16 => ⟨S16x256x1024, .f32⟩
  | 17 => ⟨S16x256x1024, .f32⟩
  | 18 => ⟨S_, .f32⟩
  | 19 => ⟨S16x256, .f32⟩
  | 20 => ⟨S16x256x1, .f32⟩
  | 21 => ⟨S_, .f32⟩
  | 22 => ⟨S16x256x1, .f32⟩
  | 23 => ⟨S16x256x1, .f32⟩
  | 24 => ⟨S16x256x1024, .f32⟩
  | 25 => ⟨S16x256x1024, .f32⟩
  | 26 => ⟨S16x256x1024, .f32⟩
  | 27 => ⟨S_, .f32⟩
  | 28 => ⟨S16x256, .f32⟩
  | 29 => ⟨S16x256x1, .f32⟩
  | 30 => ⟨S_, .f32⟩
  | 31 => ⟨S16x256x1, .f32⟩
  | 32 => ⟨S16x256x1, .f32⟩
  | 33 => ⟨S16x256x1024, .f32⟩
  | 34 => ⟨S16x256x1024, .f32⟩
  | 35 => ⟨S_, .f32⟩
  | 36 => ⟨S16x256x1, .f32⟩
  | 37 => ⟨S16x256x1, .f32⟩
  | 38 => ⟨S16x256x1, .f32⟩
  | 39 => ⟨S16x256x1024, .f32⟩
  | 40 => ⟨S16x256x1024, .f32⟩
  | 41 => ⟨S1x1x1024, .f32⟩
  | 42 => ⟨S16x256x1024, .f32⟩
  | 43 => ⟨S16x256x1024, .f32⟩
  | 44 => ⟨S1x1x1024, .f32⟩
  | 45 => ⟨S16x256x1024, .f32⟩
  | 46 => ⟨S16x256x1024, .f32⟩
  | 47 => ⟨S16x256x1024, .f32⟩
  | 48 => ⟨S_, .f32⟩
  | 49 => ⟨S16x1024, .f32⟩
  | 50 => ⟨S16x1024x1, .f32⟩
  | 51 => ⟨S_, .f32⟩
  | 52 => ⟨S16x1024x1, .f32⟩
  | 53 => ⟨S16x1024x1, .f32⟩
  | 54 => ⟨S16x1024x512, .f32⟩
  | 55 => ⟨S16x1024x512, .f32⟩
  | 56 => ⟨S16x1024x512, .f32⟩
  | 57 => ⟨S_, .f32⟩
  | 58 => ⟨S16x1024, .f32⟩
  | 59 => ⟨S16x1024x1, .f32⟩
  | 60 => ⟨S_, .f32⟩
  | 61 => ⟨S16x1024x1, .f32⟩
  | 62 => ⟨S16x1024x1, .f32⟩
  | 63 => ⟨S16x1024x512, .f32⟩
  | 64 => ⟨S16x1024x512, .f32⟩
  | 65 => ⟨S_, .f32⟩
  | 66 => ⟨S16x1024x1, .f32⟩
  | 67 => ⟨S16x1024x1, .f32⟩
  | 68 => ⟨S16x1024x1, .f32⟩
  | 69 => ⟨S16x1024x512, .f32⟩
  | 70 => ⟨S16x1024x512, .f32⟩
  | 71 => ⟨S1x1x512, .f32⟩
  | 72 => ⟨S16x1024x512, .f32⟩
  | 73 => ⟨S16x1024x512, .f32⟩
  | 74 => ⟨S1x1x512, .f32⟩
  | 75 => ⟨S16x1024x512, .f32⟩
  | 76 => ⟨S16x1024x512, .f32⟩
  | 77 => ⟨S16x1024x1024, .f32⟩
  | 78 => ⟨S16x1024x16x64, .f32⟩
  | 79 => ⟨S16x16x1024x64, .f32⟩
  | 80 => ⟨S16x256x16x64, .f32⟩
  | 81 => ⟨S16x16x256x64, .f32⟩
  | 82 => ⟨S16x256x16x64, .f32⟩
  | 83 => ⟨S16x16x256x64, .f32⟩
  | 84 => ⟨S16x16x1024x256, .f32⟩
  | 85 => ⟨S_, .f32⟩
  | 86 => ⟨S16x16x1024x256, .f32⟩
  | 87 => ⟨S16x16x1024x256, .f32⟩
  | 88 => ⟨S_, .f32⟩
  | 89 => ⟨S16x16x1024, .f32⟩
  | 90 => ⟨S_, .f32⟩
  | 91 => ⟨S16x16x1024, .f32⟩
  | 92 => ⟨S16x16x1024, .f32⟩
  | 93 => ⟨S16x16x1024x1, .f32⟩
  | 94 => ⟨S16x16x1024x256, .f32⟩
  | 95 => ⟨S16x16x1024x256, .f32⟩
  | 96 => ⟨S16x16x1024x256, .f32⟩
  | 97 => ⟨S_, .f32⟩
  | 98 => ⟨S16x16x1024, .f32⟩
  | 99 => ⟨S16x16x1024x1, .f32⟩
  | 100 => ⟨S16x16x1024x256, .f32⟩
  | 101 => ⟨S16x16x1024x256, .f32⟩
  | 102 => ⟨S16x16x1024x64, .f32⟩
  | 103 => ⟨S16x1024x16x64, .f32⟩
  | 104 => ⟨S16x1024x1024, .f32⟩
  | 105 => ⟨S16x1024x1024, .f32⟩
  | 106 => ⟨S16x1024x1024, .f32⟩
  | 107 => ⟨S_, .f32⟩
  | 108 => ⟨S16x1024, .f32⟩
  | 109 => ⟨S16x1024x1, .f32⟩
  | 110 => ⟨S_, .f32⟩
  | 111 => ⟨S16x1024x1, .f32⟩
  | 112 => ⟨S16x1024x1, .f32⟩
  | 113 => ⟨S16x1024x1024, .f32⟩
  | 114 => ⟨S16x1024x1024, .f32⟩
  | 115 => ⟨S16x1024x1024, .f32⟩
  | 116 => ⟨S_, .f32⟩
  | 117 => ⟨S16x1024, .f32⟩
  | 118 => ⟨S16x1024x1, .f32⟩
  | 119 => ⟨S_, .f32⟩
  | 120 => ⟨S16x1024x1, .f32⟩
  | 121 => ⟨S16x1024x1, .f32⟩
  | 122 => ⟨S16x1024x1024, .f32⟩
  | 123 => ⟨S16x1024x1024, .f32⟩
  | 124 => ⟨S_, .f32⟩
  | 125 => ⟨S16x1024x1, .f32⟩
  | 126 => ⟨S16x1024x1, .f32⟩
  | 127 => ⟨S16x1024x1, .f32⟩
  | _ => ⟨S16x16x16x1024, .f32⟩

abbrev hbmTy0_1 (i : Nat) : BufTy := match i % 128 with
  | 0 => ⟨S16x1024x1024, .f32⟩
  | 1 => ⟨S16x1024x1024, .f32⟩
  | 2 => ⟨S1x1x1024, .f32⟩
  | 3 => ⟨S16x1024x1024, .f32⟩
  | 4 => ⟨S16x1024x1024, .f32⟩
  | 5 => ⟨S1x1x1024, .f32⟩
  | 6 => ⟨S16x1024x1024, .f32⟩
  | 7 => ⟨S16x1024x1024, .f32⟩
  | 8 => ⟨S16x1024x4096, .f32⟩
  | 9 => ⟨S1x1x4096, .f32⟩
  | 10 => ⟨S16x1024x4096, .f32⟩
  | 11 => ⟨S16x1024x4096, .f32⟩
  | 12 => ⟨S16x1024x4096, .f32⟩
  | 13 => ⟨S16x1024x4096, .f32⟩
  | 14 => ⟨S_, .f32⟩
  | 15 => ⟨S16x1024x4096, .f32⟩
  | 16 => ⟨S16x1024x4096, .f32⟩
  | 17 => ⟨S16x1024x4096, .f32⟩
  | 18 => ⟨S_, .f32⟩
  | 19 => ⟨S16x1024x4096, .f32⟩
  | 20 => ⟨S16x1024x4096, .f32⟩
  | 21 => ⟨S16x1024x4096, .f32⟩
  | 22 => ⟨S_, .f32⟩
  | 23 => ⟨S16x1024x4096, .f32⟩
  | 24 => ⟨S16x1024x4096, .f32⟩
  | 25 => ⟨S_, .f32⟩
  | 26 => ⟨S16x1024x4096, .f32⟩
  | 27 => ⟨S16x1024x4096, .f32⟩
  | 28 => ⟨S16x1024x4096, .f32⟩
  | 29 => ⟨S16x1024x1024, .f32⟩
  | 30 => ⟨S1x1x1024, .f32⟩
  | 31 => ⟨S16x1024x1024, .f32⟩
  | 32 => ⟨S16x1024x1024, .f32⟩
  | 33 => ⟨S16x1024x1024, .f32⟩
  | _ => ⟨S16x16x16x1024, .f32⟩

abbrev hbmTy (i : Nat) : BufTy := match i / 128 with
  | 0 => hbmTy0_0 i
  | 1 => hbmTy0_1 i
  | _ => ⟨S16x16x16x1024, .f32⟩

abbrev bufTy : (tb : Table) → Fin (tcTables nBuf tb) → BufTy
  | .hbm, ⟨i, _⟩ => hbmTy i
  | _, _ => ⟨S16x16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_13 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_17 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_18 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_19 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_20 : Ref sig .tc := ⟨.hbm, 150, rfl⟩
abbrev main_v113 : Ref sig .tc := ⟨.hbm, 151, rfl⟩
abbrev main_v114 : Ref sig .tc := ⟨.hbm, 152, rfl⟩
abbrev main_cst_21 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩

abbrev nD : Nat := 1
abbrev τ : Topo := Topo.v7x

variable {F : FTy → Type} [FloatOps F]

class Facts₀ : Prop where
  shapeCasts_S16x16x16x1024_S16x256x1024 : S16x16x16x1024.ShapeCasts S16x256x1024
  reducesTo_S16x256x1024_S16x256_d2 : S16x256x1024.ReducesTo [2] S16x256
  h_S_ : 0 < S_.numel
  bcast_S16x256_S16x256x1_0_1 : S16x256.BroadcastsInDim S16x256x1 (![0, 1] : Fin 2 → Fin S16x256x1.rank)
  bcast_S_S16x256x1 : S_.BroadcastsInDim S16x256x1 (![] : Fin 0 → Fin S16x256x1.rank)
  bcast_S16x256x1_S16x256x1024_0_1_2 : S16x256x1.BroadcastsInDim S16x256x1024 (![0, 1, 2] : Fin 3 → Fin S16x256x1024.rank)
  bcast_S1024_S1x1x1024_2 : S1024.BroadcastsInDim S1x1x1024 (![2] : Fin 1 → Fin S1x1x1024.rank)
  bcast_S1x1x1024_S16x256x1024_0_1_2 : S1x1x1024.BroadcastsInDim S16x256x1024 (![0, 1, 2] : Fin 3 → Fin S16x256x1024.rank)
  reducesTo_S16x1024x512_S16x1024_d2 : S16x1024x512.ReducesTo [2] S16x1024
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x512_0_1_2 : S16x1024x1.BroadcastsInDim S16x1024x512 (![0, 1, 2] : Fin 3 → Fin S16x1024x512.rank)
  bcast_S512_S1x1x512_2 : S512.BroadcastsInDim S1x1x512 (![2] : Fin 1 → Fin S1x1x512.rank)
  bcast_S1x1x512_S16x1024x512_0_1_2 : S1x1x512.BroadcastsInDim S16x1024x512 (![0, 1, 2] : Fin 3 → Fin S16x1024x512.rank)
  shapeCasts_S16x1024x1024_S16x1024x16x64 : S16x1024x1024.ShapeCasts S16x1024x16x64
  transposes_S16x1024x16x64_S16x16x1024x64_0_2_1_3 : S16x1024x16x64.Transposes [0, 2, 1, 3] S16x16x1024x64
  shapeCasts_S16x256x1024_S16x256x16x64 : S16x256x1024.ShapeCasts S16x256x16x64
  transposes_S16x256x16x64_S16x16x256x64_0_2_1_3 : S16x256x16x64.Transposes [0, 2, 1, 3] S16x16x256x64
  bcast_S_S16x16x1024x256 : S_.BroadcastsInDim S16x16x1024x256 (![] : Fin 0 → Fin S16x16x1024x256.rank)
  reducesTo_S16x16x1024x256_S16x16x1024_d3 : S16x16x1024x256.ReducesTo [3] S16x16x1024
  bcast_S_S16x16x1024 : S_.BroadcastsInDim S16x16x1024 (![] : Fin 0 → Fin S16x16x1024.rank)
  bcast_S16x16x1024_S16x16x1024x1_0_1_2 : S16x16x1024.BroadcastsInDim S16x16x1024x1 (![0, 1, 2] : Fin 3 → Fin S16x16x1024x1.rank)
  bcast_S16x16x1024x1_S16x16x1024x256_0_1_2_3 : S16x16x1024x1.BroadcastsInDim S16x16x1024x256 (![0, 1, 2, 3] : Fin 4 → Fin S16x16x1024x256.rank)
  transposes_S16x16x1024x64_S16x1024x16x64_0_2_1_3 : S16x16x1024x64.Transposes [0, 2, 1, 3] S16x1024x16x64
  shapeCasts_S16x1024x16x64_S16x1024x1024 : S16x1024x16x64.ShapeCasts S16x1024x1024
  reducesTo_S16x1024x1024_S16x1024_d2 : S16x1024x1024.ReducesTo [2] S16x1024
  bcast_S16x1024x1_S16x1024x1024_0_1_2 : S16x1024x1.BroadcastsInDim S16x1024x1024 (![0, 1, 2] : Fin 3 → Fin S16x1024x1024.rank)
  bcast_S1x1x1024_S16x1024x1024_0_1_2 : S1x1x1024.BroadcastsInDim S16x1024x1024 (![0, 1, 2] : Fin 3 → Fin S16x1024x1024.rank)
  bcast_S4096_S1x1x4096_2 : S4096.BroadcastsInDim S1x1x4096 (![2] : Fin 1 → Fin S1x1x4096.rank)
  bcast_S1x1x4096_S16x1024x4096_0_1_2 : S1x1x4096.BroadcastsInDim S16x1024x4096 (![0, 1, 2] : Fin 3 → Fin S16x1024x4096.rank)
  bcast_S_S16x1024x4096 : S_.BroadcastsInDim S16x1024x4096 (![] : Fin 0 → Fin S16x1024x4096.rank)
  dot_S16x256x1024_S1024x1024_S16x256x1024_2_0_01_1_n_n_wf : DotDims.WF S16x256x1024 S1024x1024 S16x256x1024 [2] [0] [0, 1] [1] [] []
  dot_S16x1024x512_S512x1024_S16x1024x1024_2_0_01_1_n_n_wf : DotDims.WF S16x1024x512 S512x1024 S16x1024x1024 [2] [0] [0, 1] [1] [] []
  dot_S16x16x1024x64_S16x16x256x64_S16x16x1024x256_3_3_2_2_01_01_wf : DotDims.WF S16x16x1024x64 S16x16x256x64 S16x16x1024x256 [3] [3] [2] [2] [0, 1] [0, 1]
  dot_S16x16x1024x256_S16x16x256x64_S16x16x1024x64_3_2_2_3_01_01_wf : DotDims.WF S16x16x1024x256 S16x16x256x64 S16x16x1024x64 [3] [2] [2] [3] [0, 1] [0, 1]
  dot_S16x1024x1024_S1024x1024_S16x1024x1024_2_0_01_1_n_n_wf : DotDims.WF S16x1024x1024 S1024x1024 S16x1024x1024 [2] [0] [0, 1] [1] [] []
  dot_S16x1024x1024_S1024x4096_S16x1024x4096_2_0_01_1_n_n_wf : DotDims.WF S16x1024x1024 S1024x4096 S16x1024x4096 [2] [0] [0, 1] [1] [] []
  dot_S16x1024x4096_S4096x1024_S16x1024x1024_2_0_01_1_n_n_wf : DotDims.WF S16x1024x4096 S4096x1024 S16x1024x1024 [2] [0] [0, 1] [1] [] []

variable [Facts₀]

def dot_S16x256x1024_S1024x1024_S16x256x1024_2_0_01_1_n_n : DotDims S16x256x1024 S1024x1024 S16x256x1024 where
  lhsContracting := [2]
  rhsContracting := [0]
  lhsNonContracting := [0, 1]
  rhsNonContracting := [1]
  lhsBatch := []
  rhsBatch := []
  wf := dot_S16x256x1024_S1024x1024_S16x256x1024_2_0_01_1_n_n_wf
def dot_S16x1024x512_S512x1024_S16x1024x1024_2_0_01_1_n_n : DotDims S16x1024x512 S512x1024 S16x1024x1024 where
  lhsContracting := [2]
  rhsContracting := [0]
  lhsNonContracting := [0, 1]
  rhsNonContracting := [1]
  lhsBatch := []
  rhsBatch := []
  wf := dot_S16x1024x512_S512x1024_S16x1024x1024_2_0_01_1_n_n_wf
def dot_S16x16x1024x64_S16x16x256x64_S16x16x1024x256_3_3_2_2_01_01 : DotDims S16x16x1024x64 S16x16x256x64 S16x16x1024x256 where
  lhsContracting := [3]
  rhsContracting := [3]
  lhsNonContracting := [2]
  rhsNonContracting := [2]
  lhsBatch := [0, 1]
  rhsBatch := [0, 1]
  wf := dot_S16x16x1024x64_S16x16x256x64_S16x16x1024x256_3_3_2_2_01_01_wf
def dot_S16x16x1024x256_S16x16x256x64_S16x16x1024x64_3_2_2_3_01_01 : DotDims S16x16x1024x256 S16x16x256x64 S16x16x1024x64 where
  lhsContracting := [3]
  rhsContracting := [2]
  lhsNonContracting := [2]
  rhsNonContracting := [3]
  lhsBatch := [0, 1]
  rhsBatch := [0, 1]
  wf := dot_S16x16x1024x256_S16x16x256x64_S16x16x1024x64_3_2_2_3_01_01_wf
def dot_S16x1024x1024_S1024x1024_S16x1024x1024_2_0_01_1_n_n : DotDims S16x1024x1024 S1024x1024 S16x1024x1024 where
  lhsContracting := [2]
  rhsContracting := [0]
  lhsNonContracting := [0, 1]
  rhsNonContracting := [1]
  lhsBatch := []
  rhsBatch := []
  wf := dot_S16x1024x1024_S1024x1024_S16x1024x1024_2_0_01_1_n_n_wf
def dot_S16x1024x1024_S1024x4096_S16x1024x4096_2_0_01_1_n_n : DotDims S16x1024x1024 S1024x4096 S16x1024x4096 where
  lhsContracting := [2]
  rhsContracting := [0]
  lhsNonContracting := [0, 1]
  rhsNonContracting := [1]
  lhsBatch := []
  rhsBatch := []
  wf := dot_S16x1024x1024_S1024x4096_S16x1024x4096_2_0_01_1_n_n_wf
def dot_S16x1024x4096_S4096x1024_S16x1024x1024_2_0_01_1_n_n : DotDims S16x1024x4096 S4096x1024 S16x1024x1024 where
  lhsContracting := [2]
  rhsContracting := [0]
  lhsNonContracting := [0, 1]
  rhsNonContracting := [1]
  lhsBatch := []
  rhsBatch := []
  wf := dot_S16x1024x4096_S4096x1024_S16x1024x1024_2_0_01_1_n_n_wf

class Facts : Prop extends Facts₀ where

variable [Facts]
-- ==== Proof.Body.lean ====
/-
  The value the body stores into its output block, as one pure function of the query block, the
  weights, and the sixteen 64-row bands of the transposed keys and 64-column bands of the values it
  loads from the two scratch buffers (head h uses band h).  Also the two values the first point of a
  batch stores into the scratch buffers: the transposed layer-normed keys and the values.
-/
import proofs.«147995_j10943576670702_2_alg».proof.Proof.Gen.KernelIdeal.Skeleton

noncomputable section

namespace Cert.KernelIdeal.Body

open Cert.KernelIdeal Cert.KernelIdeal.Gen Idealize.ShloMosaic

variable {F : FTy → Type} [FloatOps F]

/-- One head of attention on a block of 128 query rows: scores `qs · kt`, the row-wise softmax
    (maximum from −∞, subtract, exp, sum, divide), then the weighted sum of the values. -/
def headVec (qs : FVec F S128x64 .bf16) (kt : Vec F S64x256 .bf16) (vv : Vec F S256x64 .bf16) : FVec F S128x64 .f32 :=
  k0_pay9 qs kt vv

/-- The scaled query's columns `o … o+63`. -/
abbrev qslice (o : ℕ) (v37 : FVec F S128x1024 .bf16) (h : (S128x1024).Slices ![0, o] S128x64) : FVec F S128x64 .bf16 :=
  extractStridedSlice S128x64 ![0, o] v37 h

/-- The transposed keys the first point of a batch stores: layer-normed `grid_b · Wk`, transposed. -/
def keysT (x0 : Vec F S1x256x1024 .bf16) (x3 : Vec F S1024x1024 .bf16) (x6 x7 : Vec F S1024 .f32) : FVec F S1024x256 .bf16 :=
  k0_pay3 x0 x3 x6 x7

/-- The values the first point of a batch stores: `grid_b · Wv`. -/
def valsV (x0 : Vec F S1x256x1024 .bf16) (x4 : Vec F S1024x1024 .bf16) : FVec F S256x1024 .bf16 :=
  k0_pay5 (k0_pay4 x0 x4)

/-- The block's result from the query block, the weights and the bands. -/
def body (x1 : Vec F S1x128x512 .f32) (x2 : Vec F S512x1024 .bf16) (x5 : Vec F S1024x1024 .bf16)
    (x8 x9 : Vec F S512 .f32) (x10 x11 : Vec F S1024 .f32) (x12 : Vec F S1024x4096 .bf16) (x13 : Vec F S4096 .f32)
    (x14 : Vec F S4096x1024 .bf16) (x15 : Vec F S1024 .f32)
    (kt : Fin 16 → Vec F S64x256 .bf16) (vv : Fin 16 → Vec F S256x64 .bf16) : FVec F S1x128x1024 .f32 :=
  let v34 := k0_pay6 x1 x8 x9 x2
  let v37 := k0_pay7 x1 x8 x9 x2
  let v52 := k0_pay9 (k0_pay8 x1 x8 x9 x2) (kt 0) (vv 0)
  let v67 := k0_pay10 v37 (kt 1) (vv 1)
  let v82 := k0_pay13 (vv 2) (k0_pay11 v37 (kt 2)) (k0_pay12 v37 (kt 2))
  let v97 := k0_pay14 v37 (kt 3) (vv 3)
  let v112 := k0_pay15 v37 (kt 4) (vv 4)
  let v127 := k0_pay17 (k0_pay16 v37) (kt 5) (vv 5) (constant S128x256 .f32 0x00000000#32)
  let v142 := k0_pay18 v37 (kt 6) (vv 6)
  let v157 := k0_pay20 (vv 7) (k0_pay19 v37 (kt 7)) (constant S128x64 .f32 0x00000000#32)
  let v172 := k0_pay21 v37 (kt 8) (vv 8)
  let v187 := k0_pay22 v37 (kt 9) (vv 9)
  let v202 := k0_pay25 (vv 10) (k0_pay23 v37 (kt 10)) (k0_pay24 v37 (kt 10))
  let v217 := k0_pay26 v37 (kt 11) (vv 11)
  let v232 := k0_pay27 v37 (kt 12) (vv 12)
  let v247 := k0_pay29 (k0_pay28 v37) (kt 13) (vv 13)
  let v262 := k0_pay30 v37 (kt 14) (vv 14)
  let v271 := k0_pay31 v37 (kt 15)
  let v273 := k0_pay32 v37 (kt 15)
  k0_pay1
    (k0_pay33 v34 v52 v67 v82 v97 v112 v127 v142 v157 v172 v187 v202 v217 v232 v247 v262 (vv 15) v271 v273 x5)
    (k0_pay34 v34 v52 v67 v82 v97 v112 v127 v142 v157 v172 v187 v202 v217 v232 v247 v262 (vv 15) v271 v273 x5 x10 x11 x12 x13)
    (k0_pay35 v34 v52 v67 v82 v97 v112 v127 v142 v157 v172 v187 v202 v217 v232 v247 v262 (vv 15) v271 v273 x5 x10 x11 x12 x13)
    x14 x15

end Cert.KernelIdeal.Body

end
-- ==== Proof.Pieces.lean ====
/-
  What one run of the body leaves, as values.  At the first point of a batch (the case that fills the
  scratch) the two scratch buffers end holding the transposed layer-normed keys and the values of the
  batch's grid block, and the output block is the block function `body` of the query block, the weights
  and the sixteen bands of those two freshly stored arrays.  At every other point the scratch buffers
  are left as found, and the output block is `body` of the bands of what they hold.
  A band is a load through a unit-stride rectangle: rows 64h … 64h+63 of the transposed keys
  (a 1024×256 array), columns 64h … 64h+63 of the values (a 256×1024 array).
-/
import proofs.«147995_j10943576670702_2_alg».proof.Proof.Gen.KernelIdeal.Frame
import proofs.«147995_j10943576670702_2_alg».proof.Proof.Body
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.Body
open Idealize.ShloMosaic Idealize.ShloMosaic.TcCoe Idealize.SL.Sem Idealize.ShloMosaic.Tactic

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Band `h` of the transposed keys: rows `64 h … 64 h + 63`, all 256 columns. -/
def bandK (X : Vec F S1024x256 .bf16) : Fin 16 → Vec F S64x256 .bf16
  | ⟨0, _⟩ => View.ld X (Rect.unit (s := S1024x256) ![0, 0] S64x256.size inb_S1024x256_S64x256_0_0)
  | ⟨1, _⟩ => View.ld X (Rect.unit (s := S1024x256) ![64, 0] S64x256.size inb_S1024x256_S64x256_64_0)
  | ⟨2, _⟩ => View.ld X (Rect.unit (s := S1024x256) ![128, 0] S64x256.size inb_S1024x256_S64x256_128_0)
  | ⟨3, _⟩ => View.ld X (Rect.unit (s := S1024x256) ![192, 0] S64x256.size inb_S1024x256_S64x256_192_0)
  | ⟨4, _⟩ => View.ld X (Rect.unit (s := S1024x256) ![256, 0] S64x256.size inb_S1024x256_S64x256_256_0)
  | ⟨5, _⟩ => View.ld X (Rect.unit (s := S1024x256) ![320, 0] S64x256.size inb_S1024x256_S64x256_320_0)
  | ⟨6, _⟩ => View.ld X (Rect.unit (s := S1024x256) ![384, 0] S64x256.size inb_S1024x256_S64x256_384_0)
  | ⟨7, _⟩ => View.ld X (Rect.unit (s := S1024x256) ![448, 0] S64x256.size inb_S1024x256_S64x256_448_0)
  | ⟨8, _⟩ => View.ld X (Rect.unit (s := S1024x256) ![512, 0] S64x256.size inb_S1024x256_S64x256_512_0)
  | ⟨9, _⟩ => View.ld X (Rect.unit (s := S1024x256) ![576, 0] S64x256.size inb_S1024x256_S64x256_576_0)
  | ⟨10, _⟩ => View.ld X (Rect.unit (s := S1024x256) ![640, 0] S64x256.size inb_S1024x256_S64x256_640_0)
  | ⟨11, _⟩ => View.ld X (Rect.unit (s := S1024x256) ![704, 0] S64x256.size inb_S1024x256_S64x256_704_0)
  | ⟨12, _⟩ => View.ld X (Rect.unit (s := S1024x256) ![768, 0] S64x256.size inb_S1024x256_S64x256_768_0)
  | ⟨13, _⟩ => View.ld X (Rect.unit (s := S1024x256) ![832, 0] S64x256.size inb_S1024x256_S64x256_832_0)
  | ⟨14, _⟩ => View.ld X (Rect.unit (s := S1024x256) ![896, 0] S64x256.size inb_S1024x256_S64x256_896_0)
  | ⟨15, _⟩ => View.ld X (Rect.unit (s := S1024x256) ![960, 0] S64x256.size inb_S1024x256_S64x256_960_0)
  | ⟨_ + 16, h⟩ => absurd h (Nat.not_lt.2 (Nat.le_add_left _ _))

/-- Band `h` of the values: all 256 rows, columns `64 h … 64 h + 63`. -/
def bandV (X : Vec F S256x1024 .bf16) : Fin 16 → Vec F S256x64 .bf16
  | ⟨0, _⟩ => View.ld X (Rect.unit (s := S256x1024) ![0, 0] S256x64.size inb_S256x1024_S256x64_0_0)
  | ⟨1, _⟩ => View.ld X (Rect.unit (s := S256x1024) ![0, 64] S256x64.size inb_S256x1024_S256x64_0_64)
  | ⟨2, _⟩ => View.ld X (Rect.unit (s := S256x1024) ![0, 128] S256x64.size inb_S256x1024_S256x64_0_128)
  | ⟨3, _⟩ => View.ld X (Rect.unit (s := S256x1024) ![0, 192] S256x64.size inb_S256x1024_S256x64_0_192)
  | ⟨4, _⟩ => View.ld X (Rect.unit (s := S256x1024) ![0, 256] S256x64.size inb_S256x1024_S256x64_0_256)
  | ⟨5, _⟩ => View.ld X (Rect.unit (s := S256x1024) ![0, 320] S256x64.size inb_S256x1024_S256x64_0_320)
  | ⟨6, _⟩ => View.ld X (Rect.unit (s := S256x1024) ![0, 384] S256x64.size inb_S256x1024_S256x64_0_384)
  | ⟨7, _⟩ => View.ld X (Rect.unit (s := S256x1024) ![0, 448] S256x64.size inb_S256x1024_S256x64_0_448)
  | ⟨8, _⟩ => View.ld X (Rect.unit (s := S256x1024) ![0, 512] S256x64.size inb_S256x1024_S256x64_0_512)
  | ⟨9, _⟩ => View.ld X (Rect.unit (s := S256x1024) ![0, 576] S256x64.size inb_S256x1024_S256x64_0_576)
  | ⟨10, _⟩ => View.ld X (Rect.unit (s := S256x1024) ![0, 640] S256x64.size inb_S256x1024_S256x64_0_640)
  | ⟨11, _⟩ => View.ld X (Rect.unit (s := S256x1024) ![0, 704] S256x64.size inb_S256x1024_S256x64_0_704)
  | ⟨12, _⟩ => View.ld X (Rect.unit (s := S256x1024) ![0, 768] S256x64.size inb_S256x1024_S256x64_0_768)
  | ⟨13, _⟩ => View.ld X (Rect.unit (s := S256x1024) ![0, 832] S256x64.size inb_S256x1024_S256x64_0_832)
  | ⟨14, _⟩ => View.ld X (Rect.unit (s := S256x1024) ![0, 896] S256x64.size inb_S256x1024_S256x64_0_896)
  | ⟨15, _⟩ => View.ld X (Rect.unit (s := S256x1024) ![0, 960] S256x64.size inb_S256x1024_S256x64_0_960)
  | ⟨_ + 16, h⟩ => absurd h (Nat.not_lt.2 (Nat.le_add_left _ _))

/-- A load, through any rectangle, of what one store of the whole buffer left reads the stored value there. -/
theorem readCov_whole {sig : RefSig} {κ : Kind} {sp : Space} {S : Shape} {e : EltTy} (v : View sig κ sp S e)
    {off : Fin S.rank → Nat} (h : off = fun _ => 0) (inb : ∀ a, off a + S.size a ≤ S.size a)
    (P : S.Idx → Elt F e) (R : Rect S) :
    v.readCov [(⟨Rect.unit off S.size inb, P⟩ : View.Piece (Elt F) S e)] R.toLoadRect = View.ld P R := by
  rw [View.readCov_eq_canon', View.canon_unit_zero h]

/-- The first point of a batch leaves the transposed keys in the first scratch buffer. -/
theorem scrK_A (c : Dev nD) (i : grid0.Coords) (arg2 : Memref sig .tc .vmem S1x256x1024 .bf16) (harg2 : arg2.IsWhole) (arg3 : Memref sig .tc .vmem S1x128x512 .f32) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024 .f32) (harg9 : arg9.IsWhole) (arg10 : Memref sig .tc .vmem S512 .f32) (harg10 : arg10.IsWhole) (arg11 : Memref sig .tc .vmem S512 .f32) (harg11 : arg11.IsWhole) (arg12 : Memref sig .tc .vmem S1024 .f32) (harg12 : arg12.IsWhole) (arg13 : Memref sig .tc .vmem S1024 .f32) (harg13 : arg13.IsWhole) (arg14 : Memref sig .tc .vmem S1024x4096 .bf16) (harg14 : arg14.IsWhole) (arg15 : Memref sig .tc .vmem S4096 .f32) (harg15 : arg15.IsWhole) (arg16 : Memref sig .tc .vmem S4096x1024 .bf16) (harg16 : arg16.IsWhole) (arg17 : Memref sig .tc .vmem S1024 .f32) (harg17 : arg17.IsWhole) (arg18 : Memref sig .tc .vmem S1x128x1024 .f32) (harg18 : arg18.IsWhole) (arg19 : Memref sig .tc .vmem S1024x256 .bf16) (harg19 : arg19.IsWhole) (arg20 : Memref sig .tc .vmem S256x1024 .bf16) (harg20 : arg20.IsWhole) (hc0 : cond0_0 i)
    (x0 : Vec F S1x256x1024 .bf16) (x1 : Vec F S1x128x512 .f32) (x2 : Vec F S512x1024 .bf16) (x3 : Vec F S1024x1024 .bf16) (x4 : Vec F S1024x1024 .bf16) (x5 : Vec F S1024x1024 .bf16) (x6 : Vec F S1024 .f32) (x7 : Vec F S1024 .f32) (x8 : Vec F S512 .f32) (x9 : Vec F S512 .f32) (x10 : Vec F S1024 .f32) (x11 : Vec F S1024 .f32) (x12 : Vec F S1024x4096 .bf16) (x13 : Vec F S4096 .f32) (x14 : Vec F S4096x1024 .bf16) (x15 : Vec F S1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 = keysT x0 x3 x6 x7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15)]
  unfold kernelRun0_A
  dsimp only
  sl_unfold_words
  rw [View.canon_unit_zero hz2]
  simp only [View.readAt_eq_ld, harg2.read_unread, harg5.read_unread, harg8.read_unread, harg9.read_unread,
    View.ld_unit_zero (S := S1x256x1024) hz3, View.ld_unit_zero (S := S1024x1024) hz2, View.ld_unit_zero (S := S1024) hz1]
  try rfl

/-- … and the values in the second. -/
theorem scrV_A (c : Dev nD) (i : grid0.Coords) (arg2 : Memref sig .tc .vmem S1x256x1024 .bf16) (harg2 : arg2.IsWhole) (arg3 : Memref sig .tc .vmem S1x128x512 .f32) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024 .f32) (harg9 : arg9.IsWhole) (arg10 : Memref sig .tc .vmem S512 .f32) (harg10 : arg10.IsWhole) (arg11 : Memref sig .tc .vmem S512 .f32) (harg11 : arg11.IsWhole) (arg12 : Memref sig .tc .vmem S1024 .f32) (harg12 : arg12.IsWhole) (arg13 : Memref sig .tc .vmem S1024 .f32) (harg13 : arg13.IsWhole) (arg14 : Memref sig .tc .vmem S1024x4096 .bf16) (harg14 : arg14.IsWhole) (arg15 : Memref sig .tc .vmem S4096 .f32) (harg15 : arg15.IsWhole) (arg16 : Memref sig .tc .vmem S4096x1024 .bf16) (harg16 : arg16.IsWhole) (arg17 : Memref sig .tc .vmem S1024 .f32) (harg17 : arg17.IsWhole) (arg18 : Memref sig .tc .vmem S1x128x1024 .f32) (harg18 : arg18.IsWhole) (arg19 : Memref sig .tc .vmem S1024x256 .bf16) (harg19 : arg19.IsWhole) (arg20 : Memref sig .tc .vmem S256x1024 .bf16) (harg20 : arg20.IsWhole) (hc0 : cond0_0 i)
    (x0 : Vec F S1x256x1024 .bf16) (x1 : Vec F S1x128x512 .f32) (x2 : Vec F S512x1024 .bf16) (x3 : Vec F S1024x1024 .bf16) (x4 : Vec F S1024x1024 .bf16) (x5 : Vec F S1024x1024 .bf16) (x6 : Vec F S1024 .f32) (x7 : Vec F S1024 .f32) (x8 : Vec F S512 .f32) (x9 : Vec F S512 .f32) (x10 : Vec F S1024 .f32) (x11 : Vec F S1024 .f32) (x12 : Vec F S1024x4096 .bf16) (x13 : Vec F S4096 .f32) (x14 : Vec F S4096x1024 .bf16) (x15 : Vec F S1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 = valsV x0 x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15)]
  unfold kernelRun0_A
  dsimp only
  sl_unfold_words
  rw [View.canon_unit_zero hz2]
  simp only [View.readAt_eq_ld, harg2.read_unread, harg6.read_unread,
    View.ld_unit_zero (S := S1x256x1024) hz3, View.ld_unit_zero (S := S1024x1024) hz2]
  try rfl

/-- A later point of a batch: the block function of the bands of what the scratch buffers hold. -/
theorem out_B (c : Dev nD) (i : grid0.Coords) (arg2 : Memref sig .tc .vmem S1x256x1024 .bf16) (harg2 : arg2.IsWhole) (arg3 : Memref sig .tc .vmem S1x128x512 .f32) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024 .f32) (harg9 : arg9.IsWhole) (arg10 : Memref sig .tc .vmem S512 .f32) (harg10 : arg10.IsWhole) (arg11 : Memref sig .tc .vmem S512 .f32) (harg11 : arg11.IsWhole) (arg12 : Memref sig .tc .vmem S1024 .f32) (harg12 : arg12.IsWhole) (arg13 : Memref sig .tc .vmem S1024 .f32) (harg13 : arg13.IsWhole) (arg14 : Memref sig .tc .vmem S1024x4096 .bf16) (harg14 : arg14.IsWhole) (arg15 : Memref sig .tc .vmem S4096 .f32) (harg15 : arg15.IsWhole) (arg16 : Memref sig .tc .vmem S4096x1024 .bf16) (harg16 : arg16.IsWhole) (arg17 : Memref sig .tc .vmem S1024 .f32) (harg17 : arg17.IsWhole) (arg18 : Memref sig .tc .vmem S1x128x1024 .f32) (harg18 : arg18.IsWhole) (arg19 : Memref sig .tc .vmem S1024x256 .bf16) (harg19 : arg19.IsWhole) (arg20 : Memref sig .tc .vmem S256x1024 .bf16) (harg20 : arg20.IsWhole) (hc0 : ¬cond0_0 i)
    (x0 : Vec F S1x256x1024 .bf16) (x1 : Vec F S1x128x512 .f32) (x2 : Vec F S512x1024 .bf16) (x3 : Vec F S1024x1024 .bf16) (x4 : Vec F S1024x1024 .bf16) (x5 : Vec F S1024x1024 .bf16) (x6 : Vec F S1024 .f32) (x7 : Vec F S1024 .f32) (x8 : Vec F S512 .f32) (x9 : Vec F S512 .f32) (x10 : Vec F S1024 .f32) (x11 : Vec F S1024 .f32) (x12 : Vec F S1024x4096 .bf16) (x13 : Vec F S4096 .f32) (x14 : Vec F S4096x1024 .bf16) (x15 : Vec F S1024 .f32) (xs0 : Vec F S1024x256 .bf16) (xs1 : Vec F S256x1024 .bf16) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 xs1 = body x1 x2 x5 x8 x9 x10 x11 x12 x13 x14 x15 (bandK xs0) (bandV xs1) := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg19.read_unread, harg20.read_unread,
    View.ld_unit_zero (S := S1x128x512) hz3, View.ld_unit_zero (S := S1x256x1024) hz3, View.ld_unit_zero (S := S512x1024) hz2, View.ld_unit_zero (S := S1024x1024) hz2, View.ld_unit_zero (S := S1024x4096) hz2, View.ld_unit_zero (S := S4096x1024) hz2, View.ld_unit_zero (S := S1024) hz1, View.ld_unit_zero (S := S512) hz1, View.ld_unit_zero (S := S4096) hz1]
  rfl

/-- The first point of a batch: the block function of the bands of what it has just stored. -/
theorem out_A (c : Dev nD) (i : grid0.Coords) (arg2 : Memref sig .tc .vmem S1x256x1024 .bf16) (harg2 : arg2.IsWhole) (arg3 : Memref sig .tc .vmem S1x128x512 .f32) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024 .f32) (harg9 : arg9.IsWhole) (arg10 : Memref sig .tc .vmem S512 .f32) (harg10 : arg10.IsWhole) (arg11 : Memref sig .tc .vmem S512 .f32) (harg11 : arg11.IsWhole) (arg12 : Memref sig .tc .vmem S1024 .f32) (harg12 : arg12.IsWhole) (arg13 : Memref sig .tc .vmem S1024 .f32) (harg13 : arg13.IsWhole) (arg14 : Memref sig .tc .vmem S1024x4096 .bf16) (harg14 : arg14.IsWhole) (arg15 : Memref sig .tc .vmem S4096 .f32) (harg15 : arg15.IsWhole) (arg16 : Memref sig .tc .vmem S4096x1024 .bf16) (harg16 : arg16.IsWhole) (arg17 : Memref sig .tc .vmem S1024 .f32) (harg17 : arg17.IsWhole) (arg18 : Memref sig .tc .vmem S1x128x1024 .f32) (harg18 : arg18.IsWhole) (arg19 : Memref sig .tc .vmem S1024x256 .bf16) (harg19 : arg19.IsWhole) (arg20 : Memref sig .tc .vmem S256x1024 .bf16) (harg20 : arg20.IsWhole) (hc0 : cond0_0 i)
    (x0 : Vec F S1x256x1024 .bf16) (x1 : Vec F S1x128x512 .f32) (x2 : Vec F S512x1024 .bf16) (x3 : Vec F S1024x1024 .bf16) (x4 : Vec F S1024x1024 .bf16) (x5 : Vec F S1024x1024 .bf16) (x6 : Vec F S1024 .f32) (x7 : Vec F S1024 .f32) (x8 : Vec F S512 .f32) (x9 : Vec F S512 .f32) (x10 : Vec F S1024 .f32) (x11 : Vec F S1024 .f32) (x12 : Vec F S1024x4096 .bf16) (x13 : Vec F S4096 .f32) (x14 : Vec F S4096x1024 .bf16) (x15 : Vec F S1024 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 = body x1 x2 x5 x8 x9 x10 x11 x12 x13 x14 x15 (bandK (keysT x0 x3 x6 x7)) (bandV (valsV x0 x4)) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x128x512) hz3, View.ld_unit_zero (S := S1x256x1024) hz3, View.ld_unit_zero (S := S512x1024) hz2, View.ld_unit_zero (S := S1024x1024) hz2, View.ld_unit_zero (S := S1024x4096) hz2, View.ld_unit_zero (S := S4096x1024) hz2, View.ld_unit_zero (S := S1024) hz1, View.ld_unit_zero (S := S512) hz1, View.ld_unit_zero (S := S4096) hz1,
    readCov_whole (S := S1024x256) _ hz2, readCov_whole (S := S256x1024) _ hz2]
  rfl

end Cert.KernelIdeal.Pieces

end
-- ==== Proof.Blocks.lean ====
/-
  The blocks the body is run on, read off the arrays as the region finds them.  The grid has
  16 × 8 points; point t works on batch t / 8 and query tile t % 8.  The grid window's block at
  t is the whole 256 × 1024 slab of batch t / 8; the query window's block is rows
  128 (t % 8) … 128 (t % 8) + 127 of that batch's queries; every other input window stages its
  whole array.  The arrays the host wrote before the region are the arguments with the format
  change and the grid's reshape applied.
-/
import proofs.«147995_j10943576670702_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps, decided once over the 128 points. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_16.index t (0 : Fin 3) = t.val / 8 ∧ win0_16.index t (1 : Fin 3) = t.val % 8 ∧ win0_16.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 1) = 0
    ∧ win0_8.index t (0 : Fin 1) = 0
    ∧ win0_9.index t (0 : Fin 1) = 0
    ∧ win0_10.index t (0 : Fin 1) = 0
    ∧ win0_11.index t (0 : Fin 1) = 0
    ∧ win0_12.index t (0 : Fin 2) = 0
    ∧ win0_12.index t (1 : Fin 2) = 0
    ∧ win0_13.index t (0 : Fin 1) = 0
    ∧ win0_14.index t (0 : Fin 2) = 0
    ∧ win0_14.index t (1 : Fin 2) = 0
    ∧ win0_15.index t (0 : Fin 1) = 0 :=
  (by decide +kernel : ∀ t : Fin grid0.N, _)

theorem batch_lt (t : Fin cfg0.N) : t.val / 8 < 16 := by
  have h := t.isLt; have hN : cfg0.N = 128 := N_0; omega

theorem row_lt (t : Fin cfg0.N) (p : Fin 128) : 128 * (t.val % 8) + p.val < 1024 := by
  have := p.isLt; omega

/-- The grid window's block at point `t` is batch `t / 8`'s slab. -/
theorem blk0 (c : Dev nD) (t : Fin cfg0.N) (y : S1x256x1024.Idx) :
    (iblk m c 0 t : Vec F S1x256x1024 .bf16) y = V m c main_v1 (ix3 ⟨t.val / 8, batch_lt t⟩ (y 1) (y 2)) := by
  obtain ⟨e0, e1, e2, e3, e4, e5, e6, e7, e8, e9, e10, e11, e12, e13, e14, e15, e16, e17, e18, e19, e20, e21, e22, e23, e24, e25, e26, e27, e28⟩ := idx_facts t
  show V m c main_v1 (((cfg0.win 0).blk t).view.emb y) = _
  refine congrArg (V m c main_v1) (funext fun a => Fin.ext ?_)
  match a with
  | ⟨0, _⟩ => show win0_0.index t (0 : Fin 3) * 1 + 1 * (y 0).val = t.val / 8; have : (y 0).val < 1 := (y 0).isLt; rw [e0]; omega
  | ⟨1, _⟩ => show win0_0.index t (1 : Fin 3) * 256 + 1 * (y 1).val = (y 1).val; rw [e1]; omega
  | ⟨2, _⟩ => show win0_0.index t (2 : Fin 3) * 1024 + 1 * (y 2).val = (y 2).val; rw [e2]; omega

/-- The query window's block at point `t`: rows `128 (t % 8) + p` of batch `t / 8`. -/
theorem blk1 (c : Dev nD) (t : Fin cfg0.N) (y : S1x128x512.Idx) :
    (iblk m c 1 t : Vec F S1x128x512 .f32) y = V m c main_arg1 (ix3 ⟨t.val / 8, batch_lt t⟩ ⟨128 * (t.val % 8) + (y 1).val, row_lt t (y 1)⟩ (y 2)) := by
  obtain ⟨e0, e1, e2, e3, e4, e5, e6, e7, e8, e9, e10, e11, e12, e13, e14, e15, e16, e17, e18, e19, e20, e21, e22, e23, e24, e25, e26, e27, e28⟩ := idx_facts t
  show V m c main_arg1 (((cfg0.win 1).blk t).view.emb y) = _
  refine congrArg (V m c main_arg1) (funext fun a => Fin.ext ?_)
  match a with
  | ⟨0, _⟩ => show win0_1.index t (0 : Fin 3) * 1 + 1 * (y 0).val = t.val / 8; have : (y 0).val < 1 := (y 0).isLt; rw [e3]; omega
  | ⟨1, _⟩ => show win0_1.index t (1 : Fin 3) * 128 + 1 * (y 1).val = 128 * (t.val % 8) + (y 1).val; rw [e4]; omega
  | ⟨2, _⟩ => show win0_1.index t (2 : Fin 3) * 512 + 1 * (y 2).val = (y 2).val; rw [e5]; omega

/-- Window 2 stages its whole array at every point. -/
theorem blk2 (c : Dev nD) (t : Fin cfg0.N) : (iblk m c 2 t : Vec F S512x1024 .bf16) = V m c main_v2 := by
  obtain ⟨e0, e1, e2, e3, e4, e5, e6, e7, e8, e9, e10, e11, e12, e13, e14, e15, e16, e17, e18, e19, e20, e21, e22, e23, e24, e25, e26, e27, e28⟩ := idx_facts t
  funext y
  show V m c main_v2 (((cfg0.win 2).blk t).view.emb y) = V m c main_v2 y
  refine congrArg (V m c main_v2) (funext fun a => Fin.ext ?_)
  match a with
    | ⟨0, _⟩ => show win0_2.index t (0 : Fin 2) * 512 + 1 * (y 0).val = (y 0).val; rw [e9]; omega
    | ⟨1, _⟩ => show win0_2.index t (1 : Fin 2) * 1024 + 1 * (y 1).val = (y 1).val; rw [e10]; omega

/-- Window 3 stages its whole array at every point. -/
theorem blk3 (c : Dev nD) (t : Fin cfg0.N) : (iblk m c 3 t : Vec F S1024x1024 .bf16) = V m c main_v3 := by
  obtain ⟨e0, e1, e2, e3, e4, e5, e6, e7, e8, e9, e10, e11, e12, e13, e14, e15, e16, e17, e18, e19, e20, e21, e22, e23, e24, e25, e26, e27, e28⟩ := idx_facts t
  funext y
  show V m c main_v3 (((cfg0.win 3).blk t).view.emb y) = V m c main_v3 y
  refine congrArg (V m c main_v3) (funext fun a => Fin.ext ?_)
  match a with
    | ⟨0, _⟩ => show win0_3.index t (0 : Fin 2) * 1024 + 1 * (y 0).val = (y 0).val; rw [e11]; omega
    | ⟨1, _⟩ => show win0_3.index t (1 : Fin 2) * 1024 + 1 * (y 1).val = (y 1).val; rw [e12]; omega

/-- Window 4 stages its whole array at every point. -/
theorem blk4 (c : Dev nD) (t : Fin cfg0.N) : (iblk m c 4 t : Vec F S1024x1024 .bf16) = V m c main_v4 := by
  obtain ⟨e0, e1, e2, e3, e4, e5, e6, e7, e8, e9, e10, e11, e12, e13, e14, e15, e16, e17, e18, e19, e20, e21, e22, e23, e24, e25, e26, e27, e28⟩ := idx_facts t
  funext y
  show V m c main_v4 (((cfg0.win 4).blk t).view.emb y) = V m c main_v4 y
  refine congrArg (V m c main_v4) (funext fun a => Fin.ext ?_)
  match a with
    | ⟨0, _⟩ => show win0_4.index t (0 : Fin 2) * 1024 + 1 * (y 0).val = (y 0).val; rw [e13]; omega
    | ⟨1, _⟩ => show win0_4.index t (1 : Fin 2) * 1024 + 1 * (y 1).val = (y 1).val; rw [e14]; omega

/-- Window 5 stages its whole array at every point. -/
theorem blk5 (c : Dev nD) (t : Fin cfg0.N) : (iblk m c 5 t : Vec F S1024x1024 .bf16) = V m c main_v5 := by
  obtain ⟨e0, e1, e2, e3, e4, e5, e6, e7, e8, e9, e10, e11, e12, e13, e14, e15, e16, e17, e18, e19, e20, e21, e22, e23, e24, e25, e26, e27, e28⟩ := idx_facts t
  funext y
  show V m c main_v5 (((cfg0.win 5).blk t).view.emb y) = V m c main_v5 y
  refine congrArg (V m c main_v5) (funext fun a => Fin.ext ?_)
  match a with
    | ⟨0, _⟩ => show win0_5.index t (0 : Fin 2) * 1024 + 1 * (y 0).val = (y 0).val; rw [e15]; omega
    | ⟨1, _⟩ => show win0_5.index t (1 : Fin 2) * 1024 + 1 * (y 1).val = (y 1).val; rw [e16]; omega

/-- Window 6 stages its whole array at every point. -/
theorem blk6 (c : Dev nD) (t : Fin cfg0.N) : (iblk m c 6 t : Vec F S1024 .f32) = V m c main_arg6 := by
  obtain ⟨e0, e1, e2, e3, e4, e5, e6, e7, e8, e9, e10, e11, e12, e13, e14, e15, e16, e17, e18, e19, e20, e21, e22, e23, e24, e25, e26, e27, e28⟩ := idx_facts t
  funext y
  show V m c main_arg6 (((cfg0.win 6).blk t).view.emb y) = V m c main_arg6 y
  refine congrArg (V m c main_arg6) (funext fun a => Fin.ext ?_)
  match a with
    | ⟨0, _⟩ => show win0_6.index t (0 : Fin 1) * 1024 + 1 * (y 0).val = (y 0).val; rw [e17]; omega

/-- Window 7 stages its whole array at every point. -/
theorem blk7 (c : Dev nD) (t : Fin cfg0.N) : (iblk m c 7 t : Vec F S1024 .f32) = V m c main_arg7 := by
  obtain ⟨e0, e1, e2, e3, e4, e5, e6, e7, e8, e9, e10, e11, e12, e13, e14, e15, e16, e17, e18, e19, e20, e21, e22, e23, e24, e25, e26, e27, e28⟩ := idx_facts t
  funext y
  show V m c main_arg7 (((cfg0.win 7).blk t).view.emb y) = V m c main_arg7 y
  refine congrArg (V m c main_arg7) (funext fun a => Fin.ext ?_)
  match a with
    | ⟨0, _⟩ => show win0_7.index t (0 : Fin 1) * 1024 + 1 * (y 0).val = (y 0).val; rw [e18]; omega

/-- Window 8 stages its whole array at every point. -/
theorem blk8 (c : Dev nD) (t : Fin cfg0.N) : (iblk m c 8 t : Vec F S512 .f32) = V m c main_arg8 := by
  obtain ⟨e0, e1, e2, e3, e4, e5, e6, e7, e8, e9, e10, e11, e12, e13, e14, e15, e16, e17, e18, e19, e20, e21, e22, e23, e24, e25, e26, e27, e28⟩ := idx_facts t
  funext y
  show V m c main_arg8 (((cfg0.win 8).blk t).view.emb y) = V m c main_arg8 y
  refine congrArg (V m c main_arg8) (funext fun a => Fin.ext ?_)
  match a with
    | ⟨0, _⟩ => show win0_8.index t (0 : Fin 1) * 512 + 1 * (y 0).val = (y 0).val; rw [e19]; omega

/-- Window 9 stages its whole array at every point. -/
theorem blk9 (c : Dev nD) (t : Fin cfg0.N) : (iblk m c 9 t : Vec F S512 .f32) = V m c main_arg9 := by
  obtain ⟨e0, e1, e2, e3, e4, e5, e6, e7, e8, e9, e10, e11, e12, e13, e14, e15, e16, e17, e18, e19, e20, e21, e22, e23, e24, e25, e26, e27, e28⟩ := idx_facts t
  funext y
  show V m c main_arg9 (((cfg0.win 9).blk t).view.emb y) = V m c main_arg9 y
  refine congrArg (V m c main_arg9) (funext fun a => Fin.ext ?_)
  match a with
    | ⟨0, _⟩ => show win0_9.index t (0 : Fin 1) * 512 + 1 * (y 0).val = (y 0).val; rw [e20]; omega

/-- Window 10 stages its whole array at every point. -/
theorem blk10 (c : Dev nD) (t : Fin cfg0.N) : (iblk m c 10 t : Vec F S1024 .f32) = V m c main_arg10 := by
  obtain ⟨e0, e1, e2, e3, e4, e5, e6, e7, e8, e9, e10, e11, e12, e13, e14, e15, e16, e17, e18, e19, e20, e21, e22, e23, e24, e25, e26, e27, e28⟩ := idx_facts t
  funext y
  show V m c main_arg10 (((cfg0.win 10).blk t).view.emb y) = V m c main_arg10 y
  refine congrArg (V m c main_arg10) (funext fun a => Fin.ext ?_)
  match a with
    | ⟨0, _⟩ => show win0_10.index t (0 : Fin 1) * 1024 + 1 * (y 0).val = (y 0).val; rw [e21]; omega

/-- Window 11 stages its whole array at every point. -/
theorem blk11 (c : Dev nD) (t : Fin cfg0.N) : (iblk m c 11 t : Vec F S1024 .f32) = V m c main_arg11 := by
  obtain ⟨e0, e1, e2, e3, e4, e5, e6, e7, e8, e9, e10, e11, e12, e13, e14, e15, e16, e17, e18, e19, e20, e21, e22, e23, e24, e25, e26, e27, e28⟩ := idx_facts t
  funext y
  show V m c main_arg11 (((cfg0.win 11).blk t).view.emb y) = V m c main_arg11 y
  refine congrArg (V m c main_arg11) (funext fun a => Fin.ext ?_)
  match a with
    | ⟨0, _⟩ => show win0_11.index t (0 : Fin 1) * 1024 + 1 * (y 0).val = (y 0).val; rw [e22]; omega

/-- Window 12 stages its whole array at every point. -/
theorem blk12 (c : Dev nD) (t : Fin cfg0.N) : (iblk m c 12 t : Vec F S1024x4096 .bf16) = V m c main_v6 := by
  obtain ⟨e0, e1, e2, e3, e4, e5, e6, e7, e8, e9, e10, e11, e12, e13, e14, e15, e16, e17, e18, e19, e20, e21, e22, e23, e24, e25, e26, e27, e28⟩ := idx_facts t
  funext y
  show V m c main_v6 (((cfg0.win 12).blk t).view.emb y) = V m c main_v6 y
  refine congrArg (V m c main_v6) (funext fun a => Fin.ext ?_)
  match a with
    | ⟨0, _⟩ => show win0_12.index t (0 : Fin 2) * 1024 + 1 * (y 0).val = (y 0).val; rw [e23]; omega
    | ⟨1, _⟩ => show win0_12.index t (1 : Fin 2) * 4096 + 1 * (y 1).val = (y 1).val; rw [e24]; omega

/-- Window 13 stages its whole array at every point. -/
theorem blk13 (c : Dev nD) (t : Fin cfg0.N) : (iblk m c 13 t : Vec F S4096 .f32) = V m c main_arg13 := by
  obtain ⟨e0, e1, e2, e3, e4, e5, e6, e7, e8, e9, e10, e11, e12, e13, e14, e15, e16, e17, e18, e19, e20, e21, e22, e23, e24, e25, e26, e27, e28⟩ := idx_facts t
  funext y
  show V m c main_arg13 (((cfg0.win 13).blk t).view.emb y) = V m c main_arg13 y
  refine congrArg (V m c main_arg13) (funext fun a => Fin.ext ?_)
  match a with
    | ⟨0, _⟩ => show win0_13.index t (0 : Fin 1) * 4096 + 1 * (y 0).val = (y 0).val; rw [e25]; omega

/-- Window 14 stages its whole array at every point. -/
theorem blk14 (c : Dev nD) (t : Fin cfg0.N) : (iblk m c 14 t : Vec F S4096x1024 .bf16) = V m c main_v7 := by
  obtain ⟨e0, e1, e2, e3, e4, e5, e6, e7, e8, e9, e10, e11, e12, e13, e14, e15, e16, e17, e18, e19, e20, e21, e22, e23, e24, e25, e26, e27, e28⟩ := idx_facts t
  funext y
  show V m c main_v7 (((cfg0.win 14).blk t).view.emb y) = V m c main_v7 y
  refine congrArg (V m c main_v7) (funext fun a => Fin.ext ?_)
  match a with
    | ⟨0, _⟩ => show win0_14.index t (0 : Fin 2) * 4096 + 1 * (y 0).val = (y 0).val; rw [e26]; omega
    | ⟨1, _⟩ => show win0_14.index t (1 : Fin 2) * 1024 + 1 * (y 1).val = (y 1).val; rw [e27]; omega

/-- Window 15 stages its whole array at every point. -/
theorem blk15 (c : Dev nD) (t : Fin cfg0.N) : (iblk m c 15 t : Vec F S1024 .f32) = V m c main_arg15 := by
  obtain ⟨e0, e1, e2, e3, e4, e5, e6, e7, e8, e9, e10, e11, e12, e13, e14, e15, e16, e17, e18, e19, e20, e21, e22, e23, e24, e25, e26, e27, e28⟩ := idx_facts t
  funext y
  show V m c main_arg15 (((cfg0.win 15).blk t).view.emb y) = V m c main_arg15 y
  refine congrArg (V m c main_arg15) (funext fun a => Fin.ext ?_)
  match a with
    | ⟨0, _⟩ => show win0_15.index t (0 : Fin 1) * 1024 + 1 * (y 0).val = (y 0).val; rw [e28]; omega

/-- The output window's block at point `t` sits at rows `128 (t % 8) + p` of batch `t / 8`. -/
theorem emb16 (t : Fin cfg0.N) (y : S1x128x1024.Idx) :
    ((cfg0.win 16).blk t).view.emb y = ix3 ⟨t.val / 8, batch_lt t⟩ ⟨128 * (t.val % 8) + (y 1).val, row_lt t (y 1)⟩ (y 2) := by
  obtain ⟨e0, e1, e2, e3, e4, e5, e6, e7, e8, e9, e10, e11, e12, e13, e14, e15, e16, e17, e18, e19, e20, e21, e22, e23, e24, e25, e26, e27, e28⟩ := idx_facts t
  refine funext fun a => Fin.ext ?_
  match a with
  | ⟨0, _⟩ => show win0_16.index t (0 : Fin 3) * 1 + 1 * (y 0).val = t.val / 8; have : (y 0).val < 1 := (y 0).isLt; rw [e6]; omega
  | ⟨1, _⟩ => show win0_16.index t (1 : Fin 3) * 128 + 1 * (y 1).val = 128 * (t.val % 8) + (y 1).val; rw [e7]; omega
  | ⟨2, _⟩ => show win0_16.index t (2 : Fin 3) * 1024 + 1 * (y 2).val = (y 2).val; rw [e8]; omega

/-! ## The arrays the host wrote before the region -/

theorem V_v1 (c : Dev nD) : (V m c main_v1 : S16x256x1024.Idx → Elt F .bf16)
    = truncf .bf16 (shapeCast S16x256x1024 (m ((c : Thread nD τ).loc main_arg0)) shapeCasts_S16x16x16x1024_S16x256x1024) bitsLt_bf16_f32 := by
  dsimp only [Gen.V, Gen.hostOps0]; after_results <;> rfl
theorem V_v2 (c : Dev nD) : (V m c main_v2 : S512x1024.Idx → Elt F .bf16) = truncf .bf16 (m ((c : Thread nD τ).loc main_arg2)) bitsLt_bf16_f32 := by
  dsimp only [Gen.V, Gen.hostOps0]; after_results <;> rfl
theorem V_v3 (c : Dev nD) : (V m c main_v3 : S1024x1024.Idx → Elt F .bf16) = truncf .bf16 (m ((c : Thread nD τ).loc main_arg3)) bitsLt_bf16_f32 := by
  dsimp only [Gen.V, Gen.hostOps0]; after_results <;> rfl
theorem V_v4 (c : Dev nD) : (V m c main_v4 : S1024x1024.Idx → Elt F .bf16) = truncf .bf16 (m ((c : Thread nD τ).loc main_arg4)) bitsLt_bf16_f32 := by
  dsimp only [Gen.V, Gen.hostOps0]; after_results <;> rfl
theorem V_v5 (c : Dev nD) : (V m c main_v5 : S1024x1024.Idx → Elt F .bf16) = truncf .bf16 (m ((c : Thread nD τ).loc main_arg5)) bitsLt_bf16_f32 := by
  dsimp only [Gen.V, Gen.hostOps0]; after_results <;> rfl
theorem V_v6 (c : Dev nD) : (V m c main_v6 : S1024x4096.Idx → Elt F .bf16) = truncf .bf16 (m ((c : Thread nD τ).loc main_arg12)) bitsLt_bf16_f32 := by
  dsimp only [Gen.V, Gen.hostOps0]; after_results <;> rfl
theorem V_v7 (c : Dev nD) : (V m c main_v7 : S4096x1024.Idx → Elt F .bf16) = truncf .bf16 (m ((c : Thread nD τ).loc main_arg14)) bitsLt_bf16_f32 := by
  dsimp only [Gen.V, Gen.hostOps0]; after_results <;> rfl

end Cert.KernelIdeal.Blocks

end
-- ==== Proof.Points.lean ====
/-
  What the output block and the two scratch buffers hold after each grid point, in closed form.
  Point t belongs to batch t / 8.  The scratch buffers are filled at the batch's first point
  (t % 8 = 0) from the batch's grid slab and are left alone by the other seven points, so after every
  point they hold the transposed keys and the values of batch t / 8 (induction on the point).  The
  output block after point t is therefore the block function of the query rows of tile t % 8 of
  that batch and the bands of that batch's keys and values.
-/
import proofs.«147995_j10943576670702_2_alg».proof.Proof.Pieces
import proofs.«147995_j10943576670702_2_alg».proof.Proof.Blocks

set_option maxRecDepth 16384

noncomputable section

namespace Cert.KernelIdeal.Points

open Cert.KernelIdeal Cert.KernelIdeal.Gen Cert.KernelIdeal.Body Cert.KernelIdeal.Pieces Cert.KernelIdeal.Blocks
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The batch a point works on. -/
def bat (t : Fin cfg0.N) : Fin 16 := ⟨t.val / 8, batch_lt t⟩

/-- Batch `b`'s grid slab as the region finds it. -/
def slab (c : Dev nD) (b : Fin 16) : Vec F S1x256x1024 .bf16 := fun y => V m c main_v1 (ix3 b (y 1) (y 2))

/-- The query rows of point `t`'s tile. -/
def qblk (c : Dev nD) (t : Fin cfg0.N) : Vec F S1x128x512 .f32 :=
  fun y => V m c main_arg1 (ix3 ⟨t.val / 8, batch_lt t⟩ ⟨128 * (t.val % 8) + (y 1).val, row_lt t (y 1)⟩ (y 2))

/-- Batch `b`'s transposed layer-normed keys and its values. -/
def KT (c : Dev nD) (b : Fin 16) : Vec F S1024x256 .bf16 := keysT (slab m c b) (V m c main_v3) (V m c main_arg6) (V m c main_arg7)
def VV (c : Dev nD) (b : Fin 16) : Vec F S256x1024 .bf16 := valsV (slab m c b) (V m c main_v4)

theorem iblk0_eq (c : Dev nD) (t : Fin cfg0.N) : (iblk m c 0 t : Vec F S1x256x1024 .bf16) = slab m c (bat t) := funext (blk0 m c t)
theorem iblk1_eq (c : Dev nD) (t : Fin cfg0.N) : (iblk m c 1 t : Vec F S1x128x512 .f32) = qblk m c t := funext (blk1 m c t)

/-- A batch's first point fills the scratch buffers with that batch's keys and values. -/
theorem scratch_first (c : Dev nD) (t : Fin cfg0.N) (h0 : t.val % 8 = 0) :
    (outsAt0 m c t.val t.isLt).2.1 = KT m c (bat t) ∧ (outsAt0 m c t.val t.isLt).2.2 = VV m c (bat t) := by
  rw [outsAt0_A m c t h0]
  dsimp only
  refine ⟨(scrK_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).trans ?_, (scrV_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).trans ?_⟩
  · rw [iblk0_eq m c t, blk3 m c t, blk6 m c t, blk7 m c t]; rfl
  · rw [iblk0_eq m c t, blk4 m c t]; rfl

/-- After every point the scratch buffers hold the keys and values of the point's batch. -/
theorem scratch_at (c : Dev nD) : ∀ (n : ℕ) (hn : n < cfg0.N),
    (outsAt0 m c n hn).2.1 = KT m c (bat ⟨n, hn⟩) ∧ (outsAt0 m c n hn).2.2 = VV m c (bat ⟨n, hn⟩)
  | 0, hn => scratch_first m c ⟨0, hn⟩ rfl
  | n + 1, hn => by
    by_cases h0 : (n + 1) % 8 = 0
    · exact scratch_first m c ⟨n + 1, hn⟩ h0
    · have ih := scratch_at c n (Nat.lt_of_succ_lt hn)
      have hb : bat ⟨n + 1, hn⟩ = bat ⟨n, Nat.lt_of_succ_lt hn⟩ := Fin.ext (by show (n + 1) / 8 = n / 8; omega)
      rw [outsAt0_B m c ⟨n + 1, hn⟩ h0, hb]
      dsimp only
      exact ih

/-- The output block after point `t`. -/
theorem out_at (c : Dev nD) (t : Fin cfg0.N) :
    (outsAt0 m c t.val t.isLt).1
      = body (qblk m c t) (V m c main_v2) (V m c main_v5) (V m c main_arg8) (V m c main_arg9) (V m c main_arg10) (V m c main_arg11)
          (V m c main_v6) (V m c main_arg13) (V m c main_v7) (V m c main_arg15) (bandK (KT m c (bat t))) (bandV (VV m c (bat t))) := by
  by_cases h0 : t.val % 8 = 0
  · rw [outsAt0_A m c t h0]
    dsimp only
    refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).trans ?_
    rw [iblk0_eq m c t, iblk1_eq m c t, blk2 m c t, blk3 m c t, blk4 m c t, blk5 m c t, blk6 m c t, blk7 m c t, blk8 m c t, blk9 m c t, blk10 m c t, blk11 m c t, blk12 m c t, blk13 m c t, blk14 m c t, blk15 m c t]
    rfl
  · have hpos : 0 < t.val := Nat.pos_of_ne_zero (fun h => h0 (by rw [h]))
    have hp := scratch_at m c (t.val - 1) (Nat.lt_of_le_of_lt (Nat.sub_le _ _) t.isLt)
    have hb : bat ⟨t.val - 1, Nat.lt_of_le_of_lt (Nat.sub_le _ _) t.isLt⟩ = bat t := Fin.ext (by show (t.val - 1) / 8 = t.val / 8; omega)
    rw [hb] at hp
    rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2).trans ?_
    rw [hp.1, hp.2, iblk1_eq m c t, blk2 m c t, blk5 m c t, blk8 m c t, blk9 m c t, blk10 m c t, blk11 m c t, blk12 m c t, blk13 m c t, blk14 m c t, blk15 m c t]

end Cert.KernelIdeal.Points

end
-- ==== Proof.Final.lean ====
/-
  The kernel's result array as one function of the arrays the region finds.  Entry (b, l, e) lies in the
  block of the one grid point (batch b, tile l / 128), at local row l % 128; every point writes its block
  back and the 128 blocks tile the array, so the array after the run is that function everywhere.
-/
import proofs.«147995_j10943576670702_2_alg».proof.Proof.Points
import proofs.«147995_j10943576670702_2_alg».proof.Proof.Gen.KernelIdeal.Value

set_option maxRecDepth 16384

noncomputable section

namespace Cert.KernelIdeal.Final

open Cert.KernelIdeal Cert.KernelIdeal.Gen Cert.KernelIdeal.Body Cert.KernelIdeal.Pieces Cert.KernelIdeal.Blocks Cert.KernelIdeal.Points
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The 128 query rows of tile `lt` of batch `b`. -/
def qrows (c : Dev nD) (b : Fin 16) (lt : Fin 8) : Vec F S1x128x512 .f32 :=
  fun y => V m c main_arg1 (ix3 b ⟨128 * lt.val + (y 1).val, by have := lt.isLt; have h1 : (y 1).val < 128 := (y 1).isLt; omega⟩ (y 2))

/-- The result array: entry `(b, l, e)` is the block function of tile `l / 128` of batch `b` at local row `l % 128`. -/
def KG (c : Dev nD) : S16x1024x1024.Idx → Elt F .f32 := fun i =>
  body (qrows m c (i 0) ⟨(i 1).val / 128, by have h1 : (i 1).val < 1024 := (i 1).isLt; omega⟩) (V m c main_v2) (V m c main_v5) (V m c main_arg8) (V m c main_arg9)
    (V m c main_arg10) (V m c main_arg11) (V m c main_v6) (V m c main_arg13) (V m c main_v7) (V m c main_arg15)
    (bandK (KT m c (i 0))) (bandV (VV m c (i 0))) (ix3 0 ⟨(i 1).val % 128, Nat.mod_lt _ (by norm_num)⟩ (i 2))

/-- The function at an entry of point `t`'s block is the block function of the point's query tile at the local index. -/
theorem KG_at (c : Dev nD) (t : Fin cfg0.N) (y : S1x128x1024.Idx) :
    KG m c (ix3 ⟨t.val / 8, batch_lt t⟩ ⟨128 * (t.val % 8) + (y 1).val, row_lt t (y 1)⟩ (y 2))
      = body (qblk m c t) (V m c main_v2) (V m c main_v5) (V m c main_arg8) (V m c main_arg9) (V m c main_arg10) (V m c main_arg11)
          (V m c main_v6) (V m c main_arg13) (V m c main_v7) (V m c main_arg15) (bandK (KT m c (bat t))) (bandV (VV m c (bat t))) y := by
  have h1 : (y 1).val < 128 := (y 1).isLt
  have hq : qrows m c (bat t) ⟨(128 * (t.val % 8) + (y 1).val) / 128, by omega⟩ = qblk m c t := by
    funext y'
    unfold qrows qblk
    refine congrArg (V m c main_arg1) (funext fun a => Fin.ext ?_)
    match a with
    | ⟨0, _⟩ => rfl
    | ⟨1, _⟩ => show 128 * ((128 * (t.val % 8) + (y 1).val) / 128) + (y' 1).val = 128 * (t.val % 8) + (y' 1).val; omega
    | ⟨2, _⟩ => rfl
  have hy : ix3 (0 : Fin 1) (⟨(128 * (t.val % 8) + (y 1).val) % 128, Nat.mod_lt _ (by norm_num)⟩ : Fin 128) (y 2) = y := by
    funext a
    match a with
    | ⟨0, _⟩ => exact Fin.ext (by have h0 : (y 0).val < 1 := (y 0).isLt; show 0 = (y 0).val; omega)
    | ⟨1, _⟩ => exact Fin.ext (by show (128 * (t.val % 8) + (y 1).val) % 128 = (y 1).val; omega)
    | ⟨2, _⟩ => rfl
  show body (qrows m c (bat t) ⟨(128 * (t.val % 8) + (y 1).val) / 128, _⟩) _ _ _ _ _ _ _ _ _ _ (bandK (KT m c (bat t))) (bandV (VV m c (bat t)))
    (ix3 (0 : Fin 1) (⟨(128 * (t.val % 8) + (y 1).val) % 128, _⟩ : Fin 128) (y 2)) = _
  rw [hq]
  exact congrArg (body (qblk m c t) (V m c main_v2) (V m c main_v5) (V m c main_arg8) (V m c main_arg9) (V m c main_arg10) (V m c main_arg11)
          (V m c main_v6) (V m c main_arg13) (V m c main_v7) (V m c main_arg15) (bandK (KT m c (bat t))) (bandV (VV m c (bat t)))) hy

/-- What point `t` writes back is block `t` of that function. -/
theorem flushed_eq (c : Dev nD) (t : Fin cfg0.N) :
    (dats m 0 c).flushed 16 t = ((cfg0.win 16).blk t).view.read (Elt F) (KG m c) := by
  rw [Value.flushed16, out_at]
  refine funext ?_
  show ∀ y : S1x128x1024.Idx, body (qblk m c t) (V m c main_v2) (V m c main_v5) (V m c main_arg8) (V m c main_arg9) (V m c main_arg10) (V m c main_arg11)
          (V m c main_v6) (V m c main_arg13) (V m c main_v7) (V m c main_arg15) (bandK (KT m c (bat t))) (bandV (VV m c (bat t))) y
        = KG m c (((cfg0.win 16).blk t).view.emb y)
  intro y
  rw [emb16 t y]
  exact (KG_at m c t y).symm

/-- An index of the array is in point `t`'s block iff each coordinate is in the block's range. -/
theorem mem_blk (t : Fin cfg0.N) (i : S16x1024x1024.Idx) :
    i ∈ ((cfg0.win 16).blk t).view.set ↔ ∀ a : Fin 3, win0_16.index t a * S1x128x1024.size a ≤ (i a).val ∧ (i a).val < win0_16.index t a * S1x128x1024.size a + S1x128x1024.size a := by
  show i ∈ ((View.whole main_v8).slice (win0_16.rect t)).set ↔ _
  rw [View.set_slice_whole, Rect.mem_set_unit]
  exact Iff.rfl

/-- Every index is in the block of the point (batch, tile) it belongs to. -/
theorem cover (i : S16x1024x1024.Idx) : ∃ t : Fin cfg0.N, (cfg0.win 16).flush t = true ∧ i ∈ ((cfg0.win 16).blk t).view.set := by
  have h0 : (i 0).val < 16 := (i 0).isLt
  have h1 : (i 1).val < 1024 := (i 1).isLt
  have h2 : (i 2).val < 1024 := (i 2).isLt
  have hN : cfg0.N = 128 := N_0
  refine ⟨⟨8 * (i 0).val + (i 1).val / 128, by omega⟩, flush0_16 _, ?_⟩
  rw [mem_blk]
  obtain ⟨_, _, _, _, _, _, e6, e7, e8, _⟩ := idx_facts (⟨8 * (i 0).val + (i 1).val / 128, by omega⟩ : Fin cfg0.N)
  intro a
  match a with
  | ⟨0, _⟩ => show win0_16.index _ (0 : Fin 3) * 1 ≤ (i 0).val ∧ (i 0).val < win0_16.index _ (0 : Fin 3) * 1 + 1; rw [e6]; dsimp only; omega
  | ⟨1, _⟩ => show win0_16.index _ (1 : Fin 3) * 128 ≤ (i 1).val ∧ (i 1).val < win0_16.index _ (1 : Fin 3) * 128 + 128; rw [e7]; dsimp only; omega
  | ⟨2, _⟩ => show win0_16.index _ (2 : Fin 3) * 1024 ≤ (i 2).val ∧ (i 2).val < win0_16.index _ (2 : Fin 3) * 1024 + 1024; rw [e8]; omega

/-- The array after the run. -/
theorem final (c : Dev nD) : (dats m 0 c).arrAt 16 cfg0.N = KG m c :=
  (dats m 0 c).arrAt_eq_of_cover 16 (KG m c) (fun t _ => flushed_eq m c t) cover

/-- The run, read: the result array at `KG`, the arguments unchanged. -/
theorem run : θ_run defs (onTc (τ := τ) (main (F := F))) ⟨m, fun _ => 0, ρ⟩ fun r => ∀ c : Dev nD,
      r.2.mem ((c : Thread nD τ).loc main_v8) = KG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Value.run_blocks m ρ)

end Cert.KernelIdeal.Final

end
-- ==== Proof.LibRowsLoad.lean ====
/-
  Loads of a band of rows of a matrix through a literal unit-stride rectangle, read at an index: the rectangle at row
  offset `off`, column offset `0`, of `K` rows and all `n` columns, reads row `off + r` of the matrix at its row `r`.
-/
import Idealize.ShloMosaic.Lib.Pipeline.FrameBody
import Idealize.ShloMosaic.Lib.ValueIdx

noncomputable section

namespace Cert.LibRowsLoad

open Idealize.ShloMosaic Idealize.ShloMosaic.ValueIdx

variable {Val : EltTy → Type} {e : EltTy}

/-- The row a band's row `r` is: inside the matrix, by the band's in-bounds evidence. -/
theorem row_lt {M K n : Nat} {off : Nat}
    (inb : ∀ a, (![off, 0] : Fin 2 → Nat) a + (⟨2, ![K, n]⟩ : Shape).size a ≤ (⟨2, ![M, n]⟩ : Shape).size a)
    (r : Fin K) : off + r.val < M :=
  Nat.lt_of_lt_of_le (Nat.add_lt_add_left r.isLt off) (inb 0)

/-- A load of `K` rows from row `off` of an `M × n` matrix `X`, all columns: at `(r, q)` it reads `X (off + r, q)`. -/
theorem ld_rows {M K n : Nat} (X : (⟨2, ![M, n]⟩ : Shape).Idx → Val e) (off : Nat)
    (inb : ∀ a, (![off, 0] : Fin 2 → Nat) a + (⟨2, ![K, n]⟩ : Shape).size a ≤ (⟨2, ![M, n]⟩ : Shape).size a)
    (r : Fin K) (q : Fin n) :
    View.ld X (Rect.unit (s := ⟨2, ![M, n]⟩) ![off, 0] (⟨2, ![K, n]⟩ : Shape).size inb) (ix2 r q)
      = X (ix2 ⟨off + r.val, row_lt inb r⟩ q) := by
  show X _ = X _
  refine congrArg X (funext fun a => Fin.ext ?_)
  match a with
  | ⟨0, _⟩ => show off + 1 * r.val = off + r.val; omega
  | ⟨1, _⟩ => show 0 + 1 * q.val = q.val; omega

/-- The same with the row named by the caller (`i = off + r`). -/
theorem ld_rows_at {M K n : Nat} (X : (⟨2, ![M, n]⟩ : Shape).Idx → Val e) (off : Nat)
    (inb : ∀ a, (![off, 0] : Fin 2 → Nat) a + (⟨2, ![K, n]⟩ : Shape).size a ≤ (⟨2, ![M, n]⟩ : Shape).size a)
    (r : Fin K) (q : Fin n) (i : Fin M) (hi : i.val = off + r.val) :
    View.ld X (Rect.unit (s := ⟨2, ![M, n]⟩) ![off, 0] (⟨2, ![K, n]⟩ : Shape).size inb) (ix2 r q) = X (ix2 i q) := by
  rw [ld_rows X off inb r q]
  exact congrArg (fun i => X (ix2 i q)) (Fin.ext hi.symm)

/-- The whole band as a function of its index. -/
theorem ld_rows_fun {M K n : Nat} (X : (⟨2, ![M, n]⟩ : Shape).Idx → Val e) (off : Nat)
    (inb : ∀ a, (![off, 0] : Fin 2 → Nat) a + (⟨2, ![K, n]⟩ : Shape).size a ≤ (⟨2, ![M, n]⟩ : Shape).size a) :
    (View.ld X (Rect.unit (s := ⟨2, ![M, n]⟩) ![off, 0] (⟨2, ![K, n]⟩ : Shape).size inb) : (⟨2, ![K, n]⟩ : Shape).Idx → Val e)
      = fun y => X (ix2 ⟨off + (y 0).val, row_lt inb (y 0)⟩ (y 1)) := by
  funext y
  obtain ⟨r, q, rfl⟩ : ∃ (r : Fin K) (q : Fin n), y = ix2 r q := ⟨y 0, y 1, eq_ix2 y⟩
  exact ld_rows X off inb r q

end Cert.LibRowsLoad

end
-- ==== Proof.LibColsLoad.lean ====
/-
  Loads of a band of columns of a matrix through a literal unit-stride rectangle, read at an index: the rectangle at
  row offset `0`, column offset `off`, of all `m` rows and `K` columns, reads column `off + q` of the matrix at its
  column `q`.
-/
import Idealize.ShloMosaic.Lib.Pipeline.FrameBody
import Idealize.ShloMosaic.Lib.ValueIdx

noncomputable section

namespace Cert.LibColsLoad

open Idealize.ShloMosaic Idealize.ShloMosaic.ValueIdx

variable {Val : EltTy → Type} {e : EltTy}

/-- The column a band's column `q` is: inside the matrix, by the band's in-bounds evidence. -/
theorem col_lt {m N K : Nat} {off : Nat}
    (inb : ∀ a, (![0, off] : Fin 2 → Nat) a + (⟨2, ![m, K]⟩ : Shape).size a ≤ (⟨2, ![m, N]⟩ : Shape).size a)
    (q : Fin K) : off + q.val < N :=
  Nat.lt_of_lt_of_le (Nat.add_lt_add_left q.isLt off) (inb 1)

/-- A load of `K` columns from column `off` of an `m × N` matrix `X`, all rows: at `(r, q)` it reads `X (r, off + q)`. -/
theorem ld_cols {m N K : Nat} (X : (⟨2, ![m, N]⟩ : Shape).Idx → Val e) (off : Nat)
    (inb : ∀ a, (![0, off] : Fin 2 → Nat) a + (⟨2, ![m, K]⟩ : Shape).size a ≤ (⟨2, ![m, N]⟩ : Shape).size a)
    (r : Fin m) (q : Fin K) :
    View.ld X (Rect.unit (s := ⟨2, ![m, N]⟩) ![0, off] (⟨2, ![m, K]⟩ : Shape).size inb) (ix2 r q)
      = X (ix2 r ⟨off + q.val, col_lt inb q⟩) := by
  show X _ = X _
  refine congrArg X (funext fun a => Fin.ext ?_)
  match a with
  | ⟨0, _⟩ => show 0 + 1 * r.val = r.val; omega
  | ⟨1, _⟩ => show off + 1 * q.val = off + q.val; omega

/-- The same with the column named by the caller (`j = off + q`). -/
theorem ld_cols_at {m N K : Nat} (X : (⟨2, ![m, N]⟩ : Shape).Idx → Val e) (off : Nat)
    (inb : ∀ a, (![0, off] : Fin 2 → Nat) a + (⟨2, ![m, K]⟩ : Shape).size a ≤ (⟨2, ![m, N]⟩ : Shape).size a)
    (r : Fin m) (q : Fin K) (j : Fin N) (hj : j.val = off + q.val) :
    View.ld X (Rect.unit (s := ⟨2, ![m, N]⟩) ![0, off] (⟨2, ![m, K]⟩ : Shape).size inb) (ix2 r q) = X (ix2 r j) := by
  rw [ld_cols X off inb r q]
  exact congrArg (fun j => X (ix2 r j)) (Fin.ext hj.symm)

end Cert.LibColsLoad

end
-- ==== Proof.Bands.lean ====
/-
  The bands read at an entry: band h of the transposed keys at (d, m) is the array at row 64 h + d;
  band h of the values at (m, d) is the array at column 64 h + d.
-/
import proofs.«147995_j10943576670702_2_alg».proof.Proof.Pieces
import proofs.«147995_j10943576670702_2_alg».proof.Proof.LibRowsLoad
import proofs.«147995_j10943576670702_2_alg».proof.Proof.LibColsLoad

noncomputable section

namespace Cert.KernelIdeal.Pieces

open Cert.KernelIdeal Cert.KernelIdeal.Gen Idealize.ShloMosaic Idealize.ShloMosaic.ValueIdx

variable {F : FTy → Type} [FloatOps F]

theorem bandK_apply (X : Vec F S1024x256 .bf16) (h : Fin 16) (d : Fin 64) (mm : Fin 256) (k : Fin 1024)
    (hk : k.val = 64 * h.val + d.val) : bandK X h (ix2 d mm) = X (ix2 k mm) :=
  match h, hk with
  | ⟨0, _⟩, hk => LibRowsLoad.ld_rows_at X 0 inb_S1024x256_S64x256_0_0 d mm k (by dsimp only at hk; omega)
  | ⟨1, _⟩, hk => LibRowsLoad.ld_rows_at X 64 inb_S1024x256_S64x256_64_0 d mm k (by dsimp only at hk; omega)
  | ⟨2, _⟩, hk => LibRowsLoad.ld_rows_at X 128 inb_S1024x256_S64x256_128_0 d mm k (by dsimp only at hk; omega)
  | ⟨3, _⟩, hk => LibRowsLoad.ld_rows_at X 192 inb_S1024x256_S64x256_192_0 d mm k (by dsimp only at hk; omega)
  | ⟨4, _⟩, hk => LibRowsLoad.ld_rows_at X 256 inb_S1024x256_S64x256_256_0 d mm k (by dsimp only at hk; omega)
  | ⟨5, _⟩, hk => LibRowsLoad.ld_rows_at X 320 inb_S1024x256_S64x256_320_0 d mm k (by dsimp only at hk; omega)
  | ⟨6, _⟩, hk => LibRowsLoad.ld_rows_at X 384 inb_S1024x256_S64x256_384_0 d mm k (by dsimp only at hk; omega)
  | ⟨7, _⟩, hk => LibRowsLoad.ld_rows_at X 448 inb_S1024x256_S64x256_448_0 d mm k (by dsimp only at hk; omega)
  | ⟨8, _⟩, hk => LibRowsLoad.ld_rows_at X 512 inb_S1024x256_S64x256_512_0 d mm k (by dsimp only at hk; omega)
  | ⟨9, _⟩, hk => LibRowsLoad.ld_rows_at X 576 inb_S1024x256_S64x256_576_0 d mm k (by dsimp only at hk; omega)
  | ⟨10, _⟩, hk => LibRowsLoad.ld_rows_at X 640 inb_S1024x256_S64x256_640_0 d mm k (by dsimp only at hk; omega)
  | ⟨11, _⟩, hk => LibRowsLoad.ld_rows_at X 704 inb_S1024x256_S64x256_704_0 d mm k (by dsimp only at hk; omega)
  | ⟨12, _⟩, hk => LibRowsLoad.ld_rows_at X 768 inb_S1024x256_S64x256_768_0 d mm k (by dsimp only at hk; omega)
  | ⟨13, _⟩, hk => LibRowsLoad.ld_rows_at X 832 inb_S1024x256_S64x256_832_0 d mm k (by dsimp only at hk; omega)
  | ⟨14, _⟩, hk => LibRowsLoad.ld_rows_at X 896 inb_S1024x256_S64x256_896_0 d mm k (by dsimp only at hk; omega)
  | ⟨15, _⟩, hk => LibRowsLoad.ld_rows_at X 960 inb_S1024x256_S64x256_960_0 d mm k (by dsimp only at hk; omega)
  | ⟨_ + 16, h⟩, _ => absurd h (Nat.not_lt.2 (Nat.le_add_left _ _))

theorem bandV_apply (X : Vec F S256x1024 .bf16) (h : Fin 16) (mm : Fin 256) (d : Fin 64) (k : Fin 1024)
    (hk : k.val = 64 * h.val + d.val) : bandV X h (ix2 mm d) = X (ix2 mm k) :=
  match h, hk with
  | ⟨0, _⟩, hk => LibColsLoad.ld_cols_at X 0 inb_S256x1024_S256x64_0_0 mm d k (by dsimp only at hk; omega)
  | ⟨1, _⟩, hk => LibColsLoad.ld_cols_at X 64 inb_S256x1024_S256x64_0_64 mm d k (by dsimp only at hk; omega)
  | ⟨2, _⟩, hk => LibColsLoad.ld_cols_at X 128 inb_S256x1024_S256x64_0_128 mm d k (by dsimp only at hk; omega)
  | ⟨3, _⟩, hk => LibColsLoad.ld_cols_at X 192 inb_S256x1024_S256x64_0_192 mm d k (by dsimp only at hk; omega)
  | ⟨4, _⟩, hk => LibColsLoad.ld_cols_at X 256 inb_S256x1024_S256x64_0_256 mm d k (by dsimp only at hk; omega)
  | ⟨5, _⟩, hk => LibColsLoad.ld_cols_at X 320 inb_S256x1024_S256x64_0_320 mm d k (by dsimp only at hk; omega)
  | ⟨6, _⟩, hk => LibColsLoad.ld_cols_at X 384 inb_S256x1024_S256x64_0_384 mm d k (by dsimp only at hk; omega)
  | ⟨7, _⟩, hk => LibColsLoad.ld_cols_at X 448 inb_S256x1024_S256x64_0_448 mm d k (by dsimp only at hk; omega)
  | ⟨8, _⟩, hk => LibColsLoad.ld_cols_at X 512 inb_S256x1024_S256x64_0_512 mm d k (by dsimp only at hk; omega)
  | ⟨9, _⟩, hk => LibColsLoad.ld_cols_at X 576 inb_S256x1024_S256x64_0_576 mm d k (by dsimp only at hk; omega)
  | ⟨10, _⟩, hk => LibColsLoad.ld_cols_at X 640 inb_S256x1024_S256x64_0_640 mm d k (by dsimp only at hk; omega)
  | ⟨11, _⟩, hk => LibColsLoad.ld_cols_at X 704 inb_S256x1024_S256x64_0_704 mm d k (by dsimp only at hk; omega)
  | ⟨12, _⟩, hk => LibColsLoad.ld_cols_at X 768 inb_S256x1024_S256x64_0_768 mm d k (by dsimp only at hk; omega)
  | ⟨13, _⟩, hk => LibColsLoad.ld_cols_at X 832 inb_S256x1024_S256x64_0_832 mm d k (by dsimp only at hk; omega)
  | ⟨14, _⟩, hk => LibColsLoad.ld_cols_at X 896 inb_S256x1024_S256x64_0_896 mm d k (by dsimp only at hk; omega)
  | ⟨15, _⟩, hk => LibColsLoad.ld_cols_at X 960 inb_S256x1024_S256x64_0_960 mm d k (by dsimp only at hk; omega)
  | ⟨_ + 16, h⟩, _ => absurd h (Nat.not_lt.2 (Nat.le_add_left _ _))

end Cert.KernelIdeal.Pieces

end
-- ==== Proof.Spec.lean ====
/-
  What the block computes, entry by entry, on the extended reals.

  For one batch `b` the keys are the layer-normed rows of `grid_b · Wk` and the values the rows of
  `grid_b · Wv` (256 rows of 1024).  For one query row `q` (512 entries) the query is `LN(q) · Wq`
  (1024 entries); head `h` uses columns `64 h … 64 h + 63` of query, keys and values: its scores are
  `Σ_d (Q(64h+d) · ⅛) · K(m, 64h+d)`, its weights the softmax of the scores over the 256 keys, its
  output `Σ_m weight(m) · V(m, 64h+d)`.  The 16 head outputs side by side are multiplied by `Wo` and
  added to the query (the residual `x`); then `x + (gelu(LN(x) · W1 + b1) · W2 + b2)` with the tanh
  form of gelu.  Every float literal is kept as the word the programs print.
-/
import Idealize.ShloMosaic.PureOps.Ideal
import Idealize.ShloMosaic.Lib.ValueIdx

noncomputable section

namespace Cert.Attn

open Idealize.ShloMosaic Idealize.ShloMosaic.ValueIdx

abbrev A1 (n : ℕ) := (⟨1, ![n]⟩ : Shape).Idx → EReal
abbrev A2 (a b : ℕ) := (⟨2, ![a, b]⟩ : Shape).Idx → EReal
abbrev A3 (a b c : ℕ) := (⟨3, ![a, b, c]⟩ : Shape).Idx → EReal

/-- The mean of a row, as a sum divided by the printed count word. -/
def mean {n : ℕ} (cn : EReal) (x : Fin n → EReal) : EReal := Ideal.div (∑ k, x k) cn

/-- Layer normalisation of one row: `(x − μ) · rsqrt(var + ε) · g + b`, the variance the mean of the
    squared deviations, ε the word `0x3727C5AC`. -/
def lnRow {n : ℕ} (cn : EReal) (x g b : Fin n → EReal) (j : Fin n) : EReal :=
  (x j - mean cn x) * Ideal.rsqrt (mean cn (fun k => (x k - mean cn x) * (x k - mean cn x)) + Ideal.ofBits .f32 0x3727C5AC#32)
    * g j + b j

/-- A row times a matrix. -/
def rowMat {k n : ℕ} (x : Fin k → EReal) (W : A2 k n) (e : Fin n) : EReal := ∑ d, x d * W (ix2 d e)

/-- Column `64 h + d` of the 1024. -/
def hcol (h : Fin 16) (d : Fin 64) : Fin 1024 := ⟨64 * h.val + d.val, by have := h.isLt; have := d.isLt; omega⟩

/-- Softmax-weighted sum over the keys: weights `exp(s m − top) / Σ exp(s m' − top)`. -/
def softAvg {n : ℕ} (s : Fin n → EReal) (top : EReal) (v : Fin n → EReal) : EReal :=
  ∑ m, Ideal.div (Ideal.exp (s m - top)) (∑ m', Ideal.exp (s m' - top)) * v m

/-- The scores of one head with the scale ⅛ folded into the query before the product. -/
def score (Q : Fin 1024 → EReal) (K : Fin 256 → Fin 1024 → EReal) (h : Fin 16) (m : Fin 256) : EReal :=
  ∑ d, (Q (hcol h d) * Ideal.ofBits .f32 0x3E000000#32) * K m (hcol h d)

/-- One head's output entry. -/
def headOut (Q : Fin 1024 → EReal) (K V : Fin 256 → Fin 1024 → EReal) (h : Fin 16) (d : Fin 64) : EReal :=
  softAvg (score Q K h) (Finset.univ.sup (score Q K h)) (fun m => V m (hcol h d))

/-- The heads side by side: entry `k` is head `k / 64`'s entry `k % 64`. -/
def attnRow (Q : Fin 1024 → EReal) (K V : Fin 256 → Fin 1024 → EReal) (k : Fin 1024) : EReal :=
  headOut Q K V ⟨k.val / 64, by have := k.isLt; omega⟩ ⟨k.val % 64, Nat.mod_lt _ (by norm_num)⟩

/-- The tanh form of gelu, the cube taken as `u · (u · u)`. -/
def gelu (u : EReal) : EReal :=
  u * (Ideal.ofBits .f32 0x3F000000#32 * (Ideal.ofBits .f32 0x3F800000#32 + Ideal.tanh (Ideal.ofBits .f32 0x3F4C422A#32 * (u + Ideal.ofBits .f32 0x3D372713#32 * (u * (u * u))))))

section row
variable (Wq : A2 512 1024) (Wo : A2 1024 1024) (qg qb : A1 512) (mg mb : A1 1024)
  (W1 : A2 1024 4096) (b1 : A1 4096) (W2 : A2 4096 1024) (b2 : A1 1024)

/-- The query of one row: `LN(q) · Wq`. -/
def queryRow (q : Fin 512 → EReal) (e : Fin 1024) : EReal :=
  rowMat (lnRow (Ideal.ofBits .f32 0x44000000#32) q (fun d => qg (ix1 d)) (fun d => qb (ix1 d))) Wq e

/-- The residual `x = Q + attn · Wo` of one row. -/
def resRow (q : Fin 512 → EReal) (K V : Fin 256 → Fin 1024 → EReal) (e : Fin 1024) : EReal :=
  queryRow Wq qg qb q e + rowMat (attnRow (queryRow Wq qg qb q) K V) Wo e

/-- The hidden layer of one row: `LN(x) · W1 + b1`. -/
def hidRow (x : Fin 1024 → EReal) (j : Fin 4096) : EReal :=
  rowMat (lnRow (Ideal.ofBits .f32 0x44800000#32) x (fun d => mg (ix1 d)) (fun d => mb (ix1 d))) W1 j + b1 (ix1 j)

/-- One output row from the residual: `x + (gelu(hidden) · W2 + b2)`. -/
def mlpRow (x : Fin 1024 → EReal) (e : Fin 1024) : EReal :=
  x e + (rowMat (fun j => gelu (hidRow mg mb W1 b1 x j)) W2 e + b2 (ix1 e))

/-- One output row from the query row and the batch's keys and values. -/
def outRow (q : Fin 512 → EReal) (K V : Fin 256 → Fin 1024 → EReal) (e : Fin 1024) : EReal :=
  mlpRow mg mb W1 b1 W2 b2 (resRow Wq Wo qg qb q K V) e

end row

section batch
variable (gf : A3 16 256 1024) (Wk Wv : A2 1024 1024) (gg gb : A1 1024)

/-- The keys of batch `b`: row `t` is `LN(grid_b(t) · Wk)`. -/
def keys (b : Fin 16) (t : Fin 256) (e : Fin 1024) : EReal :=
  lnRow (Ideal.ofBits .f32 0x44800000#32) (rowMat (fun d => gf (ix3 b t d)) Wk) (fun d => gg (ix1 d)) (fun d => gb (ix1 d)) e

/-- The values of batch `b`: row `t` is `grid_b(t) · Wv`. -/
def vals (b : Fin 16) (t : Fin 256) (e : Fin 1024) : EReal := rowMat (fun d => gf (ix3 b t d)) Wv e

end batch

/-- The whole result: entry `(b, l, e)`. -/
def G (gf : A3 16 256 1024) (qp : A3 16 1024 512) (Wq : A2 512 1024) (Wk Wv Wo : A2 1024 1024)
    (gg gb : A1 1024) (qg qb : A1 512) (mg mb : A1 1024) (W1 : A2 1024 4096) (b1 : A1 4096)
    (W2 : A2 4096 1024) (b2 : A1 1024) : A3 16 1024 1024 := fun i =>
  outRow Wq Wo qg qb mg mb W1 b1 W2 b2 (fun d => qp (ix3 (i 0) (i 1) d))
    (keys gf Wk gg gb (i 0)) (vals gf Wv (i 0)) (i 2)

end Cert.Attn

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.KernHead.lean ====
/-
  One attention head on a block of query rows, read at an entry, on the extended reals.  The scores
  are the products of the query block with the transposed keys; each row's maximum from −∞ is its
  supremum and is subtracted before the exponential; the weights are the exponentials over their row
  sum; the head's output is the weights times the values.  So entry (p, d) is the softmax-weighted
  sum over the keys of column d of the values.
-/
import proofs.«147995_j10943576670702_2_alg».proof.Proof.Body
import proofs.«147995_j10943576670702_2_alg».proof.Proof.Spec
import proofs.«147995_j10943576670702_2_alg».proof.Proof.LibDot
import proofs.«147995_j10943576670702_2_alg».proof.Proof.LibRowReduce
import proofs.«147995_j10943576670702_2_alg».proof.Proof.LibKeepdims

noncomputable section

namespace Cert.Attn.Kern

open Cert.KernelIdeal Cert.KernelIdeal.Gen Cert.KernelIdeal.Body Cert.Attn Idealize.ShloMosaic Idealize.ShloMosaic.ValueIdx
open Cert.LibDot Cert.LibRowReduce
open scoped BigOperators

/-- The row maximum from −∞, kept as a column and spread over the columns: at (p, m) the supremum of row p. -/
theorem rowMaxSpread_apply {a b : ℕ} (s : FVec Ideal ⟨2, ![a, b]⟩ .f32)
    (hr : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (m : Fin b) :
    broadcastTo ⟨2, ![a, b]⟩ (shapeCast ⟨2, ![a, 1]⟩ (multiReduction .maximumf [1] ⟨1, ![a]⟩ s 0xFF800000#32 hr hφ hacc) hc) hb (ix2 p m)
      = (Finset.univ : Finset (Fin b)).sup fun m' => s (ix2 p m') :=
  (broadcastTo_shapeCast_column_apply _ hc hb p m).trans (rowMax_apply s hr hφ hacc p)

/-- The row sum from zero, kept as a column and spread over the columns: at (p, m) the sum of row p. -/
theorem rowSumSpread_apply {a b : ℕ} (s : FVec Ideal ⟨2, ![a, b]⟩ .f32)
    (hr : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (m : Fin b) :
    broadcastTo ⟨2, ![a, b]⟩ (shapeCast ⟨2, ![a, 1]⟩ (multiReduction .add [1] ⟨1, ![a]⟩ s 0x00000000#32 hr hφ hacc) hc) hb (ix2 p m)
      = ∑ m' : Fin b, s (ix2 p m') :=
  (broadcastTo_shapeCast_column_apply _ hc hb p m).trans (rowSum_apply s hr hφ hacc p)

/-- The shifted exponentials of a score matrix: at (p, m), exp of the score minus the row's supremum. -/
theorem expShift_apply {a b : ℕ} (s : FVec Ideal ⟨2, ![a, b]⟩ .f32)
    (hr : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (m : Fin b) :
    exp (subf s (broadcastTo ⟨2, ![a, b]⟩ (shapeCast ⟨2, ![a, 1]⟩ (multiReduction .maximumf [1] ⟨1, ![a]⟩ s 0xFF800000#32 hr hφ hacc) hc) hb)) (ix2 p m)
      = Ideal.exp (s (ix2 p m) - (Finset.univ : Finset (Fin b)).sup fun m' => s (ix2 p m')) :=
  congrArg (fun t => Ideal.exp (s (ix2 p m) - t)) (rowMaxSpread_apply s hr hφ hacc hc hb p m)

/-- The softmax weights of a score matrix: at (p, m), the shifted exponential over the row's sum of them. -/
theorem softW_apply {a b : ℕ} (s : FVec Ideal ⟨2, ![a, b]⟩ .f32)
    (hr : (⟨2, ![a, b]⟩ : Shape).Reduces [1] ⟨1, ![a]⟩) (hφ : FKind.Formats .f32)
    (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (m : Fin b) :
    divf (exp (subf s (broadcastTo ⟨2, ![a, b]⟩ (shapeCast ⟨2, ![a, 1]⟩ (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩ (multiReduction .maximumf [1] ⟨1, ![a]⟩ s 0xFF800000#32 hr hφ hmax) hc) hb)))
            0x00000000#32 hr hφ hadd) hc) hb) (ix2 p m)
      = Ideal.div (Ideal.exp (s (ix2 p m) - (Finset.univ : Finset (Fin b)).sup fun m' => s (ix2 p m')))
          (∑ m' : Fin b, Ideal.exp (s (ix2 p m') - (Finset.univ : Finset (Fin b)).sup fun m'' => s (ix2 p m''))) := by
  show Ideal.div _ _ = _
  refine congrArg₂ Ideal.div (expShift_apply s hr hφ hmax hc hb p m) ?_
  refine (rowSumSpread_apply _ hr hφ hadd hc hb p m).trans ?_
  exact Finset.sum_congr rfl fun m' _ => expShift_apply s hr hφ hmax hc hb p m'

/-- One head on a block of rows, entry (p, d): the softmax-weighted sum over the keys of the values'
    column d, the scores of row p being the products of the query row with the keys' columns. -/
theorem headVec_apply (qs : FVec Ideal S128x64 .bf16) (kt : FVec Ideal S64x256 .bf16) (vv : FVec Ideal S256x64 .bf16)
    (p : Fin 128) (d : Fin 64) :
    headVec qs kt vv (ix2 p d)
      = softAvg (fun m : Fin 256 => ∑ k : Fin 64, qs (ix2 p k) * kt (ix2 k m))
          (Finset.univ.sup fun m : Fin 256 => ∑ k : Fin 64, qs (ix2 p k) * kt (ix2 k m))
          (fun m => vv (ix2 m d)) := by
  have hs : ∀ m : Fin 256,
      matmul dot_S128x64_S64x256_S128x256_1_0_0_1_n_n none qs kt (constant S128x256 .f32 0x00000000#32) (ix2 p m)
        = ∑ k : Fin 64, qs (ix2 p k) * kt (ix2 k m) :=
    fun m => matmul_zero_apply _ none qs kt p m
  unfold headVec k0_pay9
  refine (matmul_zero_apply _ none _ vv p d).trans ?_
  unfold softAvg
  refine Finset.sum_congr rfl fun m _ => ?_
  refine congrArg (· * vv (ix2 m d)) ?_
  refine (softW_apply _ reduces_S128x256_S128 (.inl rfl) rfl rfl shapeCasts_S128_S128x1 broadcasts_S128x1_S128x256 p m).trans ?_
  simp only [hs]

end Cert.Attn.Kern

end
-- ==== Proof.KernHeads.lean ====
/-
  The sixteen heads of the block are one and the same list of operations applied to the sixteen
  64-column bands of the scaled query: each spelling, however it is cut into pieces, unfolds to the
  head function of its band.
-/
import proofs.«147995_j10943576670702_2_alg».proof.Proof.Body
import Idealize.ShloMosaic.PureOps.Ideal

noncomputable section

namespace Cert.Attn.Kern

open Cert.KernelIdeal Cert.KernelIdeal.Gen Cert.KernelIdeal.Body Idealize.ShloMosaic

/-- Head 0: the band of columns 0 … 63, cut from the scaled query before the head. -/
theorem head_eq_0 (x1 : FVec Ideal S1x128x512 .f32) (x8 x9 : FVec Ideal S512 .f32) (x2 : FVec Ideal S512x1024 .bf16)
    (kt : FVec Ideal S64x256 .bf16) (vv : FVec Ideal S256x64 .bf16) :
    k0_pay9 (k0_pay8 x1 x8 x9 x2) kt vv
      = headVec (F := Ideal) (qslice 0 (k0_pay7 x1 x8 x9 x2) slices_S128x1024_o0_0_S128x64) kt vv := rfl

/-- Head 1: the band of columns 64 … 127. -/
theorem head_eq_1 (v37 : FVec Ideal S128x1024 .bf16) (kt : FVec Ideal S64x256 .bf16) (vv : FVec Ideal S256x64 .bf16) :
    k0_pay10 v37 kt vv
      = headVec (qslice 64 v37 slices_S128x1024_o0_64_S128x64) kt vv := rfl

/-- Head 2: the band of columns 128 … 191. -/
theorem head_eq_2 (v37 : FVec Ideal S128x1024 .bf16) (kt : FVec Ideal S64x256 .bf16) (vv : FVec Ideal S256x64 .bf16) :
    k0_pay13 vv (k0_pay11 v37 kt) (k0_pay12 v37 kt)
      = headVec (qslice 128 v37 slices_S128x1024_o0_128_S128x64) kt vv := rfl

/-- Head 3: the band of columns 192 … 255. -/
theorem head_eq_3 (v37 : FVec Ideal S128x1024 .bf16) (kt : FVec Ideal S64x256 .bf16) (vv : FVec Ideal S256x64 .bf16) :
    k0_pay14 v37 kt vv
      = headVec (qslice 192 v37 slices_S128x1024_o0_192_S128x64) kt vv := rfl

/-- Head 4: the band of columns 256 … 319. -/
theorem head_eq_4 (v37 : FVec Ideal S128x1024 .bf16) (kt : FVec Ideal S64x256 .bf16) (vv : FVec Ideal S256x64 .bf16) :
    k0_pay15 v37 kt vv
      = headVec (qslice 256 v37 slices_S128x1024_o0_256_S128x64) kt vv := rfl

/-- Head 5: the band of columns 320 … 383. -/
theorem head_eq_5 (v37 : FVec Ideal S128x1024 .bf16) (kt : FVec Ideal S64x256 .bf16) (vv : FVec Ideal S256x64 .bf16) :
    k0_pay17 (k0_pay16 v37) kt vv (constant S128x256 .f32 0x00000000#32)
      = headVec (qslice 320 v37 slices_S128x1024_o0_320_S128x64) kt vv := rfl

/-- Head 6: the band of columns 384 … 447. -/
theorem head_eq_6 (v37 : FVec Ideal S128x1024 .bf16) (kt : FVec Ideal S64x256 .bf16) (vv : FVec Ideal S256x64 .bf16) :
    k0_pay18 v37 kt vv
      = headVec (qslice 384 v37 slices_S128x1024_o0_384_S128x64) kt vv := rfl

/-- Head 7: the band of columns 448 … 511. -/
theorem head_eq_7 (v37 : FVec Ideal S128x1024 .bf16) (kt : FVec Ideal S64x256 .bf16) (vv : FVec Ideal S256x64 .bf16) :
    k0_pay20 vv (k0_pay19 v37 kt) (constant S128x64 .f32 0x00000000#32)
      = headVec (qslice 448 v37 slices_S128x1024_o0_448_S128x64) kt vv := rfl

/-- Head 8: the band of columns 512 … 575. -/
theorem head_eq_8 (v37 : FVec Ideal S128x1024 .bf16) (kt : FVec Ideal S64x256 .bf16) (vv : FVec Ideal S256x64 .bf16) :
    k0_pay21 v37 kt vv
      = headVec (qslice 512 v37 slices_S128x1024_o0_512_S128x64) kt vv := rfl

/-- Head 9: the band of columns 576 … 639. -/
theorem head_eq_9 (v37 : FVec Ideal S128x1024 .bf16) (kt : FVec Ideal S64x256 .bf16) (vv : FVec Ideal S256x64 .bf16) :
    k0_pay22 v37 kt vv
      = headVec (qslice 576 v37 slices_S128x1024_o0_576_S128x64) kt vv := rfl

/-- Head 10: the band of columns 640 … 703. -/
theorem head_eq_10 (v37 : FVec Ideal S128x1024 .bf16) (kt : FVec Ideal S64x256 .bf16) (vv : FVec Ideal S256x64 .bf16) :
    k0_pay25 vv (k0_pay23 v37 kt) (k0_pay24 v37 kt)
      = headVec (qslice 640 v37 slices_S128x1024_o0_640_S128x64) kt vv := rfl

/-- Head 11: the band of columns 704 … 767. -/
theorem head_eq_11 (v37 : FVec Ideal S128x1024 .bf16) (kt : FVec Ideal S64x256 .bf16) (vv : FVec Ideal S256x64 .bf16) :
    k0_pay26 v37 kt vv
      = headVec (qslice 704 v37 slices_S128x1024_o0_704_S128x64) kt vv := rfl

/-- Head 12: the band of columns 768 … 831. -/
theorem head_eq_12 (v37 : FVec Ideal S128x1024 .bf16) (kt : FVec Ideal S64x256 .bf16) (vv : FVec Ideal S256x64 .bf16) :
    k0_pay27 v37 kt vv
      = headVec (qslice 768 v37 slices_S128x1024_o0_768_S128x64) kt vv := rfl

/-- Head 13: the band of columns 832 … 895. -/
theorem head_eq_13 (v37 : FVec Ideal S128x1024 .bf16) (kt : FVec Ideal S64x256 .bf16) (vv : FVec Ideal S256x64 .bf16) :
    k0_pay29 (k0_pay28 v37) kt vv
      = headVec (qslice 832 v37 slices_S128x1024_o0_832_S128x64) kt vv := rfl

/-- Head 14: the band of columns 896 … 959. -/
theorem head_eq_14 (v37 : FVec Ideal S128x1024 .bf16) (kt : FVec Ideal S64x256 .bf16) (vv : FVec Ideal S256x64 .bf16) :
    k0_pay30 v37 kt vv
      = headVec (qslice 896 v37 slices_S128x1024_o0_896_S128x64) kt vv := rfl

/-- Head 15: the band of columns 960 … 1023. -/
theorem head_eq_15 (v37 : FVec Ideal S128x1024 .bf16) (kt : FVec Ideal S64x256 .bf16) (vv : FVec Ideal S256x64 .bf16) :
    matmul dot_S128x256_S256x64_S128x64_1_0_0_1_n_n none (truncf .bf16 (divf (k0_pay31 v37 kt) (broadcastTo S128x256 (k0_pay32 v37 kt) broadcasts_S128x1_S128x256)) bitsLt_bf16_f32) vv (constant S128x64 .f32 0x00000000#32)
      = headVec (qslice 960 v37 slices_S128x1024_o0_960_S128x64) kt vv := rfl

end Cert.Attn.Kern

end
-- ==== Proof.KernSlice.lean ====
/-
  A band of 64 columns cut from the scaled query block, read at an entry: column d of the band from
  column o is column o + d of the block.
-/
import proofs.«147995_j10943576670702_2_alg».proof.Proof.Body
import proofs.«147995_j10943576670702_2_alg».proof.Proof.Spec
import Idealize.ShloMosaic.Lib.ValueLayout

noncomputable section

namespace Cert.Attn.Kern

open Cert.KernelIdeal Cert.KernelIdeal.Gen Cert.KernelIdeal.Body Cert.Attn Idealize.ShloMosaic Idealize.ShloMosaic.ValueIdx
open scoped BigOperators

/-- The scaled query's band of 64 columns from column `o`, at (p, d): the query at (p, o + d). -/
theorem qslice_apply (o : ℕ) (v37 : FVec Ideal S128x1024 .bf16) (h : (S128x1024).Slices ![0, o] S128x64)
    (p : Fin 128) (d : Fin 64) (ho : o + 64 ≤ 1024) :
    qslice o v37 h (ix2 p d) = v37 (ix2 p ⟨o + d.val, by have := d.isLt; omega⟩) :=
  slice2_axis1_apply o v37 h p d _ rfl

end Cert.Attn.Kern

end
-- ==== Proof.KernLN.lean ====
/-
  The layer normalisation as the block spells it, read at an entry, on the extended reals: the row
  mean is the row sum over the count word; the variance the mean of the squared deviations; the
  entry is the deviation times the reciprocal root of variance plus ε, times the scale, plus the
  shift.  For any block extents and any count word.
-/
import proofs.«147995_j10943576670702_2_alg».proof.Proof.Body
import proofs.«147995_j10943576670702_2_alg».proof.Proof.Spec
import proofs.«147995_j10943576670702_2_alg».proof.Proof.LibRowReduce
import proofs.«147995_j10943576670702_2_alg».proof.Proof.LibKeepdims
import Idealize.ShloMosaic.Lib.ValueLayout

noncomputable section

namespace Cert.Attn.Kern

open Cert.KernelIdeal Cert.KernelIdeal.Gen Cert.KernelIdeal.Body Cert.Attn Idealize.ShloMosaic Idealize.ShloMosaic.ValueIdx
open Cert.LibRowReduce
open scoped BigOperators

/-- The layer normalisation as the block spells it, over a block `y` of `a` rows of `n` entries, the
    count word `cn`, and the scale and shift vectors: the row sums kept as a column and divided by the
    count, the deviations, their squares' row sums divided by the count, ε added, the reciprocal root
    spread over the row, then scale and shift laid out as one row and spread over the rows. -/
def lnSpell {a n : ℕ} (cn : BitVec 32) (y : FVec Ideal ⟨2, ![a, n]⟩ .f32) (g b : FVec Ideal ⟨1, ![n]⟩ .f32)
    (hr : (⟨2, ![a, n]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (hc1 : (⟨1, ![n]⟩ : Shape).ShapeCasts ⟨2, ![1, n]⟩) (hb1 : (⟨2, ![1, n]⟩ : Shape).Broadcasts ⟨2, ![a, n]⟩) :
    FVec Ideal ⟨2, ![a, n]⟩ .f32 :=
  have v350 : FVec Ideal ⟨1, ![a]⟩ .f32 := multiReduction .add [1] ⟨1, ![a]⟩ y 0x00000000#32 hr hφ hacc
  have v351 : FVec Ideal ⟨2, ![a, 1]⟩ .f32 := shapeCast ⟨2, ![a, 1]⟩ v350 hc
  have cst_160 : Ideal .f32 := Scalar.ofBits .f32 cn
  have v352 : FVec Ideal ⟨2, ![a, 1]⟩ .f32 := broadcast ⟨2, ![a, 1]⟩ cst_160
  have v353 : FVec Ideal ⟨2, ![a, 1]⟩ .f32 := divf v351 v352
  have v354 : FVec Ideal ⟨2, ![a, n]⟩ .f32 := broadcastTo ⟨2, ![a, n]⟩ v353 hb
  have v355 : FVec Ideal ⟨2, ![a, n]⟩ .f32 := subf y v354
  have v356 : FVec Ideal ⟨2, ![a, n]⟩ .f32 := mulf v355 v355
  have v357 : FVec Ideal ⟨1, ![a]⟩ .f32 := multiReduction .add [1] ⟨1, ![a]⟩ v356 0x00000000#32 hr hφ hacc
  have v358 : FVec Ideal ⟨2, ![a, 1]⟩ .f32 := shapeCast ⟨2, ![a, 1]⟩ v357 hc
  have cst_162 : Ideal .f32 := Scalar.ofBits .f32 cn
  have v359 : FVec Ideal ⟨2, ![a, 1]⟩ .f32 := broadcast ⟨2, ![a, 1]⟩ cst_162
  have v360 : FVec Ideal ⟨2, ![a, 1]⟩ .f32 := divf v358 v359
  have v361 : FVec Ideal ⟨2, ![a, n]⟩ .f32 := broadcastTo ⟨2, ![a, n]⟩ v353 hb
  have v362 : FVec Ideal ⟨2, ![a, n]⟩ .f32 := subf y v361
  have cst_163 : Ideal .f32 := Scalar.ofBits .f32 0x3727C5AC#32
  have v363 : FVec Ideal ⟨2, ![a, 1]⟩ .f32 := broadcast ⟨2, ![a, 1]⟩ cst_163
  have v364 : FVec Ideal ⟨2, ![a, 1]⟩ .f32 := addf v360 v363
  have v365 : FVec Ideal ⟨2, ![a, 1]⟩ .f32 := rsqrt v364
  have v366 : FVec Ideal ⟨2, ![a, n]⟩ .f32 := broadcastTo ⟨2, ![a, n]⟩ v365 hb
  have v367 : FVec Ideal ⟨2, ![a, n]⟩ .f32 := mulf v362 v366
  have v368 : FVec Ideal ⟨2, ![1, n]⟩ .f32 := shapeCast ⟨2, ![1, n]⟩ g hc1
  have v369 : FVec Ideal ⟨2, ![a, n]⟩ .f32 := broadcastTo ⟨2, ![a, n]⟩ v368 hb1
  have v370 : FVec Ideal ⟨2, ![a, n]⟩ .f32 := mulf v367 v369
  have v371 : FVec Ideal ⟨2, ![1, n]⟩ .f32 := shapeCast ⟨2, ![1, n]⟩ b hc1
  have v372 : FVec Ideal ⟨2, ![a, n]⟩ .f32 := broadcastTo ⟨2, ![a, n]⟩ v371 hb1
  have v373 : FVec Ideal ⟨2, ![a, n]⟩ .f32 := addf v370 v372
  v373

/-- A row sum kept as a column and divided by the count word: at (p, u) the mean of the row. -/
theorem colMean_apply {a n : ℕ} (cn : BitVec 32) (z : FVec Ideal ⟨2, ![a, n]⟩ .f32)
    (hr : (⟨2, ![a, n]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    divf (shapeCast ⟨2, ![a, 1]⟩ (multiReduction .add [1] ⟨1, ![a]⟩ z 0x00000000#32 hr hφ hacc) hc)
        (broadcast ⟨2, ![a, 1]⟩ (Scalar.ofBits (F := Ideal) .f32 cn)) (ix2 p u)
      = mean (Ideal.ofBits .f32 cn) (fun k => z (ix2 p k)) := by
  show Ideal.div _ _ = Ideal.div _ _
  refine congrArg₂ Ideal.div ?_ rfl
  exact (shapeCast_a_a1_apply _ hc p u).trans (rowSum_apply z hr hφ hacc p)

/-- The spelled layer normalisation read at (p, e): the layer normalisation of row p, entry e. -/
theorem kernLN_apply {a n : ℕ} (cn : BitVec 32) (y : FVec Ideal ⟨2, ![a, n]⟩ .f32) (g b : FVec Ideal ⟨1, ![n]⟩ .f32)
    (hr : (⟨2, ![a, n]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (hc1 : (⟨1, ![n]⟩ : Shape).ShapeCasts ⟨2, ![1, n]⟩) (hb1 : (⟨2, ![1, n]⟩ : Shape).Broadcasts ⟨2, ![a, n]⟩)
    (p : Fin a) (e : Fin n) :
    lnSpell cn y g b hr hφ hacc hc hb hc1 hb1 (ix2 p e)
      = lnRow (Ideal.ofBits .f32 cn) (fun k => y (ix2 p k)) (fun k => g (ix1 k)) (fun k => b (ix1 k)) e := by
  -- the mean column, spread: at (p, k) the mean of row p
  have hmu : ∀ k : Fin n,
      broadcastTo ⟨2, ![a, n]⟩ (divf (shapeCast ⟨2, ![a, 1]⟩ (multiReduction .add [1] ⟨1, ![a]⟩ y 0x00000000#32 hr hφ hacc) hc)
        (broadcast ⟨2, ![a, 1]⟩ (Scalar.ofBits (F := Ideal) .f32 cn))) hb (ix2 p k)
        = mean (Ideal.ofBits .f32 cn) (fun k => y (ix2 p k)) :=
    fun k => (broadcastTo_a1_ab_apply _ hb p k).trans (colMean_apply cn y hr hφ hacc hc p 0)
  unfold lnSpell lnRow
  show (y (ix2 p e) - _) * _ * _ + _ = _
  refine congrArg₂ (· + ·) (congrArg₂ (· * ·) (congrArg₂ (· * ·) (congrArg (y (ix2 p e) - ·) (hmu e)) ?_) ?_) ?_
  · -- the reciprocal root of the variance plus ε, spread over the row
    refine (broadcastTo_a1_ab_apply _ hb p e).trans ?_
    show Ideal.rsqrt (_ + _) = Ideal.rsqrt (_ + _)
    refine congrArg (fun t => Ideal.rsqrt (t + Ideal.ofBits .f32 0x3727C5AC#32)) ?_
    refine (colMean_apply cn _ hr hφ hacc hc p 0).trans ?_
    refine congrArg (mean (Ideal.ofBits .f32 cn)) (funext fun k => ?_)
    show (y (ix2 p k) - _) * (y (ix2 p k) - _) = _
    rw [hmu k]
  · exact (broadcastTo_1b_ab_apply _ hb1 p e).trans (shapeCast_a_1a_apply g hc1 0 e)
  · exact (broadcastTo_1b_ab_apply _ hb1 p e).trans (shapeCast_a_1a_apply b hc1 0 e)

end Cert.Attn.Kern

end
-- ==== Proof.KernKV.lean ====
/-
  What the first point of a batch stores, read at an entry: the values are the grid rows times the
  value weights; the keys are the layer-normed grid rows times the key weights, stored transposed,
  so entry (e, t) of the stored keys is entry e of the layer-normed key row t.
-/
import proofs.«147995_j10943576670702_2_alg».proof.Proof.Body
import proofs.«147995_j10943576670702_2_alg».proof.Proof.Spec
import proofs.«147995_j10943576670702_2_alg».proof.Proof.LibDot
import proofs.«147995_j10943576670702_2_alg».proof.Proof.KernLN
import Idealize.ShloMosaic.Lib.ValueLayout
import Idealize.ShloMosaic.Lib.Pipeline.Value

noncomputable section

namespace Cert.Attn.Kern

open Cert.KernelIdeal Cert.KernelIdeal.Gen Cert.KernelIdeal.Body Cert.Attn Idealize.ShloMosaic Idealize.ShloMosaic.ValueIdx
open Cert.LibDot
open scoped BigOperators

/-- The grid block as a matrix times a weight matrix (cast to its own shape), into zeros: at (t, k)
    the grid row t times column k of the weights. -/
theorem gridMat_apply (x0 : FVec Ideal S1x256x1024 .bf16) (w : FVec Ideal S1024x1024 .bf16) (t : Fin 256) (k : Fin 1024) :
    matmul dot_S256x1024_S1024x1024_S256x1024_1_0_0_1_n_n none (k0_pay2 x0)
        (shapeCast S1024x1024 w shapeCasts_S1024x1024_S1024x1024) (constant S256x1024 .f32 0x00000000#32) (ix2 t k)
      = rowMat (fun d => x0 (ix3 0 t d)) w k := by
  refine (matmul_zero_apply _ none _ _ t k).trans ?_
  unfold rowMat k0_pay2
  refine Finset.sum_congr rfl fun d _ => ?_
  exact congrArg₂ (· * ·) (shapeCast_1ab_ab_apply x0 _ t d) (congrFun (shapeCast_self w _) (ix2 d k))

/-- The transposed keys at (e, t): the layer normalisation of key row t, entry e. -/
theorem keysT_apply (x0 : FVec Ideal S1x256x1024 .bf16) (x3 : FVec Ideal S1024x1024 .bf16) (x6 x7 : FVec Ideal S1024 .f32)
    (e : Fin 1024) (t : Fin 256) :
    keysT (F := Ideal) x0 x3 x6 x7 (ix2 e t)
      = lnRow (Ideal.ofBits .f32 0x44800000#32) (rowMat (fun d => x0 (ix3 0 t d)) x3)
          (fun d => x6 (ix1 d)) (fun d => x7 (ix1 d)) e := by
  unfold keysT k0_pay3
  refine (congrFun (shapeCast_self _ _) (ix2 e t)).trans ?_
  refine (transpose_ix2_apply _ _ e t).trans ?_
  refine (kernLN_apply 0x44800000#32 _ x6 x7 reduces_S256x1024_S256 (.inl rfl) rfl shapeCasts_S256_S256x1
    broadcasts_S256x1_S256x1024 shapeCasts_S1024_S1x1024 broadcasts_S1x1024_S256x1024 t e).trans ?_
  exact congrArg (fun r => lnRow (Ideal.ofBits .f32 0x44800000#32) r (fun d => x6 (ix1 d)) (fun d => x7 (ix1 d)) e)
    (funext fun k => gridMat_apply x0 x3 t k)

/-- The values at (t, e): grid row t times column e of the value weights. -/
theorem valsV_apply (x0 : FVec Ideal S1x256x1024 .bf16) (x4 : FVec Ideal S1024x1024 .bf16) (t : Fin 256) (e : Fin 1024) :
    valsV (F := Ideal) x0 x4 (ix2 t e) = rowMat (fun d => x0 (ix3 0 t d)) x4 e := by
  unfold valsV k0_pay5 k0_pay4
  refine (congrFun (shapeCast_self _ _) (ix2 t e)).trans ?_
  exact gridMat_apply x0 x4 t e

end Cert.Attn.Kern

end
-- ==== Proof.KernQuery.lean ====
/-
  The query block read at an entry: row p is the layer-normed query row p times the query weights;
  the scaled query is that times the scale word.
-/
import proofs.«147995_j10943576670702_2_alg».proof.Proof.Body
import proofs.«147995_j10943576670702_2_alg».proof.Proof.Spec
import proofs.«147995_j10943576670702_2_alg».proof.Proof.LibDot
import proofs.«147995_j10943576670702_2_alg».proof.Proof.KernLN
import Idealize.ShloMosaic.Lib.ValueLayout
import Idealize.ShloMosaic.Lib.Pipeline.Value

noncomputable section

namespace Cert.Attn.Kern

open Cert.KernelIdeal Cert.KernelIdeal.Gen Cert.KernelIdeal.Body Cert.Attn Idealize.ShloMosaic Idealize.ShloMosaic.ValueIdx
open Cert.LibDot
open scoped BigOperators

/-- The query block at (p, e): the layer-normed query row p times column e of the query weights. -/
theorem pay6_apply (x1 : FVec Ideal S1x128x512 .f32) (x8 x9 : FVec Ideal S512 .f32) (x2 : FVec Ideal S512x1024 .bf16)
    (p : Fin 128) (e : Fin 1024) :
    k0_pay6 (F := Ideal) x1 x8 x9 x2 (ix2 p e) = queryRow x2 x8 x9 (fun d => x1 (ix3 0 p d)) e := by
  unfold k0_pay6
  refine (matmul_zero_apply _ none _ _ p e).trans ?_
  unfold queryRow rowMat
  refine Finset.sum_congr rfl fun d _ => ?_
  refine congrArg₂ (· * ·) ?_ (congrFun (shapeCast_self x2 _) (ix2 d e))
  refine (kernLN_apply 0x44000000#32 _ x8 x9 reduces_S128x512_S128 (.inl rfl) rfl shapeCasts_S128_S128x1
    broadcasts_S128x1_S128x512 shapeCasts_S512_S1x512 broadcasts_S1x512_S128x512 p d).trans ?_
  exact congrArg (fun r => lnRow (Ideal.ofBits .f32 0x44000000#32) r (fun d => x8 (ix1 d)) (fun d => x9 (ix1 d)) d)
    (funext fun k => shapeCast_1ab_ab_apply x1 _ p k)

/-- The scaled query block at (p, e): the query entry times the scale word. -/
theorem pay7_apply (x1 : FVec Ideal S1x128x512 .f32) (x8 x9 : FVec Ideal S512 .f32) (x2 : FVec Ideal S512x1024 .bf16)
    (p : Fin 128) (e : Fin 1024) :
    k0_pay7 (F := Ideal) x1 x8 x9 x2 (ix2 p e)
      = queryRow x2 x8 x9 (fun d => x1 (ix3 0 p d)) e * Ideal.ofBits .f32 0x3E000000#32 := by
  unfold k0_pay7
  show k0_pay6 (F := Ideal) x1 x8 x9 x2 (ix2 p e) * Ideal.ofBits .f32 0x3E000000#32 = _
  rw [pay6_apply]

end Cert.Attn.Kern

end
-- ==== Proof.KernOps.lean ====
/-
  The block's vector operations read at an entry, on the extended reals, gathered: one head of
  attention, the sixteen heads as the one head function of their bands, the bands of the scaled
  query, the spelled layer normalisation, the stored keys and values, and the query block.
-/
import proofs.«147995_j10943576670702_2_alg».proof.Proof.KernHead
import proofs.«147995_j10943576670702_2_alg».proof.Proof.KernHeads
import proofs.«147995_j10943576670702_2_alg».proof.Proof.KernSlice
import proofs.«147995_j10943576670702_2_alg».proof.Proof.KernLN
import proofs.«147995_j10943576670702_2_alg».proof.Proof.KernKV
import proofs.«147995_j10943576670702_2_alg».proof.Proof.KernQuery
-- ==== Proof.KernIdx.lean ====
/-
  The sixteen bands as one matrix.  Column k of the 1024 lies in band k / 64 at place k mod 64; column 64 h + d
  is place d of band h.  The keys the scores use are the bands of the transposed keys read this way, the values
  the bands of the values.
-/
import proofs.«147995_j10943576670702_2_alg».proof.Proof.Spec
import proofs.«147995_j10943576670702_2_alg».proof.Proof.Body

noncomputable section

namespace Cert.Attn.Kern

open Cert.KernelIdeal Cert.KernelIdeal.Gen Cert.KernelIdeal.Body Cert.Attn Idealize.ShloMosaic Idealize.ShloMosaic.ValueIdx

/-- The keys as a 256 × 1024 matrix, from the sixteen 64 × 256 bands of the transposed keys. -/
def bandK (kt : Fin 16 → FVec Ideal S64x256 .bf16) (m : Fin 256) (k : Fin 1024) : EReal :=
  kt ⟨k.val / 64, by have := k.isLt; omega⟩ (ix2 ⟨k.val % 64, Nat.mod_lt _ (by norm_num)⟩ m)

/-- The values as a 256 × 1024 matrix, from their sixteen 256 × 64 bands. -/
def bandV (vv : Fin 16 → FVec Ideal S256x64 .bf16) (m : Fin 256) (k : Fin 1024) : EReal :=
  vv ⟨k.val / 64, by have := k.isLt; omega⟩ (ix2 m ⟨k.val % 64, Nat.mod_lt _ (by norm_num)⟩)

/-- Column 64 h + d lies in band h … -/
theorem hcol_div (h : Fin 16) (d : Fin 64) : (hcol h d).val / 64 = h.val := by
  have := d.isLt
  show (64 * h.val + d.val) / 64 = h.val
  omega

/-- … at place d. -/
theorem hcol_mod (h : Fin 16) (d : Fin 64) : (hcol h d).val % 64 = d.val := by
  have := d.isLt
  show (64 * h.val + d.val) % 64 = d.val
  omega

/-- Every column is column 64 h + d of its band h = k / 64 and place d = k mod 64. -/
theorem hcol_div_mod (k : Fin 1024) :
    hcol ⟨k.val / 64, by have := k.isLt; omega⟩ ⟨k.val % 64, Nat.mod_lt _ (by norm_num)⟩ = k := by
  apply Fin.ext
  show 64 * (k.val / 64) + k.val % 64 = k.val
  omega

/-- The keys' matrix at column 64 h + d is band h of the transposed keys at row d. -/
theorem bandK_hcol (kt : Fin 16 → FVec Ideal S64x256 .bf16) (m : Fin 256) (h : Fin 16) (d : Fin 64) :
    bandK kt m (hcol h d) = kt h (ix2 d m) := by
  have e1 : (⟨(hcol h d).val / 64, by have := (hcol h d).isLt; omega⟩ : Fin 16) = h := Fin.ext (hcol_div h d)
  have e2 : (⟨(hcol h d).val % 64, Nat.mod_lt _ (by norm_num)⟩ : Fin 64) = d := Fin.ext (hcol_mod h d)
  show kt ⟨(hcol h d).val / 64, _⟩ (ix2 ⟨(hcol h d).val % 64, _⟩ m) = kt h (ix2 d m)
  rw [e1, e2]

/-- The values' matrix at column 64 h + d is band h of the values at column d. -/
theorem bandV_hcol (vv : Fin 16 → FVec Ideal S256x64 .bf16) (m : Fin 256) (h : Fin 16) (d : Fin 64) :
    bandV vv m (hcol h d) = vv h (ix2 m d) := by
  have e1 : (⟨(hcol h d).val / 64, by have := (hcol h d).isLt; omega⟩ : Fin 16) = h := Fin.ext (hcol_div h d)
  have e2 : (⟨(hcol h d).val % 64, Nat.mod_lt _ (by norm_num)⟩ : Fin 64) = d := Fin.ext (hcol_mod h d)
  show vv ⟨(hcol h d).val / 64, _⟩ (ix2 m ⟨(hcol h d).val % 64, _⟩) = vv h (ix2 m d)
  rw [e1, e2]

end Cert.Attn.Kern

end
-- ==== Proof.KernHeadRow.lean ====
/-
  One head of the block read at an entry, in the spec's words.  When row p of the scaled query block is the
  query row Q times ⅛, head h — the scores of the query's columns 64 h … 64 h + 63 against band h of the
  transposed keys, their softmax over the keys, the weighted sum of band h of the values — is at (p, d) the
  spec's head output of Q against the bands read as 256 × 1024 matrices.
-/
import proofs.«147995_j10943576670702_2_alg».proof.Proof.KernOps
import proofs.«147995_j10943576670702_2_alg».proof.Proof.KernIdx

noncomputable section

namespace Cert.Attn.Kern

open Cert.KernelIdeal Cert.KernelIdeal.Gen Cert.KernelIdeal.Body Cert.Attn Idealize.ShloMosaic Idealize.ShloMosaic.ValueIdx

/-- Head h on the query's columns o = 64 h …, read at (p, d). -/
theorem head_row (v37 : FVec Ideal S128x1024 .bf16) (Q : Fin 1024 → EReal) (p : Fin 128)
    (hQ : ∀ e : Fin 1024, v37 (ix2 p e) = Q e * Ideal.ofBits .f32 0x3E000000#32)
    (kt : Fin 16 → FVec Ideal S64x256 .bf16) (vv : Fin 16 → FVec Ideal S256x64 .bf16)
    (h : Fin 16) (o : ℕ) (ho : o = 64 * h.val) (hs : (S128x1024).Slices ![0, o] S128x64) (d : Fin 64) :
    headVec (qslice o v37 hs) (kt h) (vv h) (ix2 p d) = headOut Q (bandK kt) (bandV vv) h d := by
  have ho' : o + 64 ≤ 1024 := by have := h.isLt; omega
  have hsc : (fun m : Fin 256 => ∑ k : Fin 64, qslice o v37 hs (ix2 p k) * kt h (ix2 k m)) = score Q (bandK kt) h := by
    funext m
    unfold score
    refine Finset.sum_congr rfl fun k _ => ?_
    have hk : (⟨o + k.val, by have := k.isLt; omega⟩ : Fin 1024) = hcol h k := Fin.ext (by show o + k.val = 64 * h.val + k.val; omega)
    refine congrArg₂ (· * ·) ?_ (bandK_hcol kt m h k).symm
    refine (qslice_apply o v37 hs p k ho').trans ?_
    exact (congrArg (fun c => v37 (ix2 p c)) hk).trans (hQ (hcol h k))
  have hv : (fun m : Fin 256 => vv h (ix2 m d)) = fun m => bandV vv m (hcol h d) := by
    funext m; exact (bandV_hcol vv m h d).symm
  refine (headVec_apply (qslice o v37 hs) (kt h) (vv h) p d).trans ?_
  unfold headOut
  rw [hsc, hv]

end Cert.Attn.Kern

end
-- ==== Proof.LibConcat16.lean ====
/-
  Sixteen matrices with the same number of rows and the same number of columns laid side by side (a concatenation
  along axis 1) read at an entry: entry (p, c) of the joined n × t matrix, t = 16 w, is entry (p, c mod w) of piece
  number c / w.
-/
import Idealize.ShloMosaic.Lib.Pipeline.Value
import Idealize.ShloMosaic.Lib.ValueIdx

noncomputable section

namespace Cert.LibConcat16

open Idealize.ShloMosaic Idealize.ShloMosaic.ValueIdx

variable {α : Type} {n w t : Nat}

/-- The quotient of a column of the joined matrix by the pieces' width names one of the sixteen pieces. -/
theorem div_lt (ht : 16 * w = t) (c : Fin t) : c.val / w < 16 := by
  have hc := c.isLt
  rcases Nat.eq_zero_or_pos w with h0 | hw
  · subst h0; omega
  · exact Nat.div_lt_of_lt_mul (by omega)

/-- The remainder of a column of the joined matrix by the pieces' width is a column of a piece. -/
theorem mod_lt (ht : 16 * w = t) (c : Fin t) : c.val % w < w := by
  have hc := c.isLt
  rcases Nat.eq_zero_or_pos w with h0 | hw
  · subst h0; omega
  · exact Nat.mod_lt _ hw

/-- Entry (p, c) of sixteen n × w pieces joined along the columns: piece c / w at (p, c mod w). -/
theorem concat16_cols_apply (ht : 16 * w = t)
    (x0 x1 x2 x3 x4 x5 x6 x7 x8 x9 x10 x11 x12 x13 x14 x15 : (⟨2, ![n, w]⟩ : Shape).Idx → α)
    (h : Shape.Concatenates [(⟨2, ![n, w]⟩ : Shape), ⟨2, ![n, w]⟩, ⟨2, ![n, w]⟩, ⟨2, ![n, w]⟩, ⟨2, ![n, w]⟩, ⟨2, ![n, w]⟩,
      ⟨2, ![n, w]⟩, ⟨2, ![n, w]⟩, ⟨2, ![n, w]⟩, ⟨2, ![n, w]⟩, ⟨2, ![n, w]⟩, ⟨2, ![n, w]⟩, ⟨2, ![n, w]⟩, ⟨2, ![n, w]⟩,
      ⟨2, ![n, w]⟩, ⟨2, ![n, w]⟩] ⟨2, ![n, t]⟩ 1) (p : Fin n) (c : Fin t) :
    concatenate (⟨2, ![n, t]⟩ : Shape) 1 [⟨⟨2, ![n, w]⟩, x0⟩, ⟨⟨2, ![n, w]⟩, x1⟩, ⟨⟨2, ![n, w]⟩, x2⟩, ⟨⟨2, ![n, w]⟩, x3⟩,
        ⟨⟨2, ![n, w]⟩, x4⟩, ⟨⟨2, ![n, w]⟩, x5⟩, ⟨⟨2, ![n, w]⟩, x6⟩, ⟨⟨2, ![n, w]⟩, x7⟩, ⟨⟨2, ![n, w]⟩, x8⟩, ⟨⟨2, ![n, w]⟩, x9⟩,
        ⟨⟨2, ![n, w]⟩, x10⟩, ⟨⟨2, ![n, w]⟩, x11⟩, ⟨⟨2, ![n, w]⟩, x12⟩, ⟨⟨2, ![n, w]⟩, x13⟩, ⟨⟨2, ![n, w]⟩, x14⟩,
        ⟨⟨2, ![n, w]⟩, x15⟩] h (ix2 p c)
      = (![x0, x1, x2, x3, x4, x5, x6, x7, x8, x9, x10, x11, x12, x13, x14, x15] ⟨c.val / w, div_lt ht c⟩)
          (ix2 p ⟨c.val % w, mod_lt ht c⟩) := by
  exact concatenate_ofFn_apply (t := ⟨2, ![n, t]⟩) (s₁ := ⟨2, ![n, w]⟩) (1 : Fin 2) (N := 16)
    (![x0, x1, x2, x3, x4, x5, x6, x7, x8, x9, x10, x11, x12, x13, x14, x15]) h rfl w rfl (ix2 p c)
    ⟨c.val / w, div_lt ht c⟩ rfl (ix2 p ⟨c.val % w, mod_lt ht c⟩) rfl
    (fun d hd => match d, hd with
      | ⟨0, _⟩, _ => rfl
      | ⟨1, _⟩, hd => absurd rfl hd)

end Cert.LibConcat16

end
-- ==== Proof.KernRes.lean ====
/-
  The residual step read at an entry: the sixteen head outputs side by side (the last one the weights times the
  last band of the values) times Wo, added to the query:
  entry (p, e) is  Q(p, e) + Σ_c head_{c / 64}(p, c mod 64) · Wo(c, e).
-/
import proofs.«147995_j10943576670702_2_alg».proof.Proof.Spec
import proofs.«147995_j10943576670702_2_alg».proof.Proof.Body
import proofs.«147995_j10943576670702_2_alg».proof.Proof.LibDot
import proofs.«147995_j10943576670702_2_alg».proof.Proof.LibConcat16
import Idealize.ShloMosaic.Lib.ValueLayout

noncomputable section

namespace Cert.Attn.Kern

open Cert.KernelIdeal Cert.KernelIdeal.Gen Cert.KernelIdeal.Body Cert.Attn Idealize.ShloMosaic Idealize.ShloMosaic.ValueIdx

/-- The last head's output from its unnormalised weights, their row sums and its band of the values. -/
def lastHead (v265 : FVec Ideal S256x64 .bf16) (v271 : FVec Ideal S128x256 .f32) (v273 : FVec Ideal S128x1 .f32) :
    FVec Ideal S128x64 .f32 :=
  matmul dot_S128x256_S256x64_S128x64_1_0_0_1_n_n none
    (truncf .bf16 (divf v271 (broadcastTo S128x256 v273 broadcasts_S128x1_S128x256)) bitsLt_bf16_f32) v265
    (constant S128x64 .f32 0x00000000#32)

/-- The residual step at entry (p, e). -/
theorem pay33_apply (v34 : FVec Ideal S128x1024 .f32) (v52 v67 v82 v97 v112 v127 v142 v157 v172 v187 v202 v217 v232 v247 v262 : FVec Ideal S128x64 .f32)
    (v265 : FVec Ideal S256x64 .bf16) (v271 : FVec Ideal S128x256 .f32) (v273 : FVec Ideal S128x1 .f32)
    (x5 : FVec Ideal S1024x1024 .bf16) (p : Fin 128) (e : Fin 1024) :
    k0_pay33 v34 v52 v67 v82 v97 v112 v127 v142 v157 v172 v187 v202 v217 v232 v247 v262 v265 v271 v273 x5 (ix2 p e)
      = v34 (ix2 p e) + ∑ c : Fin 1024,
          (![v52, v67, v82, v97, v112, v127, v142, v157, v172, v187, v202, v217, v232, v247, v262, lastHead v265 v271 v273]
              ⟨c.val / 64, LibConcat16.div_lt (w := 64) (by norm_num) c⟩)
            (ix2 p ⟨c.val % 64, LibConcat16.mod_lt (w := 64) (by norm_num) c⟩) * x5 (ix2 c e) := by
  unfold k0_pay33
  refine congrArg (fun t => v34 (ix2 p e) + t) ?_
  refine (LibDot.matmul_zero_apply dot_S128x1024_S1024x1024_S128x1024_1_0_0_1_n_n_wf none _ _ p e).trans ?_
  refine Finset.sum_congr rfl fun c _ => ?_
  refine congrArg₂ (· * ·) ?_ (congrFun (shapeCast_self x5 shapeCasts_S1024x1024_S1024x1024) (ix2 c e))
  exact LibConcat16.concat16_cols_apply (n := 128) (w := 64) (t := 1024) (by norm_num)
    v52 v67 v82 v97 v112 v127 v142 v157 v172 v187 v202 v217 v232 v247 v262 (lastHead v265 v271 v273)
    concatenates_S128x64_S128x64_S128x64_S128x64_S128x64_S128x64_S128x64_S128x64_S128x64_S128x64_S128x64_S128x64_S128x64_S128x64_S128x64_S128x64_S128x1024_d1 p c

end Cert.Attn.Kern

end
-- ==== Proof.KernAttn.lean ====
/-
  The residual block of the body read at an entry.  The sixteen head outputs the body forms are, at (p, d), the
  spec's head outputs of the query row of p against the bands read as 256 × 1024 matrices; side by side and
  times Wo, added to the query, they give the spec's residual row.
-/
import proofs.«147995_j10943576670702_2_alg».proof.Proof.KernOps
import proofs.«147995_j10943576670702_2_alg».proof.Proof.KernHeadRow
import proofs.«147995_j10943576670702_2_alg».proof.Proof.KernRes

noncomputable section

namespace Cert.Attn.Kern

open Cert.KernelIdeal Cert.KernelIdeal.Gen Cert.KernelIdeal.Body Cert.Attn Idealize.ShloMosaic Idealize.ShloMosaic.ValueIdx

section
variable (x1 : FVec Ideal S1x128x512 .f32) (x2 : FVec Ideal S512x1024 .bf16) (x5 : FVec Ideal S1024x1024 .bf16)
  (x8 x9 : FVec Ideal S512 .f32) (kt : Fin 16 → FVec Ideal S64x256 .bf16) (vv : Fin 16 → FVec Ideal S256x64 .bf16)

/-- The sixteen head outputs as the body forms them, the last from its unnormalised weights. -/
def headsVec : Fin 16 → FVec Ideal S128x64 .f32 :=
  ![k0_pay9 (k0_pay8 (F := Ideal) x1 x8 x9 x2) (kt 0) (vv 0),
    k0_pay10 (k0_pay7 (F := Ideal) x1 x8 x9 x2) (kt 1) (vv 1),
    k0_pay13 (vv 2) (k0_pay11 (k0_pay7 (F := Ideal) x1 x8 x9 x2) (kt 2)) (k0_pay12 (k0_pay7 (F := Ideal) x1 x8 x9 x2) (kt 2)),
    k0_pay14 (k0_pay7 (F := Ideal) x1 x8 x9 x2) (kt 3) (vv 3),
    k0_pay15 (k0_pay7 (F := Ideal) x1 x8 x9 x2) (kt 4) (vv 4),
    k0_pay17 (k0_pay16 (k0_pay7 (F := Ideal) x1 x8 x9 x2)) (kt 5) (vv 5) (constant S128x256 .f32 0x00000000#32),
    k0_pay18 (k0_pay7 (F := Ideal) x1 x8 x9 x2) (kt 6) (vv 6),
    k0_pay20 (vv 7) (k0_pay19 (k0_pay7 (F := Ideal) x1 x8 x9 x2) (kt 7)) (constant S128x64 .f32 0x00000000#32),
    k0_pay21 (k0_pay7 (F := Ideal) x1 x8 x9 x2) (kt 8) (vv 8),
    k0_pay22 (k0_pay7 (F := Ideal) x1 x8 x9 x2) (kt 9) (vv 9),
    k0_pay25 (vv 10) (k0_pay23 (k0_pay7 (F := Ideal) x1 x8 x9 x2) (kt 10)) (k0_pay24 (k0_pay7 (F := Ideal) x1 x8 x9 x2) (kt 10)),
    k0_pay26 (k0_pay7 (F := Ideal) x1 x8 x9 x2) (kt 11) (vv 11),
    k0_pay27 (k0_pay7 (F := Ideal) x1 x8 x9 x2) (kt 12) (vv 12),
    k0_pay29 (k0_pay28 (k0_pay7 (F := Ideal) x1 x8 x9 x2)) (kt 13) (vv 13),
    k0_pay30 (k0_pay7 (F := Ideal) x1 x8 x9 x2) (kt 14) (vv 14),
    lastHead (vv 15) (k0_pay31 (k0_pay7 (F := Ideal) x1 x8 x9 x2) (kt 15)) (k0_pay32 (k0_pay7 (F := Ideal) x1 x8 x9 x2) (kt 15))]

/-- The residual block as the body forms it. -/
def resBlock : FVec Ideal S128x1024 .f32 :=
  k0_pay33 (k0_pay6 (F := Ideal) x1 x8 x9 x2)
    (k0_pay9 (k0_pay8 (F := Ideal) x1 x8 x9 x2) (kt 0) (vv 0))
    (k0_pay10 (k0_pay7 (F := Ideal) x1 x8 x9 x2) (kt 1) (vv 1))
    (k0_pay13 (vv 2) (k0_pay11 (k0_pay7 (F := Ideal) x1 x8 x9 x2) (kt 2)) (k0_pay12 (k0_pay7 (F := Ideal) x1 x8 x9 x2) (kt 2)))
    (k0_pay14 (k0_pay7 (F := Ideal) x1 x8 x9 x2) (kt 3) (vv 3))
    (k0_pay15 (k0_pay7 (F := Ideal) x1 x8 x9 x2) (kt 4) (vv 4))
    (k0_pay17 (k0_pay16 (k0_pay7 (F := Ideal) x1 x8 x9 x2)) (kt 5) (vv 5) (constant S128x256 .f32 0x00000000#32))
    (k0_pay18 (k0_pay7 (F := Ideal) x1 x8 x9 x2) (kt 6) (vv 6))
    (k0_pay20 (vv 7) (k0_pay19 (k0_pay7 (F := Ideal) x1 x8 x9 x2) (kt 7)) (constant S128x64 .f32 0x00000000#32))
    (k0_pay21 (k0_pay7 (F := Ideal) x1 x8 x9 x2) (kt 8) (vv 8))
    (k0_pay22 (k0_pay7 (F := Ideal) x1 x8 x9 x2) (kt 9) (vv 9))
    (k0_pay25 (vv 10) (k0_pay23 (k0_pay7 (F := Ideal) x1 x8 x9 x2) (kt 10)) (k0_pay24 (k0_pay7 (F := Ideal) x1 x8 x9 x2) (kt 10)))
    (k0_pay26 (k0_pay7 (F := Ideal) x1 x8 x9 x2) (kt 11) (vv 11))
    (k0_pay27 (k0_pay7 (F := Ideal) x1 x8 x9 x2) (kt 12) (vv 12))
    (k0_pay29 (k0_pay28 (k0_pay7 (F := Ideal) x1 x8 x9 x2)) (kt 13) (vv 13))
    (k0_pay30 (k0_pay7 (F := Ideal) x1 x8 x9 x2) (kt 14) (vv 14))
    (vv 15) (k0_pay31 (k0_pay7 (F := Ideal) x1 x8 x9 x2) (kt 15)) (k0_pay32 (k0_pay7 (F := Ideal) x1 x8 x9 x2) (kt 15)) x5

/-- Head h of the body at (p, d) is the spec's head output. -/
theorem headsVec_apply (p : Fin 128) (h : Fin 16) (d : Fin 64) :
    headsVec x1 x2 x8 x9 kt vv h (ix2 p d)
      = headOut (queryRow x2 x8 x9 (fun d => x1 (ix3 0 p d))) (bandK kt) (bandV vv) h d := by
  have H : ∀ (i : Fin 16) (o : ℕ) (ho : o = 64 * i.val) (hs : (S128x1024).Slices ![0, o] S128x64),
      headVec (qslice o (k0_pay7 (F := Ideal) x1 x8 x9 x2) hs) (kt i) (vv i) (ix2 p d)
        = headOut (queryRow x2 x8 x9 (fun d => x1 (ix3 0 p d))) (bandK kt) (bandV vv) i d :=
    fun i o ho hs => head_row (k0_pay7 (F := Ideal) x1 x8 x9 x2) _ p (fun e => pay7_apply x1 x8 x9 x2 p e) kt vv i o ho hs d
  match h with
  | ⟨0, _⟩ => exact (congrFun (head_eq_0 x1 x8 x9 x2 (kt 0) (vv 0)) (ix2 p d)).trans (H 0 0 rfl _)
  | ⟨1, _⟩ => exact (congrFun (head_eq_1 (k0_pay7 (F := Ideal) x1 x8 x9 x2) (kt 1) (vv 1)) (ix2 p d)).trans (H 1 64 rfl _)
  | ⟨2, _⟩ => exact (congrFun (head_eq_2 (k0_pay7 (F := Ideal) x1 x8 x9 x2) (kt 2) (vv 2)) (ix2 p d)).trans (H 2 128 rfl _)
  | ⟨3, _⟩ => exact (congrFun (head_eq_3 (k0_pay7 (F := Ideal) x1 x8 x9 x2) (kt 3) (vv 3)) (ix2 p d)).trans (H 3 192 rfl _)
  | ⟨4, _⟩ => exact (congrFun (head_eq_4 (k0_pay7 (F := Ideal) x1 x8 x9 x2) (kt 4) (vv 4)) (ix2 p d)).trans (H 4 256 rfl _)
  | ⟨5, _⟩ => exact (congrFun (head_eq_5 (k0_pay7 (F := Ideal) x1 x8 x9 x2) (kt 5) (vv 5)) (ix2 p d)).trans (H 5 320 rfl _)
  | ⟨6, _⟩ => exact (congrFun (head_eq_6 (k0_pay7 (F := Ideal) x1 x8 x9 x2) (kt 6) (vv 6)) (ix2 p d)).trans (H 6 384 rfl _)
  | ⟨7, _⟩ => exact (congrFun (head_eq_7 (k0_pay7 (F := Ideal) x1 x8 x9 x2) (kt 7) (vv 7)) (ix2 p d)).trans (H 7 448 rfl _)
  | ⟨8, _⟩ => exact (congrFun (head_eq_8 (k0_pay7 (F := Ideal) x1 x8 x9 x2) (kt 8) (vv 8)) (ix2 p d)).trans (H 8 512 rfl _)
  | ⟨9, _⟩ => exact (congrFun (head_eq_9 (k0_pay7 (F := Ideal) x1 x8 x9 x2) (kt 9) (vv 9)) (ix2 p d)).trans (H 9 576 rfl _)
  | ⟨10, _⟩ => exact (congrFun (head_eq_10 (k0_pay7 (F := Ideal) x1 x8 x9 x2) (kt 10) (vv 10)) (ix2 p d)).trans (H 10 640 rfl _)
  | ⟨11, _⟩ => exact (congrFun (head_eq_11 (k0_pay7 (F := Ideal) x1 x8 x9 x2) (kt 11) (vv 11)) (ix2 p d)).trans (H 11 704 rfl _)
  | ⟨12, _⟩ => exact (congrFun (head_eq_12 (k0_pay7 (F := Ideal) x1 x8 x9 x2) (kt 12) (vv 12)) (ix2 p d)).trans (H 12 768 rfl _)
  | ⟨13, _⟩ => exact (congrFun (head_eq_13 (k0_pay7 (F := Ideal) x1 x8 x9 x2) (kt 13) (vv 13)) (ix2 p d)).trans (H 13 832 rfl _)
  | ⟨14, _⟩ => exact (congrFun (head_eq_14 (k0_pay7 (F := Ideal) x1 x8 x9 x2) (kt 14) (vv 14)) (ix2 p d)).trans (H 14 896 rfl _)
  | ⟨15, _⟩ => exact (congrFun (head_eq_15 (k0_pay7 (F := Ideal) x1 x8 x9 x2) (kt 15) (vv 15)) (ix2 p d)).trans (H 15 960 rfl _)
  | ⟨n + 16, hn⟩ => exact absurd hn (by omega)

/-- The residual block at (p, e) is the spec's residual row of the query row p. -/
theorem resBlock_apply (p : Fin 128) (e : Fin 1024) :
    resBlock x1 x2 x5 x8 x9 kt vv (ix2 p e)
      = resRow x2 x5 x8 x9 (fun d => x1 (ix3 0 p d)) (bandK kt) (bandV vv) e := by
  unfold resBlock resRow rowMat attnRow
  refine (pay33_apply _ _ _ _ _ _ _ _ _ _ _ _ _ _ _ _ _ _ _ x5 p e).trans ?_
  refine congrArg₂ (· + ·) (pay6_apply x1 x8 x9 x2 p e) (Finset.sum_congr rfl fun c _ => ?_)
  refine congrArg₂ (· * ·) ?_ rfl
  exact headsVec_apply x1 x2 x8 x9 kt vv p ⟨c.val / 64, _⟩ ⟨c.val % 64, _⟩

end

end Cert.Attn.Kern

end
-- ==== Proof.KernPay1.lean ====
/-
  The last step of the block read at an entry: from the residual x, the hidden layer u and its square s, entry
  (0, p, e) is  x(p, e) + (Σ_j g(p, j) · W2(j, e) + b2(e))  with
  g = u · (½ · (1 + tanh(c₂ · (u + c₁ · (u · s))))),  the tanh form of gelu once s = u · u.
-/
import proofs.«147995_j10943576670702_2_alg».proof.Proof.Spec
import proofs.«147995_j10943576670702_2_alg».proof.Proof.Body
import proofs.«147995_j10943576670702_2_alg».proof.Proof.LibDot
import Idealize.ShloMosaic.Lib.ValueLayout

noncomputable section

namespace Cert.Attn.Kern

open Cert.KernelIdeal Cert.KernelIdeal.Gen Cert.KernelIdeal.Body Cert.Attn Idealize.ShloMosaic Idealize.ShloMosaic.ValueIdx

/-- A length-n vector laid as one row and repeated over a rows, read at (p, c): its entry c. -/
theorem biasRow_apply {a n : ℕ} (x : FVec Ideal ⟨1, ![n]⟩ .f32) (hc : (⟨1, ![n]⟩ : Shape).ShapeCasts ⟨2, ![1, n]⟩)
    (hb : (⟨2, ![1, n]⟩ : Shape).Broadcasts ⟨2, ![a, n]⟩) (p : Fin a) (c : Fin n) :
    broadcastTo ⟨2, ![a, n]⟩ (shapeCast ⟨2, ![1, n]⟩ x hc) hb (ix2 p c) = x (ix1 c) :=
  (broadcastTo_1b_ab_apply _ hb p c).trans (shapeCast_a_1a_apply x hc 0 c)

/-- The last step at entry (0, p, e). -/
theorem pay1_apply (v283 : FVec Ideal S128x1024 .f32) (v317 v318 : FVec Ideal S128x4096 .f32)
    (x14 : FVec Ideal S4096x1024 .bf16) (x15 : FVec Ideal S1024 .f32) (p : Fin 128) (e : Fin 1024) :
    k0_pay1 v283 v317 v318 x14 x15 (ix3 0 p e)
      = v283 (ix2 p e) + (∑ j : Fin 4096,
          (v317 (ix2 p j) * (Ideal.ofBits .f32 0x3F000000#32 * (Ideal.ofBits .f32 0x3F800000#32
            + Ideal.tanh (Ideal.ofBits .f32 0x3F4C422A#32 * (v317 (ix2 p j)
              + Ideal.ofBits .f32 0x3D372713#32 * (v317 (ix2 p j) * v318 (ix2 p j))))))) * x14 (ix2 j e)
          + x15 (ix1 e)) := by
  unfold k0_pay1
  refine (shapeCast_ab_1ab_apply _ shapeCasts_S128x1024_S1x128x1024 0 p e).trans ?_
  refine congrArg (fun t => v283 (ix2 p e) + t) ?_
  refine congrArg₂ (· + ·) ?_ (biasRow_apply x15 shapeCasts_S1024_S1x1024 broadcasts_S1x1024_S128x1024 p e)
  refine (LibDot.matmul_zero_apply dot_S128x4096_S4096x1024_S128x1024_1_0_0_1_n_n_wf none _ _ p e).trans ?_
  refine Finset.sum_congr rfl fun j _ => ?_
  refine congrArg₂ (· * ·) rfl ?_
  exact congrFun (shapeCast_self x14 shapeCasts_S4096x1024_S4096x1024) (ix2 j e)

end Cert.Attn.Kern

end
-- ==== Proof.KernHid.lean ====
/-
  The hidden layer read at an entry: the layer norm of the residual's row p (count 1024) times W1, plus b1:
  entry (p, j) is  Σ_d LN(x_p)(d) · W1(d, j) + b1(j),  x_p the row p of the residual block.  Its square,
  the third operand of the last step, is entrywise the product of the hidden layer with itself.
-/
import proofs.«147995_j10943576670702_2_alg».proof.Proof.Spec
import proofs.«147995_j10943576670702_2_alg».proof.Proof.Body
import proofs.«147995_j10943576670702_2_alg».proof.Proof.LibDot
import proofs.«147995_j10943576670702_2_alg».proof.Proof.KernLN
import proofs.«147995_j10943576670702_2_alg».proof.Proof.KernPay1
import Idealize.ShloMosaic.Lib.ValueLayout

noncomputable section

namespace Cert.Attn.Kern

open Cert.KernelIdeal Cert.KernelIdeal.Gen Cert.KernelIdeal.Body Cert.Attn Idealize.ShloMosaic Idealize.ShloMosaic.ValueIdx

/-- The hidden layer at entry (p, j), from the residual block. -/
theorem pay34_apply (v34 : FVec Ideal S128x1024 .f32) (v52 v67 v82 v97 v112 v127 v142 v157 v172 v187 v202 v217 v232 v247 v262 : FVec Ideal S128x64 .f32)
    (v265 : FVec Ideal S256x64 .bf16) (v271 : FVec Ideal S128x256 .f32) (v273 : FVec Ideal S128x1 .f32)
    (x5 : FVec Ideal S1024x1024 .bf16) (x10 x11 : FVec Ideal S1024 .f32) (x12 : FVec Ideal S1024x4096 .bf16)
    (x13 : FVec Ideal S4096 .f32) (p : Fin 128) (j : Fin 4096) :
    k0_pay34 v34 v52 v67 v82 v97 v112 v127 v142 v157 v172 v187 v202 v217 v232 v247 v262 v265 v271 v273 x5 x10 x11 x12 x13 (ix2 p j)
      = hidRow x10 x11 x12 x13 (fun k => k0_pay33 v34 v52 v67 v82 v97 v112 v127 v142 v157 v172 v187 v202 v217 v232 v247 v262 v265 v271 v273 x5 (ix2 p k)) j := by
  unfold k0_pay34 hidRow rowMat
  refine congrArg₂ (· + ·) ?_ (biasRow_apply x13 shapeCasts_S4096_S1x4096 broadcasts_S1x4096_S128x4096 p j)
  refine (LibDot.matmul_zero_apply dot_S128x1024_S1024x4096_S128x4096_1_0_0_1_n_n_wf none _ _ p j).trans ?_
  refine Finset.sum_congr rfl fun d _ => ?_
  refine congrArg₂ (· * ·) ?_ (congrFun (shapeCast_self x12 shapeCasts_S1024x4096_S1024x4096) (ix2 d j))
  exact kernLN_apply 0x44800000#32 (k0_pay33 v34 v52 v67 v82 v97 v112 v127 v142 v157 v172 v187 v202 v217 v232 v247 v262 v265 v271 v273 x5) x10 x11 reduces_S128x1024_S128 (.inl rfl) rfl
    shapeCasts_S128_S128x1 broadcasts_S128x1_S128x1024 shapeCasts_S1024_S1x1024 broadcasts_S1x1024_S128x1024 p d

/-- The hidden layer's square at entry (p, j). -/
theorem pay35_apply (v34 : FVec Ideal S128x1024 .f32) (v52 v67 v82 v97 v112 v127 v142 v157 v172 v187 v202 v217 v232 v247 v262 : FVec Ideal S128x64 .f32)
    (v265 : FVec Ideal S256x64 .bf16) (v271 : FVec Ideal S128x256 .f32) (v273 : FVec Ideal S128x1 .f32)
    (x5 : FVec Ideal S1024x1024 .bf16) (x10 x11 : FVec Ideal S1024 .f32) (x12 : FVec Ideal S1024x4096 .bf16)
    (x13 : FVec Ideal S4096 .f32) (p : Fin 128) (j : Fin 4096) :
    k0_pay35 v34 v52 v67 v82 v97 v112 v127 v142 v157 v172 v187 v202 v217 v232 v247 v262 v265 v271 v273 x5 x10 x11 x12 x13 (ix2 p j)
      = k0_pay34 v34 v52 v67 v82 v97 v112 v127 v142 v157 v172 v187 v202 v217 v232 v247 v262 v265 v271 v273 x5 x10 x11 x12 x13 (ix2 p j) * k0_pay34 v34 v52 v67 v82 v97 v112 v127 v142 v157 v172 v187 v202 v217 v232 v247 v262 v265 v271 v273 x5 x10 x11 x12 x13 (ix2 p j) := rfl

end Cert.Attn.Kern

end
-- ==== Proof.KernTail.lean ====
/-
  The whole block's value read at an entry: entry (0, p, e) of the body's result is the spec's output row of
  the query row p against the bands of the transposed keys and of the values read as 256 × 1024 matrices —
  the residual row, then  x + (gelu(LN(x) · W1 + b1) · W2 + b2).
-/
import proofs.«147995_j10943576670702_2_alg».proof.Proof.KernAttn
import proofs.«147995_j10943576670702_2_alg».proof.Proof.KernHid
import proofs.«147995_j10943576670702_2_alg».proof.Proof.KernPay1

noncomputable section

namespace Cert.Attn.Kern

open Cert.KernelIdeal Cert.KernelIdeal.Gen Cert.KernelIdeal.Body Cert.Attn Idealize.ShloMosaic Idealize.ShloMosaic.ValueIdx

section
variable (x1 : FVec Ideal S1x128x512 .f32) (x2 : FVec Ideal S512x1024 .bf16) (x5 : FVec Ideal S1024x1024 .bf16)
  (x8 x9 : FVec Ideal S512 .f32) (x10 x11 : FVec Ideal S1024 .f32) (x12 : FVec Ideal S1024x4096 .bf16)
  (x13 : FVec Ideal S4096 .f32) (x14 : FVec Ideal S4096x1024 .bf16) (x15 : FVec Ideal S1024 .f32)
  (kt : Fin 16 → FVec Ideal S64x256 .bf16) (vv : Fin 16 → FVec Ideal S256x64 .bf16)

/-- The hidden layer's block as the body forms it. -/
def hidBlock : FVec Ideal S128x4096 .f32 :=
  k0_pay34 (k0_pay6 (F := Ideal) x1 x8 x9 x2)
    (k0_pay9 (k0_pay8 (F := Ideal) x1 x8 x9 x2) (kt 0) (vv 0))
    (k0_pay10 (k0_pay7 (F := Ideal) x1 x8 x9 x2) (kt 1) (vv 1))
    (k0_pay13 (vv 2) (k0_pay11 (k0_pay7 (F := Ideal) x1 x8 x9 x2) (kt 2)) (k0_pay12 (k0_pay7 (F := Ideal) x1 x8 x9 x2) (kt 2)))
    (k0_pay14 (k0_pay7 (F := Ideal) x1 x8 x9 x2) (kt 3) (vv 3))
    (k0_pay15 (k0_pay7 (F := Ideal) x1 x8 x9 x2) (kt 4) (vv 4))
    (k0_pay17 (k0_pay16 (k0_pay7 (F := Ideal) x1 x8 x9 x2)) (kt 5) (vv 5) (constant S128x256 .f32 0x00000000#32))
    (k0_pay18 (k0_pay7 (F := Ideal) x1 x8 x9 x2) (kt 6) (vv 6))
    (k0_pay20 (vv 7) (k0_pay19 (k0_pay7 (F := Ideal) x1 x8 x9 x2) (kt 7)) (constant S128x64 .f32 0x00000000#32))
    (k0_pay21 (k0_pay7 (F := Ideal) x1 x8 x9 x2) (kt 8) (vv 8))
    (k0_pay22 (k0_pay7 (F := Ideal) x1 x8 x9 x2) (kt 9) (vv 9))
    (k0_pay25 (vv 10) (k0_pay23 (k0_pay7 (F := Ideal) x1 x8 x9 x2) (kt 10)) (k0_pay24 (k0_pay7 (F := Ideal) x1 x8 x9 x2) (kt 10)))
    (k0_pay26 (k0_pay7 (F := Ideal) x1 x8 x9 x2) (kt 11) (vv 11))
    (k0_pay27 (k0_pay7 (F := Ideal) x1 x8 x9 x2) (kt 12) (vv 12))
    (k0_pay29 (k0_pay28 (k0_pay7 (F := Ideal) x1 x8 x9 x2)) (kt 13) (vv 13))
    (k0_pay30 (k0_pay7 (F := Ideal) x1 x8 x9 x2) (kt 14) (vv 14))
    (vv 15) (k0_pay31 (k0_pay7 (F := Ideal) x1 x8 x9 x2) (kt 15)) (k0_pay32 (k0_pay7 (F := Ideal) x1 x8 x9 x2) (kt 15)) x5 x10 x11 x12 x13

/-- The block of the hidden layer's squares as the body forms it. -/
def sqBlock : FVec Ideal S128x4096 .f32 :=
  k0_pay35 (k0_pay6 (F := Ideal) x1 x8 x9 x2)
    (k0_pay9 (k0_pay8 (F := Ideal) x1 x8 x9 x2) (kt 0) (vv 0))
    (k0_pay10 (k0_pay7 (F := Ideal) x1 x8 x9 x2) (kt 1) (vv 1))
    (k0_pay13 (vv 2) (k0_pay11 (k0_pay7 (F := Ideal) x1 x8 x9 x2) (kt 2)) (k0_pay12 (k0_pay7 (F := Ideal) x1 x8 x9 x2) (kt 2)))
    (k0_pay14 (k0_pay7 (F := Ideal) x1 x8 x9 x2) (kt 3) (vv 3))
    (k0_pay15 (k0_pay7 (F := Ideal) x1 x8 x9 x2) (kt 4) (vv 4))
    (k0_pay17 (k0_pay16 (k0_pay7 (F := Ideal) x1 x8 x9 x2)) (kt 5) (vv 5) (constant S128x256 .f32 0x00000000#32))
    (k0_pay18 (k0_pay7 (F := Ideal) x1 x8 x9 x2) (kt 6) (vv 6))
    (k0_pay20 (vv 7) (k0_pay19 (k0_pay7 (F := Ideal) x1 x8 x9 x2) (kt 7)) (constant S128x64 .f32 0x00000000#32))
    (k0_pay21 (k0_pay7 (F := Ideal) x1 x8 x9 x2) (kt 8) (vv 8))
    (k0_pay22 (k0_pay7 (F := Ideal) x1 x8 x9 x2) (kt 9) (vv 9))
    (k0_pay25 (vv 10) (k0_pay23 (k0_pay7 (F := Ideal) x1 x8 x9 x2) (kt 10)) (k0_pay24 (k0_pay7 (F := Ideal) x1 x8 x9 x2) (kt 10)))
    (k0_pay26 (k0_pay7 (F := Ideal) x1 x8 x9 x2) (kt 11) (vv 11))
    (k0_pay27 (k0_pay7 (F := Ideal) x1 x8 x9 x2) (kt 12) (vv 12))
    (k0_pay29 (k0_pay28 (k0_pay7 (F := Ideal) x1 x8 x9 x2)) (kt 13) (vv 13))
    (k0_pay30 (k0_pay7 (F := Ideal) x1 x8 x9 x2) (kt 14) (vv 14))
    (vv 15) (k0_pay31 (k0_pay7 (F := Ideal) x1 x8 x9 x2) (kt 15)) (k0_pay32 (k0_pay7 (F := Ideal) x1 x8 x9 x2) (kt 15)) x5 x10 x11 x12 x13

/-- The body is the last step on the residual block, the hidden layer's block and its squares. -/
theorem body_eq :
    body (F := Ideal) x1 x2 x5 x8 x9 x10 x11 x12 x13 x14 x15 kt vv
      = k0_pay1 (resBlock x1 x2 x5 x8 x9 kt vv) (hidBlock x1 x2 x5 x8 x9 x10 x11 x12 x13 kt vv)
          (sqBlock x1 x2 x5 x8 x9 x10 x11 x12 x13 kt vv) x14 x15 := rfl

/-- The hidden layer's block at (p, j) is the spec's hidden row of the residual block's row p. -/
theorem hidBlock_apply (p : Fin 128) (j : Fin 4096) :
    hidBlock x1 x2 x5 x8 x9 x10 x11 x12 x13 kt vv (ix2 p j)
      = hidRow x10 x11 x12 x13 (fun k => resBlock x1 x2 x5 x8 x9 kt vv (ix2 p k)) j :=
  pay34_apply _ _ _ _ _ _ _ _ _ _ _ _ _ _ _ _ _ _ _ x5 x10 x11 x12 x13 p j

/-- The squares' block at (p, j) is the hidden layer's entry times itself. -/
theorem sqBlock_apply (p : Fin 128) (j : Fin 4096) :
    sqBlock x1 x2 x5 x8 x9 x10 x11 x12 x13 kt vv (ix2 p j)
      = hidBlock x1 x2 x5 x8 x9 x10 x11 x12 x13 kt vv (ix2 p j) * hidBlock x1 x2 x5 x8 x9 x10 x11 x12 x13 kt vv (ix2 p j) :=
  rfl

end

/-- Entry (0, p, e) of the block's result is the spec's output row of query row p at e. -/
theorem body_apply (x1 : FVec Ideal S1x128x512 .f32) (x2 : FVec Ideal S512x1024 .bf16) (x5 : FVec Ideal S1024x1024 .bf16)
    (x8 x9 : FVec Ideal S512 .f32) (x10 x11 : FVec Ideal S1024 .f32) (x12 : FVec Ideal S1024x4096 .bf16)
    (x13 : FVec Ideal S4096 .f32) (x14 : FVec Ideal S4096x1024 .bf16) (x15 : FVec Ideal S1024 .f32)
    (kt : Fin 16 → FVec Ideal S64x256 .bf16) (vv : Fin 16 → FVec Ideal S256x64 .bf16) (p : Fin 128) (e : Fin 1024) :
    body (F := Ideal) x1 x2 x5 x8 x9 x10 x11 x12 x13 x14 x15 kt vv (ix3 0 p e)
      = outRow x2 x5 x8 x9 x10 x11 x12 x13 x14 x15 (fun d => x1 (ix3 0 p d))
          (fun m k => kt ⟨k.val / 64, by have := k.isLt; omega⟩ (ix2 ⟨k.val % 64, Nat.mod_lt _ (by norm_num)⟩ m))
          (fun m k => vv ⟨k.val / 64, by have := k.isLt; omega⟩ (ix2 m ⟨k.val % 64, Nat.mod_lt _ (by norm_num)⟩)) e := by
  show body (F := Ideal) x1 x2 x5 x8 x9 x10 x11 x12 x13 x14 x15 kt vv (ix3 0 p e)
      = outRow x2 x5 x8 x9 x10 x11 x12 x13 x14 x15 (fun d => x1 (ix3 0 p d)) (bandK kt) (bandV vv) e
  have hx : (fun k => resBlock x1 x2 x5 x8 x9 kt vv (ix2 p k))
      = resRow x2 x5 x8 x9 (fun d => x1 (ix3 0 p d)) (bandK kt) (bandV vv) :=
    funext fun k => resBlock_apply x1 x2 x5 x8 x9 kt vv p k
  have hu : ∀ j : Fin 4096, hidBlock x1 x2 x5 x8 x9 x10 x11 x12 x13 kt vv (ix2 p j)
      = hidRow x10 x11 x12 x13 (resRow x2 x5 x8 x9 (fun d => x1 (ix3 0 p d)) (bandK kt) (bandV vv)) j :=
    fun j => (hidBlock_apply x1 x2 x5 x8 x9 x10 x11 x12 x13 kt vv p j).trans
      (congrArg (fun r => hidRow x10 x11 x12 x13 r j) hx)
  rw [body_eq]
  refine (pay1_apply _ _ _ x14 x15 p e).trans ?_
  unfold outRow mlpRow rowMat
  refine congrArg₂ (· + ·) (resBlock_apply x1 x2 x5 x8 x9 kt vv p e) ?_
  refine congrArg₂ (· + ·) (Finset.sum_congr rfl fun j _ => congrArg₂ (· * ·) ?_ rfl) rfl
  rw [sqBlock_apply, hu j]
  rfl

end Cert.Attn.Kern

end
-- ==== Proof.KIsG.lean ====
/-
  At the extended reals the kernel's result array is the specification's function of the arrays the
  region finds: entry (b, l, e) is the output row of query row l of batch b, whose keys and values are
  read out of the bands — row 64 h + d of the transposed keys is key column 64 h + d.
-/
import proofs.«147995_j10943576670702_2_alg».proof.Proof.Final
import proofs.«147995_j10943576670702_2_alg».proof.Proof.Bands
import proofs.«147995_j10943576670702_2_alg».proof.Proof.KernOps
import proofs.«147995_j10943576670702_2_alg».proof.Proof.KernTail

set_option maxRecDepth 16384

noncomputable section

namespace Cert.KernelIdeal.Final

open Cert.KernelIdeal Cert.KernelIdeal.Gen Cert.KernelIdeal.Body Cert.KernelIdeal.Pieces Cert.KernelIdeal.Blocks Cert.KernelIdeal.Points
open Cert.Attn
open Idealize.ShloMosaic Idealize.ShloMosaic.TcCoe Idealize.SL.Sem Idealize.ShloMosaic.ValueIdx

variable (m : (ℓ : Loc nD τ sig) → Buf (Elt Ideal) ℓ)

/-- The keys read out of the bands of batch `b`'s transposed keys are the specification's keys. -/
theorem keys_of_bands (c : Dev nD) (b : Fin 16) :
    (fun (mm : Fin 256) (k : Fin 1024) => bandK (KT m c b) ⟨k.val / 64, by have := k.isLt; omega⟩ (ix2 ⟨k.val % 64, Nat.mod_lt _ (by norm_num)⟩ mm))
      = keys (V m c main_v1) (V m c main_v3) (V m c main_arg6) (V m c main_arg7) b := by
  funext mm k
  rw [bandK_apply (KT m c b) _ _ mm k (by dsimp only; omega)]
  unfold KT
  rw [Cert.Attn.Kern.keysT_apply]
  rfl

/-- … and likewise the values. -/
theorem vals_of_bands (c : Dev nD) (b : Fin 16) :
    (fun (mm : Fin 256) (k : Fin 1024) => bandV (VV m c b) ⟨k.val / 64, by have := k.isLt; omega⟩ (ix2 mm ⟨k.val % 64, Nat.mod_lt _ (by norm_num)⟩))
      = vals (V m c main_v1) (V m c main_v4) b := by
  funext mm k
  rw [bandV_apply (VV m c b) _ mm _ k (by dsimp only; omega)]
  unfold VV
  rw [Cert.Attn.Kern.valsV_apply]
  rfl

/-- The kernel's result array is `G` of the arrays the region finds. -/
theorem KG_eq_G (c : Dev nD) : KG m c = G (V m c main_v1) (V m c main_arg1) (V m c main_v2) (V m c main_v3) (V m c main_v4) (V m c main_v5) (V m c main_arg6) (V m c main_arg7) (V m c main_arg8) (V m c main_arg9) (V m c main_arg10) (V m c main_arg11) (V m c main_v6) (V m c main_arg13) (V m c main_v7) (V m c main_arg15) := by
  funext i
  obtain ⟨b, l, e, rfl⟩ : ∃ (b : Fin 16) (l : Fin 1024) (e : Fin 1024), i = ix3 b l e := ⟨i 0, i 1, i 2, eq_ix3 i⟩
  unfold KG G
  refine (Cert.Attn.Kern.body_apply _ _ _ _ _ _ _ _ _ _ _ _ _ ⟨l.val % 128, Nat.mod_lt _ (by norm_num)⟩ e).trans ?_
  have hq : (fun d : Fin 512 => qrows m c b ⟨l.val / 128, by have := l.isLt; omega⟩ (ix3 0 ⟨l.val % 128, Nat.mod_lt _ (by norm_num)⟩ d))
      = fun d => V m c main_arg1 (ix3 b l d) := by
    funext d
    unfold qrows
    refine congrArg (V m c main_arg1) (funext fun a => Fin.ext ?_)
    match a with
    | ⟨0, _⟩ => rfl
    | ⟨1, _⟩ => show 128 * (l.val / 128) + l.val % 128 = l.val; omega
    | ⟨2, _⟩ => rfl
  show outRow _ _ _ _ _ _ _ _ _ _ (fun d : Fin 512 => qrows m c b ⟨l.val / 128, _⟩ (ix3 0 ⟨l.val % 128, _⟩ d))
      (fun (mm : Fin 256) (k : Fin 1024) => bandK (KT m c b) ⟨k.val / 64, _⟩ (ix2 ⟨k.val % 64, _⟩ mm))
      (fun (mm : Fin 256) (k : Fin 1024) => bandV (VV m c b) ⟨k.val / 64, _⟩ (ix2 mm ⟨k.val % 64, _⟩)) e = _
  rw [hq, keys_of_bands, vals_of_bands]

end Cert.KernelIdeal.Final

end
-- ==== Proof.KResult.lean ====
/-
  The kernel's result array as a function of the launch memory: the host's operations before the region
  are the grid's reshape and changes of float format, which are the identity on the extended reals.
-/
import proofs.«147995_j10943576670702_2_alg».proof.Proof.KIsG

set_option maxRecDepth 16384

noncomputable section

namespace Cert.KernelIdeal.Final

open Cert.KernelIdeal Cert.KernelIdeal.Gen Cert.KernelIdeal.Blocks Cert.Attn
open Idealize.ShloMosaic Idealize.ShloMosaic.TcCoe Idealize.SL.Sem Idealize.ShloMosaic.ValueIdx

variable (m : (ℓ : Loc nD τ sig) → Buf (Elt Ideal) ℓ) (ρ : Dev nD → PrngReg)

/-- The result as a function of the argument arrays at launch. -/
def result (c : Dev nD) : S16x1024x1024.Idx → EReal :=
  G (shapeCast S16x256x1024 (m ((c : Thread nD τ).loc main_arg0)) shapeCasts_S16x16x16x1024_S16x256x1024)
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

theorem KG_eq_result (c : Dev nD) : KG m c = result m c := by
  rw [KG_eq_G, V_v1, V_v2, V_v3, V_v4, V_v5, V_v6, V_v7, V_main_arg1, V_main_arg6, V_main_arg7, V_main_arg8, V_main_arg9,
    V_main_arg10, V_main_arg11, V_main_arg13, V_main_arg15]
  rfl

/-- The kernel's run at the extended reals: the result array at `result`, the arguments unchanged. -/
theorem run_result : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (KG_eq_result m c), (h c).2⟩) (run m ρ)

end Cert.KernelIdeal.Final

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.LibDot3.lean ====
/-
  A three-axis array times a matrix, read at an index, at the ideal values: for the dimension numbers
  "contract the left operand's axis 2 with the right operand's axis 0, keep the left operand's axes 0 and 1 and the
  right operand's axis 1, no batch axis" — the record `x @ W` of an `[a, b, k]` array and a `[k, n]` matrix prints,
  whatever its name — the host's `dot_general` is, at (i, j, e), the sum over c of A (i, j, c) * B (c, e).
-/
import Idealize.ShloMosaic.Lib.ValueIdx
import Idealize.ShloMosaic.PureOps.Ideal.Laws

noncomputable section

namespace Cert.LibDot3

open Idealize.ShloMosaic Idealize.ShloMosaic.ValueIdx
open scoped BigOperators

variable {a b k n : Nat} {φ₁ φ₂ : FTy}

/-- The record: left contracting axis 2, right contracting axis 0, kept axes 0, 1 (left) and 1 (right), no batch axis. -/
abbrev dims (w : DotDims.WF ⟨3, ![a, b, k]⟩ ⟨2, ![k, n]⟩ ⟨3, ![a, b, n]⟩ [2] [0] [0, 1] [1] [] []) :
    DotDims ⟨3, ![a, b, k]⟩ ⟨2, ![k, n]⟩ ⟨3, ![a, b, n]⟩ := ⟨[2], [0], [0, 1], [1], [], [], w⟩

/-- The left operand is read at the result's first two coordinates and the contracted coordinate. -/
theorem lhsIdx_eq (w : DotDims.WF ⟨3, ![a, b, k]⟩ ⟨2, ![k, n]⟩ ⟨3, ![a, b, n]⟩ [2] [0] [0, 1] [1] [] [])
    (i : Fin a) (j : Fin b) (e : Fin n) (c : Fin k) :
    (dims w).lhsIdx (ix3 i j e) ((contrEquiv1 (dims w) k rfl rfl).symm c) = ix3 i j c := by
  have c2 := contrEquiv1_symm_val (dims w) k rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c2

/-- The right operand is read at the contracted coordinate and the result's last coordinate. -/
theorem rhsIdx_eq (w : DotDims.WF ⟨3, ![a, b, k]⟩ ⟨2, ![k, n]⟩ ⟨3, ![a, b, n]⟩ [2] [0] [0, 1] [1] [] [])
    (i : Fin a) (j : Fin b) (e : Fin n) (c : Fin k) :
    (dims w).rhsIdx (ix3 i j e) ((contrEquiv1 (dims w) k rfl rfl).symm c) = ix2 c e := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of a three-axis array and a matrix at (i, j, e): the sum over the contracted coordinate. -/
theorem dotGeneral_apply (w : DotDims.WF ⟨3, ![a, b, k]⟩ ⟨2, ![k, n]⟩ ⟨3, ![a, b, n]⟩ [2] [0] [0, 1] [1] [] [])
    (prec : Option ContractPrecision) (A : FVec Ideal ⟨3, ![a, b, k]⟩ φ₁) (B : FVec Ideal ⟨2, ![k, n]⟩ φ₂)
    (i : Fin a) (j : Fin b) (e : Fin n) :
    Host.dotGeneral (dims w) prec A B (ix3 i j e) = ∑ c : Fin k, A (ix3 i j c) * B (ix2 c e) := by
  show FloatOps.dotGeneral _ prec _ A B (ix3 i j e) = _
  rw [Ideal.dotGeneral_apply, ← Equiv.sum_comp (contrEquiv1 (dims w) k rfl rfl).symm]
  refine Finset.sum_congr rfl fun c _ => ?_
  rw [lhsIdx_eq, rhsIdx_eq]

end Cert.LibDot3
-- ==== Proof.RefOps.lean ====
/-
  The reference's host operations read at an index, on the extended reals, for any extents: a vector kept as a
  `[1, 1, n]` array and spread over the first two axes of an `[a, b, n]` array reads its entry of the last
  coordinate; the mean over the last axis of a three-axis array, kept as a unit axis, is the row's sum divided by the
  count; and the layer normalisation the reference spells with these — centre by the mean, scale by the reciprocal
  square root of the mean squared deviation plus ε, multiply by the gain and add the bias — is, at (i, j, e), the
  layer normalisation of row (i, j) at entry e.
-/
import Idealize.ShloMosaic.Lib.ValueIdx
import Idealize.ShloMosaic.Lib.Pipeline.Value
import Idealize.ShloMosaic.PureOps.Ideal.Laws
import proofs.«147995_j10943576670702_2_alg».proof.Proof.Spec
import proofs.«147995_j10943576670702_2_alg».proof.Proof.LibHostRead

noncomputable section

namespace Cert.Attn.Ref

open Cert.Attn Cert.LibHostRead Idealize.ShloMosaic Idealize.ShloMosaic.ValueIdx
open scoped BigOperators

section Bcast
variable {α : Type}

/-- A vector kept as a `[1, 1, n]` array reads, at `(z, z', k)`, entry `k`. -/
theorem bcast_n_11n_apply {n : ℕ} (x : (⟨1, ![n]⟩ : Shape).Idx → α)
    (h : (⟨1, ![n]⟩ : Shape).BroadcastsInDim ⟨3, ![1, 1, n]⟩ (![2] : Fin 1 → Fin 3)) (z z' : Fin 1) (k : Fin n) :
    broadcastInDim ⟨3, ![1, 1, n]⟩ (![2] : Fin 1 → Fin 3) h x (ix3 z z' k) = x (ix1 k) := by
  refine broadcastInDim_apply _ h x (ix3 z z' k) (ix1 k) fun ax => ?_
  match ax with
  | ⟨0, _⟩ =>
    show k.val = if n = 1 then 0 else k.val
    split
    · have := k.isLt; omega
    · rfl

/-- A `[1, 1, n]` array spread over the first two axes reads, at `(i, j, k)`, its entry `(0, 0, k)`. -/
theorem bcast_11n_abn_apply {a b n : ℕ} (x : (⟨3, ![1, 1, n]⟩ : Shape).Idx → α)
    (h : (⟨3, ![1, 1, n]⟩ : Shape).BroadcastsInDim ⟨3, ![a, b, n]⟩ (![0, 1, 2] : Fin 3 → Fin 3))
    (i : Fin a) (j : Fin b) (k : Fin n) :
    broadcastInDim ⟨3, ![a, b, n]⟩ (![0, 1, 2] : Fin 3 → Fin 3) h x (ix3 i j k) = x (ix3 (0 : Fin 1) (0 : Fin 1) k) := by
  refine broadcastInDim_apply _ h x (ix3 i j k) (ix3 (0 : Fin 1) (0 : Fin 1) k) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]
  | ⟨2, _⟩ =>
    show k.val = if n = 1 then 0 else k.val
    split
    · have := k.isLt; omega
    · rfl

/-- A vector spread over the first two axes of a three-axis array, through a `[1, 1, n]` array: at `(i, j, k)`, entry `k`. -/
theorem bcastVec3_apply {a b n : ℕ} (x : (⟨1, ![n]⟩ : Shape).Idx → α)
    (h1 : (⟨1, ![n]⟩ : Shape).BroadcastsInDim ⟨3, ![1, 1, n]⟩ (![2] : Fin 1 → Fin 3))
    (h2 : (⟨3, ![1, 1, n]⟩ : Shape).BroadcastsInDim ⟨3, ![a, b, n]⟩ (![0, 1, 2] : Fin 3 → Fin 3))
    (i : Fin a) (j : Fin b) (k : Fin n) :
    broadcastInDim ⟨3, ![a, b, n]⟩ (![0, 1, 2] : Fin 3 → Fin 3) h2
        (broadcastInDim ⟨3, ![1, 1, n]⟩ (![2] : Fin 1 → Fin 3) h1 x) (ix3 i j k) = x (ix1 k) :=
  (bcast_11n_abn_apply _ h2 i j k).trans (bcast_n_11n_apply x h1 0 0 k)

end Bcast

section LayerNorm
variable {a b c : ℕ} {u : Shape}
  (hred : (⟨3, ![a, b, c]⟩ : Shape).ReducesTo [2] ⟨2, ![a, b]⟩) (hu : 0 < u.numel)
  (hk : (⟨2, ![a, b]⟩ : Shape).BroadcastsInDim ⟨3, ![a, b, 1]⟩ (![0, 1] : Fin 2 → Fin 3))
  (d0 : Fin u.rank → Fin 3) (hs : u.BroadcastsInDim ⟨3, ![a, b, 1]⟩ d0)
  (hw : (⟨3, ![a, b, 1]⟩ : Shape).BroadcastsInDim ⟨3, ![a, b, c]⟩ (![0, 1, 2] : Fin 3 → Fin 3))
  (hv1 : (⟨1, ![c]⟩ : Shape).BroadcastsInDim ⟨3, ![1, 1, c]⟩ (![2] : Fin 1 → Fin 3))
  (hv2 : (⟨3, ![1, 1, c]⟩ : Shape).BroadcastsInDim ⟨3, ![a, b, c]⟩ (![0, 1, 2] : Fin 3 → Fin 3))
  (cn : BitVec 32)

/-- The host's mean over the last axis, kept as a unit axis: at `(i, j, z)`, the sum of row `(i, j)` divided by the count. -/
theorem hostMean_apply (y : FVec Ideal ⟨3, ![a, b, c]⟩ .f32) (i : Fin a) (j : Fin b) (z : Fin 1) :
    (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn))) (ix3 i j z)
      = mean (Ideal.ofBits .f32 cn) (fun k => y (ix3 i j k)) := by
  show Ideal.div ((broadcastInDim ⟨3, ![a, b, 1]⟩ (![0, 1] : Fin 2 → Fin 3) hk (Host.reduceAdd (F := Ideal) y (constant u .f32 0x00000000#32) hred hu)) (ix3 i j z)) ((broadcastInDim ⟨3, ![a, b, 1]⟩ d0 hs (constant (F := Ideal) u .f32 cn)) (ix3 i j z)) = _
  rw [bcast_ab_ab1_apply, bcastConst_apply, hostSumAxis2_apply y _ hred hu Ideal.ofBits_zero_f32]
  rfl

/-- The array centred by its rows' means: at `(i, j, k)`, the entry minus the mean of row `(i, j)`. -/
theorem hostCentre_apply (y : FVec Ideal ⟨3, ![a, b, c]⟩ .f32) (i : Fin a) (j : Fin b) (k : Fin c) :
    (subf y (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn))))) (ix3 i j k)
      = y (ix3 i j k) - mean (Ideal.ofBits .f32 cn) (fun k => y (ix3 i j k)) := by
  show y (ix3 i j k) - (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn)))) (ix3 i j k) = _
  rw [bcast_ab1_abc_apply, hostMean_apply]

/-- The host's layer normalisation over the last axis at `(i, j, e)`: the layer normalisation of row `(i, j)`, with
    the gain and bias vectors, at entry `e`. -/
theorem hostLN_apply (y : FVec Ideal ⟨3, ![a, b, c]⟩ .f32) (g bb : FVec Ideal ⟨1, ![c]⟩ .f32)
    (i : Fin a) (j : Fin b) (e : Fin c) :
    (addf (mulf (mulf (subf y (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn))))) (broadcastInDim ⟨3, ![a, b, c]⟩ (![0, 1, 2] : Fin 3 → Fin 3) hw (Host.rsqrt (addf (Host.divf (F := Ideal) (broadcastInDim ⟨3, ![a, b, 1]⟩ (![0, 1] : Fin 2 → Fin 3) hk (Host.reduceAdd (F := Ideal) (mulf (subf y (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn))))) (subf y (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn)))))) (constant u .f32 0x00000000#32) hred hu)) (broadcastInDim ⟨3, ![a, b, 1]⟩ d0 hs (constant (F := Ideal) u .f32 cn))) (broadcastInDim ⟨3, ![a, b, 1]⟩ d0 hs (constant (F := Ideal) u .f32 0x3727C5AC#32)))))) (broadcastInDim ⟨3, ![a, b, c]⟩ (![0, 1, 2] : Fin 3 → Fin 3) hv2 (broadcastInDim ⟨3, ![1, 1, c]⟩ (![2] : Fin 1 → Fin 3) hv1 g))) (broadcastInDim ⟨3, ![a, b, c]⟩ (![0, 1, 2] : Fin 3 → Fin 3) hv2 (broadcastInDim ⟨3, ![1, 1, c]⟩ (![2] : Fin 1 → Fin 3) hv1 bb))) (ix3 i j e)
      = lnRow (Ideal.ofBits .f32 cn) (fun k => y (ix3 i j k)) (fun k => g (ix1 k)) (fun k => bb (ix1 k)) e := by
  have hc := hostCentre_apply hred hu hk d0 hs hw cn y i j
  show (subf y (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn))))) (ix3 i j e)
        * (broadcastInDim ⟨3, ![a, b, c]⟩ (![0, 1, 2] : Fin 3 → Fin 3) hw (Host.rsqrt (addf (Host.divf (F := Ideal) (broadcastInDim ⟨3, ![a, b, 1]⟩ (![0, 1] : Fin 2 → Fin 3) hk (Host.reduceAdd (F := Ideal) (mulf (subf y (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn))))) (subf y (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn)))))) (constant u .f32 0x00000000#32) hred hu)) (broadcastInDim ⟨3, ![a, b, 1]⟩ d0 hs (constant (F := Ideal) u .f32 cn))) (broadcastInDim ⟨3, ![a, b, 1]⟩ d0 hs (constant (F := Ideal) u .f32 0x3727C5AC#32))))) (ix3 i j e)
        * (broadcastInDim ⟨3, ![a, b, c]⟩ (![0, 1, 2] : Fin 3 → Fin 3) hv2 (broadcastInDim ⟨3, ![1, 1, c]⟩ (![2] : Fin 1 → Fin 3) hv1 g)) (ix3 i j e) + (broadcastInDim ⟨3, ![a, b, c]⟩ (![0, 1, 2] : Fin 3 → Fin 3) hv2 (broadcastInDim ⟨3, ![1, 1, c]⟩ (![2] : Fin 1 → Fin 3) hv1 bb)) (ix3 i j e) = _
  rw [hc e, bcast_ab1_abc_apply, bcastVec3_apply, bcastVec3_apply]
  show _ * Ideal.rsqrt ((Host.divf (F := Ideal) (broadcastInDim ⟨3, ![a, b, 1]⟩ (![0, 1] : Fin 2 → Fin 3) hk (Host.reduceAdd (F := Ideal) (mulf (subf y (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn))))) (subf y (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn)))))) (constant u .f32 0x00000000#32) hred hu)) (broadcastInDim ⟨3, ![a, b, 1]⟩ d0 hs (constant (F := Ideal) u .f32 cn))) (ix3 i j (0 : Fin 1))
        + (broadcastInDim ⟨3, ![a, b, 1]⟩ d0 hs (constant (F := Ideal) u .f32 0x3727C5AC#32)) (ix3 i j (0 : Fin 1))) * _ + _ = _
  rw [hostMean_apply, bcastConst_apply]
  have hsq : (fun k => (mulf (subf y (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn))))) (subf y (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn)))))) (ix3 i j k))
      = fun k => (y (ix3 i j k) - mean (Ideal.ofBits .f32 cn) (fun k => y (ix3 i j k)))
          * (y (ix3 i j k) - mean (Ideal.ofBits .f32 cn) (fun k => y (ix3 i j k))) :=
    funext fun k => by
      show (subf y (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn))))) (ix3 i j k) * (subf y (broadcastInDim ⟨3, ![a, b, c]⟩ (![0, 1, 2] : Fin 3 → Fin 3) hw (Host.divf (F := Ideal) (broadcastInDim ⟨3, ![a, b, 1]⟩ (![0, 1] : Fin 2 → Fin 3) hk (Host.reduceAdd (F := Ideal) y (constant u .f32 0x00000000#32) hred hu)) (broadcastInDim ⟨3, ![a, b, 1]⟩ d0 hs (constant (F := Ideal) u .f32 cn))))) (ix3 i j k) = _
      rw [hc k]
  rw [hsq]
  rfl

end LayerNorm

end Cert.Attn.Ref

end
-- ==== Proof.RefFront.lean ====
/-
  The front of the reference read at an index: the keys' product `grid · Wk`, the keys (its layer normalisation), the
  values `grid · Wv` and the query `LN(q) · Wq` are, entry by entry, the specification's rows.
-/
import proofs.«147995_j10943576670702_2_alg».proof.Proof.Gen.ReferenceIdeal.Run
import proofs.«147995_j10943576670702_2_alg».proof.Proof.Spec
import proofs.«147995_j10943576670702_2_alg».proof.Proof.LibHostRead
import proofs.«147995_j10943576670702_2_alg».proof.Proof.LibDot3
import proofs.«147995_j10943576670702_2_alg».proof.Proof.RefOps

set_option maxRecDepth 8192

noncomputable section

namespace Cert.Attn.Ref

open Cert.ReferenceIdeal Cert.ReferenceIdeal.Gen Cert.ReferenceIdeal.Value Cert.Attn Cert.LibHostRead
open Idealize.ShloMosaic Idealize.ShloMosaic.TcCoe Idealize.SL.Sem Idealize.ShloMosaic.StableHlo Idealize.ShloMosaic.ValueIdx
open scoped BigOperators

variable (V0 : Valuation τ sig (Elt Ideal))

/-- The grid times `Wk`: at `(b, t, e)`, row `(b, t)` of the grid times column `e`. -/
theorem ref_v1 (b : Fin 16) (t : Fin 256) (e : Fin 1024) :
    res_main_v1 V0 (ix3 b t e)
      = rowMat (fun d => res_main_v0 V0 (ix3 b t d)) (V0 (Proc.devRef .tc main_arg3)) e :=
  Cert.LibDot3.dotGeneral_apply dot_S16x256x1024_S1024x1024_S16x256x1024_2_0_01_1_n_n_wf none
    (res_main_v0 V0) (V0 (Proc.devRef .tc main_arg3)) b t e

/-- The keys' array as the reference composes it: the layer normalisation of `grid · Wk` over the last axis. -/
def refK : FVec Ideal S16x256x1024 .f32 :=
  addf (mulf (mulf (subf (res_main_v1 V0) (broadcastInDim S16x256x1024 ![0, 1, 2] bcast_S16x256x1_S16x256x1024_0_1_2 (res_main_v5 V0))) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (res_main_v7 V0) (res_main_v7 V0)) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x3727C5AC#32)))))) (broadcastInDim S16x256x1024 ![0, 1, 2] bcast_S1x1x1024_S16x256x1024_0_1_2 (broadcastInDim S1x1x1024 ![2] bcast_S1024_S1x1x1024_2 (V0 (Proc.devRef .tc main_arg6))))) (broadcastInDim S16x256x1024 ![0, 1, 2] bcast_S1x1x1024_S16x256x1024_0_1_2 (broadcastInDim S1x1x1024 ![2] bcast_S1024_S1x1x1024_2 (V0 (Proc.devRef .tc main_arg7))))

/-- The keys: at `(b, t, e)`, the specification's key row `(b, t)` at entry `e`. -/
theorem ref_keys (b : Fin 16) (t : Fin 256) (e : Fin 1024) :
    refK V0 (ix3 b t e)
      = keys (res_main_v0 V0) (V0 (Proc.devRef .tc main_arg3)) (V0 (Proc.devRef .tc main_arg6)) (V0 (Proc.devRef .tc main_arg7)) b t e := by
  refine (hostLN_apply reducesTo_S16x256x1024_S16x256_d2 h_S_ bcast_S16x256_S16x256x1_0_1 ![] bcast_S_S16x256x1
    bcast_S16x256x1_S16x256x1024_0_1_2 bcast_S1024_S1x1x1024_2 bcast_S1x1x1024_S16x256x1024_0_1_2 0x44800000#32
    (res_main_v1 V0) (V0 (Proc.devRef .tc main_arg6)) (V0 (Proc.devRef .tc main_arg7)) b t e).trans ?_
  exact congrArg (fun x => lnRow (Ideal.ofBits .f32 0x44800000#32) x (fun k => (V0 (Proc.devRef .tc main_arg6)) (ix1 k))
    (fun k => (V0 (Proc.devRef .tc main_arg7)) (ix1 k)) e) (funext (ref_v1 V0 b t))

/-- The values `grid · Wv`: at `(b, t, e)`, the specification's value row `(b, t)` at entry `e`. -/
theorem ref_vals (b : Fin 16) (t : Fin 256) (e : Fin 1024) :
    Host.dotGeneral (F := Ideal) (φ₁ := .f32) (φ₂ := .f32) dot_S16x256x1024_S1024x1024_S16x256x1024_2_0_01_1_n_n none
        (res_main_v0 V0) (V0 (Proc.devRef .tc main_arg4)) (ix3 b t e)
      = vals (res_main_v0 V0) (V0 (Proc.devRef .tc main_arg4)) b t e :=
  Cert.LibDot3.dotGeneral_apply dot_S16x256x1024_S1024x1024_S16x256x1024_2_0_01_1_n_n_wf none
    (res_main_v0 V0) (V0 (Proc.devRef .tc main_arg4)) b t e

/-- The query `LN(q) · Wq`: at `(b, l, e)`, the specification's query of row `(b, l)` at entry `e`. -/
theorem ref_query (b : Fin 16) (l : Fin 1024) (e : Fin 1024) :
    res_main_v51 V0 (ix3 b l e)
      = queryRow (V0 (Proc.devRef .tc main_arg2)) (V0 (Proc.devRef .tc main_arg8)) (V0 (Proc.devRef .tc main_arg9)) (fun d => (V0 (Proc.devRef .tc main_arg1)) (ix3 b l d)) e := by
  refine (Cert.LibDot3.dotGeneral_apply dot_S16x1024x512_S512x1024_S16x1024x1024_2_0_01_1_n_n_wf none
    _ (V0 (Proc.devRef .tc main_arg2)) b l e).trans ?_
  exact Finset.sum_congr rfl fun d _ => congrArg (fun x => x * (V0 (Proc.devRef .tc main_arg2)) (ix2 d e))
    (hostLN_apply reducesTo_S16x1024x512_S16x1024_d2 h_S_ bcast_S16x1024_S16x1024x1_0_1 ![] bcast_S_S16x1024x1
      bcast_S16x1024x1_S16x1024x512_0_1_2 bcast_S512_S1x1x512_2 bcast_S1x1x512_S16x1024x512_0_1_2 0x44000000#32
      (V0 (Proc.devRef .tc main_arg1)) (V0 (Proc.devRef .tc main_arg8)) (V0 (Proc.devRef .tc main_arg9)) b l d)

end Cert.Attn.Ref

end
-- ==== Proof.RefTail.lean ====
/-
  The tail of the reference read at an index: from the residual array `X` the reference computes
  `X + (gelu(LN(X) · W1 + b1) · W2 + b2)`; entry by entry this is the specification's output row of the residual's row.
  The reference cubes as `(u · u) · u`, the specification as `u · (u · u)`: the same product.
-/
import proofs.«147995_j10943576670702_2_alg».proof.Proof.Gen.ReferenceIdeal.Run
import proofs.«147995_j10943576670702_2_alg».proof.Proof.Spec
import proofs.«147995_j10943576670702_2_alg».proof.Proof.LibHostRead
import proofs.«147995_j10943576670702_2_alg».proof.Proof.LibDot3
import proofs.«147995_j10943576670702_2_alg».proof.Proof.RefOps

set_option maxRecDepth 8192

noncomputable section

namespace Cert.Attn.Ref

open Cert.ReferenceIdeal Cert.ReferenceIdeal.Gen Cert.ReferenceIdeal.Value Cert.Attn Cert.LibHostRead
open Idealize.ShloMosaic Idealize.ShloMosaic.TcCoe Idealize.SL.Sem Idealize.ShloMosaic.StableHlo Idealize.ShloMosaic.ValueIdx
open scoped BigOperators

variable (V0 : Valuation τ sig (Elt Ideal))

/-- The rows' means of the residual, as the reference composes them. -/
def refV80 (X : FVec Ideal S16x1024x1024 .f32) : FVec Ideal S16x1024x1 .f32 :=
  Host.divf (broadcastInDim S16x1024x1 ![0, 1] bcast_S16x1024_S16x1024x1_0_1 (Host.reduceAdd X (constant S_ .f32 0x00000000#32) reducesTo_S16x1024x1024_S16x1024_d2 h_S_)) (broadcastInDim S16x1024x1 ![] bcast_S_S16x1024x1 (constant S_ .f32 0x44800000#32))

/-- The residual centred by its rows' means, as the reference composes it. -/
def refV82 (X : FVec Ideal S16x1024x1024 .f32) : FVec Ideal S16x1024x1024 .f32 :=
  subf X (broadcastInDim S16x1024x1024 ![0, 1, 2] bcast_S16x1024x1_S16x1024x1024_0_1_2 (refV80 X))

/-- The hidden layer `LN(X) · W1 + b1`, as the reference composes it. -/
def refV104 (X : FVec Ideal S16x1024x1024 .f32) : FVec Ideal S16x1024x4096 .f32 :=
  addf (Host.dotGeneral (F := Ideal) (φ₁ := .f32) (φ₂ := .f32) dot_S16x1024x1024_S1024x4096_S16x1024x4096_2_0_01_1_n_n none (addf (mulf (mulf (subf X (broadcastInDim S16x1024x1024 ![0, 1, 2] bcast_S16x1024x1_S16x1024x1024_0_1_2 (refV80 X))) (broadcastInDim S16x1024x1024 ![0, 1, 2] bcast_S16x1024x1_S16x1024x1024_0_1_2 (Host.rsqrt (addf (Host.divf (broadcastInDim S16x1024x1 ![0, 1] bcast_S16x1024_S16x1024x1_0_1 (Host.reduceAdd (mulf (refV82 X) (refV82 X)) (constant S_ .f32 0x00000000#32) reducesTo_S16x1024x1024_S16x1024_d2 h_S_)) (broadcastInDim S16x1024x1 ![] bcast_S_S16x1024x1 (constant S_ .f32 0x44800000#32))) (broadcastInDim S16x1024x1 ![] bcast_S_S16x1024x1 (constant S_ .f32 0x3727C5AC#32)))))) (broadcastInDim S16x1024x1024 ![0, 1, 2] bcast_S1x1x1024_S16x1024x1024_0_1_2 (broadcastInDim S1x1x1024 ![2] bcast_S1024_S1x1x1024_2 (V0 (Proc.devRef .tc main_arg10))))) (broadcastInDim S16x1024x1024 ![0, 1, 2] bcast_S1x1x1024_S16x1024x1024_0_1_2 (broadcastInDim S1x1x1024 ![2] bcast_S1024_S1x1x1024_2 (V0 (Proc.devRef .tc main_arg11))))) (V0 (Proc.devRef .tc main_arg12))) (broadcastInDim S16x1024x4096 ![0, 1, 2] bcast_S1x1x4096_S16x1024x4096_0_1_2 (broadcastInDim S1x1x4096 ![2] bcast_S4096_S1x1x4096_2 (V0 (Proc.devRef .tc main_arg13))))

/-- The result `X + (gelu(hidden) · W2 + b2)`, as the reference composes it. -/
def refTail (X : FVec Ideal S16x1024x1024 .f32) : FVec Ideal S16x1024x1024 .f32 :=
  addf X (addf (Host.dotGeneral (F := Ideal) (φ₁ := .f32) (φ₂ := .f32) dot_S16x1024x4096_S4096x1024_S16x1024x1024_2_0_01_1_n_n none (mulf (refV104 V0 X) (mulf (broadcastInDim S16x1024x4096 ![] bcast_S_S16x1024x4096 (constant S_ .f32 0x3F000000#32)) (addf (broadcastInDim S16x1024x4096 ![] bcast_S_S16x1024x4096 (constant S_ .f32 0x3F800000#32)) (Host.tanh (mulf (broadcastInDim S16x1024x4096 ![] bcast_S_S16x1024x4096 (constant S_ .f32 0x3F4C422A#32)) (addf (refV104 V0 X) (mulf (broadcastInDim S16x1024x4096 ![] bcast_S_S16x1024x4096 (constant S_ .f32 0x3D372713#32)) (mulf (mulf (refV104 V0 X) (refV104 V0 X)) (refV104 V0 X))))))))) (V0 (Proc.devRef .tc main_arg14))) (broadcastInDim S16x1024x1024 ![0, 1, 2] bcast_S1x1x1024_S16x1024x1024_0_1_2 (broadcastInDim S1x1x1024 ![2] bcast_S1024_S1x1x1024_2 (V0 (Proc.devRef .tc main_arg15)))))

/-- The hidden layer at `(b, l, j)`: the specification's hidden row of row `(b, l)` of the residual at entry `j`. -/
theorem ref_hid (X : FVec Ideal S16x1024x1024 .f32) (b : Fin 16) (l : Fin 1024) (j : Fin 4096) :
    refV104 V0 X (ix3 b l j)
      = hidRow (V0 (Proc.devRef .tc main_arg10)) (V0 (Proc.devRef .tc main_arg11)) (V0 (Proc.devRef .tc main_arg12)) (V0 (Proc.devRef .tc main_arg13)) (fun k => X (ix3 b l k)) j := by
  unfold refV104 refV82 refV80 hidRow
  refine (addf_apply _ _ _).trans ?_
  refine congrArg₂ (· + ·) ?_ (bcastVec3_apply _ _ _ b l j)
  refine (Cert.LibDot3.dotGeneral_apply dot_S16x1024x1024_S1024x4096_S16x1024x4096_2_0_01_1_n_n_wf none
    _ (V0 (Proc.devRef .tc main_arg12)) b l j).trans ?_
  exact Finset.sum_congr rfl fun k _ => congrArg (fun x => x * (V0 (Proc.devRef .tc main_arg12)) (ix2 k j))
    (hostLN_apply reducesTo_S16x1024x1024_S16x1024_d2 h_S_ bcast_S16x1024_S16x1024x1_0_1 ![] bcast_S_S16x1024x1
      bcast_S16x1024x1_S16x1024x1024_0_1_2 bcast_S1024_S1x1x1024_2 bcast_S1x1x1024_S16x1024x1024_0_1_2 0x44800000#32
      X (V0 (Proc.devRef .tc main_arg10)) (V0 (Proc.devRef .tc main_arg11)) b l k)

/-- The result at `(b, l, e)`: the specification's output row of row `(b, l)` of the residual at entry `e`. -/
theorem ref_tail (X : FVec Ideal S16x1024x1024 .f32) (b : Fin 16) (l : Fin 1024) (e : Fin 1024) :
    refTail V0 X (ix3 b l e)
      = mlpRow (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (fun k => X (ix3 b l k)) e := by
  unfold refTail mlpRow
  refine (addf_apply _ _ _).trans ?_
  refine congrArg (fun x => X (ix3 b l e) + x) ?_
  refine (addf_apply _ _ _).trans ?_
  refine congrArg₂ (· + ·) ?_ (bcastVec3_apply _ _ _ b l e)
  refine (Cert.LibDot3.dotGeneral_apply dot_S16x1024x4096_S4096x1024_S16x1024x1024_2_0_01_1_n_n_wf none
    _ (V0 (Proc.devRef .tc main_arg14)) b l e).trans ?_
  refine Finset.sum_congr rfl fun j _ => congrArg (fun x => x * (V0 (Proc.devRef .tc main_arg14)) (ix2 j e)) ?_
  show refV104 V0 X (ix3 b l j) * (Ideal.ofBits .f32 0x3F000000#32 * (Ideal.ofBits .f32 0x3F800000#32
      + Ideal.tanh (Ideal.ofBits .f32 0x3F4C422A#32 * (refV104 V0 X (ix3 b l j) + Ideal.ofBits .f32 0x3D372713#32
        * ((refV104 V0 X (ix3 b l j) * refV104 V0 X (ix3 b l j)) * refV104 V0 X (ix3 b l j)))))) = _
  rw [ref_hid V0 X b l j]
  unfold gelu
  beta_reduce
  generalize hidRow (V0 (Proc.devRef .tc main_arg10)) (V0 (Proc.devRef .tc main_arg11)) (V0 (Proc.devRef .tc main_arg12)) (V0 (Proc.devRef .tc main_arg13)) (fun k => X (ix3 b l k)) j = u
  rw [mul_comm (u * u) u]

/-- The reference's result is its tail at its own residual. -/
theorem refTail_eq :
    refTail V0 (res_main_v76 V0)
      = addf (res_main_v76 V0) (addf (Host.dotGeneral (F := Ideal) (φ₁ := .f32) (φ₂ := .f32) dot_S16x1024x4096_S4096x1024_S16x1024x1024_2_0_01_1_n_n none (mulf (res_main_v104 V0) (mulf (broadcastInDim S16x1024x4096 ![] bcast_S_S16x1024x4096 (constant S_ .f32 0x3F000000#32)) (addf (broadcastInDim S16x1024x4096 ![] bcast_S_S16x1024x4096 (constant S_ .f32 0x3F800000#32)) (Host.tanh (mulf (broadcastInDim S16x1024x4096 ![] bcast_S_S16x1024x4096 (constant S_ .f32 0x3F4C422A#32)) (addf (res_main_v104 V0) (mulf (broadcastInDim S16x1024x4096 ![] bcast_S_S16x1024x4096 (constant S_ .f32 0x3D372713#32)) (mulf (mulf (res_main_v104 V0) (res_main_v104 V0)) (res_main_v104 V0))))))))) (V0 (Proc.devRef .tc main_arg14))) (broadcastInDim S16x1024x1024 ![0, 1, 2] bcast_S1x1x1024_S16x1024x1024_0_1_2 (broadcastInDim S1x1x1024 ![2] bcast_S1024_S1x1x1024_2 (V0 (Proc.devRef .tc main_arg15))))) := rfl

end Cert.Attn.Ref

end
-- ==== Proof.LibHeads.lean ====
/-
  Multi-head attention's layout and contractions read at an index, on the extended reals, for any extents.

  * Heads split off the last axis and brought forward: entry (b, h, l, d) of the [a, H, L, D] array is entry
    (b, l, h · D + d) of the [a, L, H · D] array (`splitHeads_apply`); and back: entry (b, l, h · D + d) of the merged
    [a, L, H · D] array is entry (b, h, l, d) of the [a, H, L, D] array (`mergeHeads_apply`).
  * The host's products with two batch axes in front: rows with rows, at (b, h, l, m) the sum over d of
    A (b, h, l, d) · B (b, h, m, d) (`dotQK_apply`); rows with columns, at (b, h, l, d) the sum over m of
    A (b, h, l, m) · B (b, h, m, d) (`dotPV_apply`); and a stack of matrices times one matrix, at (b, l, e) the sum
    over k of A (b, l, k) · B (k, e) (`dotRM_apply`).
  * A per-row quantity of an [a, b, c] array kept as [a, b, c, 1] and spread over the last axis of [a, b, c, d]
    (`keepLast4_apply`), and the host's sum over the last axis of a four-axis array from zero as the plain sum
    (`hostSumLast4_apply`).
  * The host's exponential and quotient entry by entry, a literal's splat at an index (definitional).
  * Two words: `0x3E000000` is one eighth, a nonnegative real; `0x00000000` is zero.
-/
import Idealize.ShloMosaic.Lib.ValueIdx
import Idealize.ShloMosaic.Lib.Pipeline.Value
import Idealize.ShloMosaic.PureOps.Ideal.Laws

noncomputable section

namespace Cert.LibHeads

open Idealize.ShloMosaic Idealize.ShloMosaic.ValueIdx
open scoped BigOperators

/-! ## Entrywise host operations and a literal's splat, definitionally -/

/-- The host's exponential, entry by entry. -/
theorem hostExp_apply {s : Shape} (x : FVec Ideal s .f32) (i : s.Idx) : Host.exp x i = Ideal.exp (x i) := rfl

/-- The host's quotient, entry by entry. -/
theorem hostDivf_apply {s : Shape} (x y : FVec Ideal s .f32) (i : s.Idx) : Host.divf x y i = Ideal.div (x i) (y i) := rfl

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-! ## Splitting and merging heads -/

/-- Splitting the last axis into heads and bringing the head axis forward: entry `(b, h, l, d)` of the
    `[a, H, L, D]` array is entry `(b, l, h · D + d)` of the `[a, L, n]` array. -/
theorem splitHeads_apply {α : Type} {a L H D n : ℕ} (X : (⟨3, ![a, L, n]⟩ : Shape).Idx → α)
    (hc : (⟨3, ![a, L, n]⟩ : Shape).ShapeCasts ⟨4, ![a, L, H, D]⟩)
    (ht : (⟨4, ![a, L, H, D]⟩ : Shape).Transposes [0, 2, 1, 3] ⟨4, ![a, H, L, D]⟩)
    (hn : n = H * D) (b : Fin a) (h : Fin H) (l : Fin L) (d : Fin D) (k : Fin n) (hk : k.val = h.val * D + d.val) :
    transpose ⟨4, ![a, H, L, D]⟩ [0, 2, 1, 3] (shapeCast ⟨4, ![a, L, H, D]⟩ X hc) ht (ix4 b h l d) = X (ix3 b l k) := by
  refine (transpose_apply [0, 2, 1, 3] _ ht (ix4 b h l d) (ix4 b l h d) ?_).trans ?_
  · intro ax
    match ax with
    | ⟨0, _⟩ => rfl
    | ⟨1, _⟩ => rfl
    | ⟨2, _⟩ => rfl
    | ⟨3, _⟩ => rfl
  · refine shapeCast_apply X hc _ _ ?_
    rw [Shape.rowMajor_val_three, Shape.rowMajor_val_four]
    show (b.val * L + l.val) * n + k.val = ((b.val * L + l.val) * H + h.val) * D + d.val
    rw [hk, hn]; ring

/-- Bringing the head axis back and merging it with the last: entry `(b, l, k)` of the `[a, L, n]` array is
    entry `(b, h, l, d)` of the `[a, H, L, D]` array when `k = h · D + d`. -/
theorem mergeHeads_apply {α : Type} {a L H D n : ℕ} (Y : (⟨4, ![a, H, L, D]⟩ : Shape).Idx → α)
    (ht : (⟨4, ![a, H, L, D]⟩ : Shape).Transposes [0, 2, 1, 3] ⟨4, ![a, L, H, D]⟩)
    (hc : (⟨4, ![a, L, H, D]⟩ : Shape).ShapeCasts ⟨3, ![a, L, n]⟩)
    (hn : n = H * D) (b : Fin a) (h : Fin H) (l : Fin L) (d : Fin D) (k : Fin n) (hk : k.val = h.val * D + d.val) :
    shapeCast ⟨3, ![a, L, n]⟩ (transpose ⟨4, ![a, L, H, D]⟩ [0, 2, 1, 3] Y ht) hc (ix3 b l k) = Y (ix4 b h l d) := by
  refine (shapeCast_apply _ hc (ix3 b l k) (ix4 b l h d) ?_).trans ?_
  · rw [Shape.rowMajor_val_three, Shape.rowMajor_val_four]
    show ((b.val * L + l.val) * H + h.val) * D + d.val = (b.val * L + l.val) * n + k.val
    rw [hk, hn]; ring
  · refine transpose_apply [0, 2, 1, 3] Y ht (ix4 b l h d) (ix4 b h l d) ?_
    intro ax
    match ax with
    | ⟨0, _⟩ => rfl
    | ⟨1, _⟩ => rfl
    | ⟨2, _⟩ => rfl
    | ⟨3, _⟩ => rfl

section Dots
variable {a H L M D : ℕ} {φ₁ φ₂ : FTy}

/-! ## Scores: two batch axes in front, the last axes of both operands contracted -/

/-- The record: batch axes 0 and 1, kept axis 2 of each operand, contracted axis 3 of each. -/
abbrev qkDims (wf : DotDims.WF ⟨4, ![a, H, L, D]⟩ ⟨4, ![a, H, M, D]⟩ ⟨4, ![a, H, L, M]⟩ [3] [3] [2] [2] [0, 1] [0, 1]) :
    DotDims ⟨4, ![a, H, L, D]⟩ ⟨4, ![a, H, M, D]⟩ ⟨4, ![a, H, L, M]⟩ := ⟨[3], [3], [2], [2], [0, 1], [0, 1], wf⟩

theorem qk_lhsIdx (wf : DotDims.WF ⟨4, ![a, H, L, D]⟩ ⟨4, ![a, H, M, D]⟩ ⟨4, ![a, H, L, M]⟩ [3] [3] [2] [2] [0, 1] [0, 1])
    (b : Fin a) (h : Fin H) (l : Fin L) (m : Fin M) (k : Fin D) :
    (qkDims wf).lhsIdx (ix4 b h l m) ((contrEquiv1 (qkDims wf) D rfl rfl).symm k) = ix4 b h l k := by
  have hk := contrEquiv1_symm_val (qkDims wf) D rfl rfl k
  funext ax; apply Fin.ext
  match ax with
  | ⟨0, _⟩ => simp [DotDims.lhsIdx]; rfl
  | ⟨1, _⟩ => simp [DotDims.lhsIdx]; rfl
  | ⟨2, _⟩ => simp [DotDims.lhsIdx]; rfl
  | ⟨3, _⟩ => simp [DotDims.lhsIdx]; exact hk

theorem qk_rhsIdx (wf : DotDims.WF ⟨4, ![a, H, L, D]⟩ ⟨4, ![a, H, M, D]⟩ ⟨4, ![a, H, L, M]⟩ [3] [3] [2] [2] [0, 1] [0, 1])
    (b : Fin a) (h : Fin H) (l : Fin L) (m : Fin M) (k : Fin D) :
    (qkDims wf).rhsIdx (ix4 b h l m) ((contrEquiv1 (qkDims wf) D rfl rfl).symm k) = ix4 b h m k := by
  have hk := contrEquiv1_symm_val (qkDims wf) D rfl rfl k
  funext ax; apply Fin.ext
  match ax with
  | ⟨0, _⟩ => simp [DotDims.rhsIdx]; rfl
  | ⟨1, _⟩ => simp [DotDims.rhsIdx]; rfl
  | ⟨2, _⟩ => simp [DotDims.rhsIdx]; rfl
  | ⟨3, _⟩ => simp [DotDims.rhsIdx]; exact hk

/-- The host's batched product of rows with rows, at `(b, h, l, m)`: the sum over the last coordinate. -/
theorem dotQK_apply (wf : DotDims.WF ⟨4, ![a, H, L, D]⟩ ⟨4, ![a, H, M, D]⟩ ⟨4, ![a, H, L, M]⟩ [3] [3] [2] [2] [0, 1] [0, 1])
    (prec : Option ContractPrecision) (A : FVec Ideal ⟨4, ![a, H, L, D]⟩ φ₁) (B : FVec Ideal ⟨4, ![a, H, M, D]⟩ φ₂)
    (b : Fin a) (h : Fin H) (l : Fin L) (m : Fin M) :
    Host.dotGeneral (qkDims wf) prec A B (ix4 b h l m) = ∑ k : Fin D, A (ix4 b h l k) * B (ix4 b h m k) := by
  show FloatOps.dotGeneral _ prec _ A B (ix4 b h l m) = _
  rw [Ideal.dotGeneral_apply, ← Equiv.sum_comp (contrEquiv1 (qkDims wf) D rfl rfl).symm]
  refine Finset.sum_congr rfl fun k _ => ?_
  rw [qk_lhsIdx, qk_rhsIdx]

/-! ## Weighted values: the left operand's last axis contracted with the right operand's axis 2 -/

/-- The record: batch axes 0 and 1, the left operand's axis 3 contracted with the right operand's axis 2. -/
abbrev pvDims (wf : DotDims.WF ⟨4, ![a, H, L, M]⟩ ⟨4, ![a, H, M, D]⟩ ⟨4, ![a, H, L, D]⟩ [3] [2] [2] [3] [0, 1] [0, 1]) :
    DotDims ⟨4, ![a, H, L, M]⟩ ⟨4, ![a, H, M, D]⟩ ⟨4, ![a, H, L, D]⟩ := ⟨[3], [2], [2], [3], [0, 1], [0, 1], wf⟩

theorem pv_lhsIdx (wf : DotDims.WF ⟨4, ![a, H, L, M]⟩ ⟨4, ![a, H, M, D]⟩ ⟨4, ![a, H, L, D]⟩ [3] [2] [2] [3] [0, 1] [0, 1])
    (b : Fin a) (h : Fin H) (l : Fin L) (d : Fin D) (k : Fin M) :
    (pvDims wf).lhsIdx (ix4 b h l d) ((contrEquiv1 (pvDims wf) M rfl rfl).symm k) = ix4 b h l k := by
  have hk := contrEquiv1_symm_val (pvDims wf) M rfl rfl k
  funext ax; apply Fin.ext
  match ax with
  | ⟨0, _⟩ => simp [DotDims.lhsIdx]; rfl
  | ⟨1, _⟩ => simp [DotDims.lhsIdx]; rfl
  | ⟨2, _⟩ => simp [DotDims.lhsIdx]; rfl
  | ⟨3, _⟩ => simp [DotDims.lhsIdx]; exact hk

theorem pv_rhsIdx (wf : DotDims.WF ⟨4, ![a, H, L, M]⟩ ⟨4, ![a, H, M, D]⟩ ⟨4, ![a, H, L, D]⟩ [3] [2] [2] [3] [0, 1] [0, 1])
    (b : Fin a) (h : Fin H) (l : Fin L) (d : Fin D) (k : Fin M) :
    (pvDims wf).rhsIdx (ix4 b h l d) ((contrEquiv1 (pvDims wf) M rfl rfl).symm k) = ix4 b h k d := by
  have hk := contrEquiv1_symm_val (pvDims wf) M rfl rfl k
  funext ax; apply Fin.ext
  match ax with
  | ⟨0, _⟩ => simp [DotDims.rhsIdx]; rfl
  | ⟨1, _⟩ => simp [DotDims.rhsIdx]; rfl
  | ⟨2, _⟩ => simp [DotDims.rhsIdx]; exact hk
  | ⟨3, _⟩ => simp [DotDims.rhsIdx]; rfl

/-- The host's batched product of rows with columns, at `(b, h, l, d)`: the sum over the contracted coordinate. -/
theorem dotPV_apply (wf : DotDims.WF ⟨4, ![a, H, L, M]⟩ ⟨4, ![a, H, M, D]⟩ ⟨4, ![a, H, L, D]⟩ [3] [2] [2] [3] [0, 1] [0, 1])
    (prec : Option ContractPrecision) (A : FVec Ideal ⟨4, ![a, H, L, M]⟩ φ₁) (B : FVec Ideal ⟨4, ![a, H, M, D]⟩ φ₂)
    (b : Fin a) (h : Fin H) (l : Fin L) (d : Fin D) :
    Host.dotGeneral (pvDims wf) prec A B (ix4 b h l d) = ∑ k : Fin M, A (ix4 b h l k) * B (ix4 b h k d) := by
  show FloatOps.dotGeneral _ prec _ A B (ix4 b h l d) = _
  rw [Ideal.dotGeneral_apply, ← Equiv.sum_comp (contrEquiv1 (pvDims wf) M rfl rfl).symm]
  refine Finset.sum_congr rfl fun k _ => ?_
  rw [pv_lhsIdx, pv_rhsIdx]

end Dots

section RowsTimesMatrix
variable {a L K N : ℕ} {φ₁ φ₂ : FTy}

/-! ## A stack of matrices times one matrix: the last axis contracted with the matrix's first -/

/-- The record: the left operand's axis 2 contracted with the right operand's axis 0, no batch axis. -/
abbrev rmDims (wf : DotDims.WF ⟨3, ![a, L, K]⟩ ⟨2, ![K, N]⟩ ⟨3, ![a, L, N]⟩ [2] [0] [0, 1] [1] [] []) :
    DotDims ⟨3, ![a, L, K]⟩ ⟨2, ![K, N]⟩ ⟨3, ![a, L, N]⟩ := ⟨[2], [0], [0, 1], [1], [], [], wf⟩

theorem rm_lhsIdx (wf : DotDims.WF ⟨3, ![a, L, K]⟩ ⟨2, ![K, N]⟩ ⟨3, ![a, L, N]⟩ [2] [0] [0, 1] [1] [] [])
    (b : Fin a) (l : Fin L) (e : Fin N) (k : Fin K) :
    (rmDims wf).lhsIdx (ix3 b l e) ((contrEquiv1 (rmDims wf) K rfl rfl).symm k) = ix3 b l k := by
  have hk := contrEquiv1_symm_val (rmDims wf) K rfl rfl k
  funext ax; apply Fin.ext
  match ax with
  | ⟨0, _⟩ => simp [DotDims.lhsIdx]; rfl
  | ⟨1, _⟩ => simp [DotDims.lhsIdx]; rfl
  | ⟨2, _⟩ => simp [DotDims.lhsIdx]; exact hk

theorem rm_rhsIdx (wf : DotDims.WF ⟨3, ![a, L, K]⟩ ⟨2, ![K, N]⟩ ⟨3, ![a, L, N]⟩ [2] [0] [0, 1] [1] [] [])
    (b : Fin a) (l : Fin L) (e : Fin N) (k : Fin K) :
    (rmDims wf).rhsIdx (ix3 b l e) ((contrEquiv1 (rmDims wf) K rfl rfl).symm k) = ix2 k e := by
  have hk := contrEquiv1_symm_val (rmDims wf) K rfl rfl k
  funext ax; apply Fin.ext
  match ax with
  | ⟨0, _⟩ => simp [DotDims.rhsIdx]; exact hk
  | ⟨1, _⟩ => simp [DotDims.rhsIdx]; rfl

/-- The host's product of a stack of matrices with one matrix, at `(b, l, e)`: the sum over the contracted coordinate. -/
theorem dotRM_apply (wf : DotDims.WF ⟨3, ![a, L, K]⟩ ⟨2, ![K, N]⟩ ⟨3, ![a, L, N]⟩ [2] [0] [0, 1] [1] [] [])
    (prec : Option ContractPrecision) (A : FVec Ideal ⟨3, ![a, L, K]⟩ φ₁) (B : FVec Ideal ⟨2, ![K, N]⟩ φ₂)
    (b : Fin a) (l : Fin L) (e : Fin N) :
    Host.dotGeneral (rmDims wf) prec A B (ix3 b l e) = ∑ k : Fin K, A (ix3 b l k) * B (ix2 k e) := by
  show FloatOps.dotGeneral _ prec _ A B (ix3 b l e) = _
  rw [Ideal.dotGeneral_apply, ← Equiv.sum_comp (contrEquiv1 (rmDims wf) K rfl rfl).symm]
  refine Finset.sum_congr rfl fun k _ => ?_
  rw [rm_lhsIdx, rm_rhsIdx]

end RowsTimesMatrix

/-! ## Keepdims broadcasts and the sum over the last of four axes -/

section Keep
variable {α : Type}

/-- An `[a, b, c]` array kept as `[a, b, c, 1]` reads, at `(i, j, k, z)`, entry `(i, j, k)`. -/
theorem bcast_abc_abc1_apply {a b c : ℕ} (x : (⟨3, ![a, b, c]⟩ : Shape).Idx → α)
    (h : (⟨3, ![a, b, c]⟩ : Shape).BroadcastsInDim ⟨4, ![a, b, c, 1]⟩ (![0, 1, 2] : Fin 3 → Fin 4))
    (i : Fin a) (j : Fin b) (k : Fin c) (z : Fin 1) :
    broadcastInDim ⟨4, ![a, b, c, 1]⟩ (![0, 1, 2] : Fin 3 → Fin 4) h x (ix4 i j k z) = x (ix3 i j k) := by
  refine broadcastInDim_apply _ h x (ix4 i j k z) (ix3 i j k) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, c, 1]` array spread over `d` entries of the last axis reads, at `(i, j, k, m)`, entry `(i, j, k, 0)`. -/
theorem bcast_abc1_abcd_apply {a b c d : ℕ} (x : (⟨4, ![a, b, c, 1]⟩ : Shape).Idx → α)
    (h : (⟨4, ![a, b, c, 1]⟩ : Shape).BroadcastsInDim ⟨4, ![a, b, c, d]⟩ (![0, 1, 2, 3] : Fin 4 → Fin 4))
    (i : Fin a) (j : Fin b) (k : Fin c) (m : Fin d) :
    broadcastInDim ⟨4, ![a, b, c, d]⟩ (![0, 1, 2, 3] : Fin 4 → Fin 4) h x (ix4 i j k m) = x (ix4 i j k (0 : Fin 1)) := by
  refine broadcastInDim_apply _ h x (ix4 i j k m) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ =>
    show (0 : ℕ) = if (1 : ℕ) = 1 then 0 else m.val
    rw [if_pos rfl]

/-- Both together: a per-row quantity of an `[a, b, c]` array spread over the last axis of `[a, b, c, d]`. -/
theorem keepLast4_apply {a b c d : ℕ} (x : (⟨3, ![a, b, c]⟩ : Shape).Idx → α)
    (h1 : (⟨3, ![a, b, c]⟩ : Shape).BroadcastsInDim ⟨4, ![a, b, c, 1]⟩ (![0, 1, 2] : Fin 3 → Fin 4))
    (h2 : (⟨4, ![a, b, c, 1]⟩ : Shape).BroadcastsInDim ⟨4, ![a, b, c, d]⟩ (![0, 1, 2, 3] : Fin 4 → Fin 4))
    (i : Fin a) (j : Fin b) (k : Fin c) (m : Fin d) :
    broadcastInDim ⟨4, ![a, b, c, d]⟩ (![0, 1, 2, 3] : Fin 4 → Fin 4) h2
        (broadcastInDim ⟨4, ![a, b, c, 1]⟩ (![0, 1, 2] : Fin 3 → Fin 4) h1 x) (ix4 i j k m) = x (ix3 i j k) :=
  (bcast_abc1_abcd_apply _ h2 i j k m).trans (bcast_abc_abc1_apply x h1 i j k 0)

end Keep

/-- The host's sum over the last axis of a four-axis array, from an initial value that is zero: at `(a, b, c)`,
    the sum over `k` of the entries `(a, b, c, k)`. -/
theorem hostSumLast4_apply {A B C D : ℕ} (x : (⟨4, ![A, B, C, D]⟩ : Shape).Idx → EReal) {u : Shape} (init : u.Idx → EReal)
    (h' : (⟨4, ![A, B, C, D]⟩ : Shape).ReducesTo [3] ⟨3, ![A, B, C]⟩) (hu : 0 < u.numel)
    (hinit : init (Shape.Idx.first hu) = 0) (a : Fin A) (b : Fin B) (c : Fin C) :
    Host.reduceAdd (F := Ideal) (φ := .f32) x init h' hu (ix3 a b c) = ∑ k : Fin D, x (ix4 a b c k) := by
  have h : (⟨4, ![A, B, C, D]⟩ : Shape).Reduces [3] ⟨3, ![A, B, C]⟩ := ⟨h'.1, Nat.succ_pos 2, h'.2⟩
  show Ideal.hostReduceAdd h' x (init (Shape.Idx.first hu)) (ix3 a b c) = _
  rw [hinit, Ideal.hostReduceAdd_single h' h x 0 (ix3 a b c), zero_add]
  refine Finset.sum_congr rfl fun k _ => congrArg x (funext fun ax => Fin.ext ?_)
  match ax with
  | ⟨0, _⟩ => rfl
  | ⟨1, _⟩ => rfl
  | ⟨2, _⟩ => rfl
  | ⟨3, _⟩ => rfl

/-- The f32 word `0x3E000000` denotes one eighth. -/
theorem ofBits_eighth : Ideal.ofBits .f32 0x3E000000#32 = ((1 / 8 : ℝ) : EReal) := by
  simp [Ideal.ofBits, Ideal.ieee]
  rw [← EReal.coe_mul]
  norm_num

theorem eighth_nonneg : (0 : EReal) ≤ Ideal.ofBits .f32 0x3E000000#32 := by
  rw [ofBits_eighth]; exact_mod_cast (by norm_num : (0 : ℝ) ≤ 1 / 8)

theorem eighth_ne_top : Ideal.ofBits .f32 0x3E000000#32 ≠ (⊤ : EReal) := by
  rw [ofBits_eighth]; exact EReal.coe_ne_top _

/-- The f32 word of zero denotes zero. -/
theorem ofBits_zero : Ideal.ofBits .f32 0x00000000#32 = (0 : EReal) := by simp [Ideal.ofBits, Ideal.ieee]

end Cert.LibHeads

end
-- ==== Proof.LibLastMax.lean ====
/-
  A maximum over the last axis, on the extended reals.

  A reduction by maximum that starts from negative infinity is the supremum of the entries folded into a
  result entry: max is commutative and associative, so the order of the fold is immaterial, and the start is
  the least element. Two readings at a result index, for any extents:
  * a vector reduction over the last axis of an `A × B × C` array, at `(a, b)`: the supremum over `k < C` of the
    entries `(a, b, k)`                                                                    (`maxLast3_apply`);
  * a host reduction over the last axis of an `A × B × C × D` array from an initial value that is negative
    infinity, at `(a, b, c)`: the supremum over `k < D` of the entries `(a, b, c, k)`          (`hostMaxLast4_apply`).
-/
import Idealize.ShloMosaic.PureOps.Ideal.Laws
import Idealize.ShloMosaic.Lib.ValueIdx

noncomputable section

namespace Cert.LibLastMax

open Idealize.ShloMosaic Idealize.ShloMosaic.ValueIdx

/-- The f32 word of negative infinity denotes the least extended real. -/
theorem ofBits_neg_inf : Ideal.ofBits .f32 0xFF800000#32 = (⊥ : EReal) := by simp [Ideal.ofBits, Ideal.ieee]

/-- A vector maximum over the last axis of an `A × B × C` array from negative infinity, at `(a, b)`. -/
theorem maxLast3_apply {A B C : Nat} (y : FVec Ideal ⟨3, ![A, B, C]⟩ .f32)
    (h : (⟨3, ![A, B, C]⟩ : Shape).Reduces [2] ⟨2, ![A, B]⟩) (hφ : FKind.Formats .f32)
    (hacc : (0xFF800000#32 : BitVec 32) = FKind.maximumf.neutral .f32 hφ) (a : Fin A) (b : Fin B) :
    multiReduction .maximumf [2] ⟨2, ![A, B]⟩ y 0xFF800000#32 h hφ hacc (ix2 a b)
      = (Finset.univ : Finset (Fin C)).sup fun k => y (ix3 a b k) := by
  have hl : ∀ k : Fin C, h.lift (ix2 a b) k = ix3 a b k := fun k => by
    funext c; apply Fin.ext
    match c with
    | ⟨0, _⟩ => rfl
    | ⟨1, _⟩ => rfl
    | ⟨2, _⟩ => rfl
  refine (Ideal.multiReduction_maximumf_single y _ h hφ hacc (ix2 a b)).trans ?_
  rw [show FloatOps.ofBits (F := Ideal) .f32 0xFF800000#32 = (⊥ : EReal) from ofBits_neg_inf]
  exact Finset.sup_congr rfl fun k _ => congrArg y (hl k)

/-- Of four axes, the ones other than the last are 0, 1 and 2, whatever the extents. -/
theorem kept_axis3 {A B C D : Nat} : (⟨4, ![A, B, C, D]⟩ : Shape).kept [3] = [0, 1, 2] := by
  show (List.finRange 4).filter (· ∉ ([3] : List (Fin 4))) = [0, 1, 2]
  decide

theorem kept_axis3_0 {A B C D : Nat} (hh : 0 < ((⟨4, ![A, B, C, D]⟩ : Shape).kept [3]).length) :
    ((⟨4, ![A, B, C, D]⟩ : Shape).kept [3])[0] = 0 := by
  revert hh; rw [kept_axis3]; intro _; rfl

theorem kept_axis3_1 {A B C D : Nat} (hh : 1 < ((⟨4, ![A, B, C, D]⟩ : Shape).kept [3]).length) :
    ((⟨4, ![A, B, C, D]⟩ : Shape).kept [3])[1] = 1 := by
  revert hh; rw [kept_axis3]; intro _; rfl

theorem kept_axis3_2 {A B C D : Nat} (hh : 2 < ((⟨4, ![A, B, C, D]⟩ : Shape).kept [3]).length) :
    ((⟨4, ![A, B, C, D]⟩ : Shape).kept [3])[2] = 2 := by
  revert hh; rw [kept_axis3]; intro _; rfl

/-- A host maximum over the last axis of an `A × B × C × D` array, from an initial value that is negative infinity,
    at `(a, b, c)`: the supremum over `k < D` of the entries `(a, b, c, k)`. -/
theorem hostMaxLast4_apply {A B C D : Nat} (y : (⟨4, ![A, B, C, D]⟩ : Shape).Idx → EReal) {u : Shape}
    (init : u.Idx → EReal) (h' : (⟨4, ![A, B, C, D]⟩ : Shape).ReducesTo [3] ⟨3, ![A, B, C]⟩) (hu : 0 < u.numel)
    (hinit : init (Shape.Idx.first hu) = ⊥) (a : Fin A) (b : Fin B) (c : Fin C) :
    Host.reduce (FloatOps.maximumf (F := Ideal) (φ := .f32)) y init h' hu (ix3 a b c)
      = (Finset.univ : Finset (Fin D)).sup fun k => y (ix4 a b c k) := by
  rw [Host.reduce_eq_fold, hinit]
  have hd : ∀ i : (⟨4, ![A, B, C, D]⟩ : Shape).Idx, h'.drop i = ix3 (i 0 : Fin A) (i 1 : Fin B) (i 2 : Fin C) := fun i => by
    funext b'
    match b' with
    | ⟨0, _⟩ => exact Fin.ext (h'.drop_apply_val_of_eq i 0 0 (by rw [kept_axis3]; exact (by omega : (0 : ℕ) < 3)) (kept_axis3_0 _))
    | ⟨1, _⟩ => exact Fin.ext (h'.drop_apply_val_of_eq i 1 1 (by rw [kept_axis3]; exact (by omega : (1 : ℕ) < 3)) (kept_axis3_1 _))
    | ⟨2, _⟩ => exact Fin.ext (h'.drop_apply_val_of_eq i 2 2 (by rw [kept_axis3]; exact (by omega : (2 : ℕ) < 3)) (kept_axis3_2 _))
  show (Finset.univ.filter fun i => h'.drop i = ix3 a b c).sup y = _
  apply le_antisymm
  · apply Finset.sup_le
    intro i hi
    have hi2 := (Finset.mem_filter.1 hi).2
    rw [hd] at hi2
    have e0 : (i 0 : Fin A) = a := congrFun hi2 0
    have e1 : (i 1 : Fin B) = b := congrFun hi2 1
    have e2 : (i 2 : Fin C) = c := congrFun hi2 2
    have ei : i = ix4 a b c (i 3 : Fin D) := by rw [← e0, ← e1, ← e2]; exact eq_ix4 i
    rw [ei]
    exact Finset.le_sup (f := fun k : Fin D => y (ix4 a b c k)) (Finset.mem_univ (i 3 : Fin D))
  · apply Finset.sup_le
    intro k _
    exact Finset.le_sup (f := y) (Finset.mem_filter.2 ⟨Finset.mem_univ _, (hd _).trans rfl⟩)

end Cert.LibLastMax

end
-- ==== Proof.LibSumScale.lean ====
/-
  Scaling a finite sum of extended reals.

  The extended reals are not a semiring: a product does not distribute over a sum when the factor is infinite or
  negative and the summands are infinite of both signs.  A factor that is a nonnegative real does distribute,
  over every finite sum and whatever the summands, infinite ones included (the sum of an infinite positive and an
  infinite negative entry is the negative infinity on both sides).  So a finite sum divided by a positive real d
  is the sum of the entries each multiplied by 1 / d: the mean of n entries taken as "sum, then divide by n" and
  as "scale each entry by 1 / n, then sum" agree with no finiteness assumption on the entries.
-/
import Idealize.ShloMosaic.PureOps.Ideal

noncomputable section

namespace Cert.LibSumScale

open Idealize.ShloMosaic
open scoped BigOperators

/-- Multiplication by a nonnegative finite extended real distributes over a finite sum of extended reals. -/
theorem sum_mul_of_nonneg {ι : Type} (s : Finset ι) (y : ι → EReal) {a : EReal} (h0 : 0 ≤ a) (ht : a ≠ ⊤) :
    (∑ k ∈ s, y k) * a = ∑ k ∈ s, y k * a := by
  classical
  induction s using Finset.induction_on with
  | empty => simp
  | insert k s hk ih =>
    rw [Finset.sum_insert hk, Finset.sum_insert hk, EReal.right_distrib_of_nonneg_of_ne_top h0 ht, ih]

/-- The same with the factor on the left. -/
theorem mul_sum_of_nonneg {ι : Type} (s : Finset ι) (y : ι → EReal) {a : EReal} (h0 : 0 ≤ a) (ht : a ≠ ⊤) :
    a * (∑ k ∈ s, y k) = ∑ k ∈ s, a * y k := by
  rw [mul_comm, sum_mul_of_nonneg s y h0 ht]
  exact Finset.sum_congr rfl fun k _ => mul_comm _ _

/-- A finite sum divided by a positive real is the sum of the entries each multiplied by its reciprocal. -/
theorem sum_div_coe {ι : Type} (s : Finset ι) (y : ι → EReal) {d : ℝ} (hd : 0 < d) :
    Ideal.div (∑ k ∈ s, y k) (d : EReal) = ∑ k ∈ s, y k * ((1 / d : ℝ) : EReal) := by
  rw [Ideal.div_coe (ne_of_gt hd)]
  exact sum_mul_of_nonneg s y (by exact_mod_cast (le_of_lt (one_div_pos.mpr hd))) (EReal.coe_ne_top _)

end Cert.LibSumScale

end
-- ==== Proof.RefAttn.lean ====
/-
  The reference's attention between the projected queries and the output projection, entry by entry, on the
  extended reals, over arbitrary arrays Q [16, 1024, 1024], K and V [16, 256, 1024] and Wo [1024, 1024].

  The queries, keys and values are split into 16 heads of 64 columns; head h of batch b has scores
  (Σ_d Q(b, l, 64h+d) · K(b, m, 64h+d)) · ⅛, the softmax over the 256 keys (subtract the row's maximum,
  exponentiate, divide by the row's sum), and the weighted sum of the values' columns 64h … 64h+63; the heads
  are put back side by side, multiplied by Wo and added to Q.  The one algebraic step: ⅛ is a nonnegative
  real, so it distributes over the score sum whatever the entries, and
  (Σ_d q_d · k_d) · ⅛ = Σ_d (q_d · ⅛) · k_d.  The maximum with −∞ is the identity.
-/
import proofs.«147995_j10943576670702_2_alg».proof.ReferenceIdeal
import proofs.«147995_j10943576670702_2_alg».proof.Proof.Spec
import proofs.«147995_j10943576670702_2_alg».proof.Proof.LibHeads
import proofs.«147995_j10943576670702_2_alg».proof.Proof.LibLastMax
import proofs.«147995_j10943576670702_2_alg».proof.Proof.LibSumScale

noncomputable section

namespace Cert.Attn.Ref

open Cert.ReferenceIdeal Cert.Attn Idealize.ShloMosaic Idealize.ShloMosaic.ValueIdx
open scoped BigOperators

variable [Facts₀]
open Facts₀

/-- The reference's attention middle as one term of the four arrays. -/
def refAttn (Qa : FVec Ideal S16x1024x1024 .f32) (Ka Va : FVec Ideal S16x256x1024 .f32) (Wo : FVec Ideal S1024x1024 .f32) :
    FVec Ideal S16x1024x1024 .f32 :=
  addf Qa (Host.dotGeneral (F := Ideal) dot_S16x1024x1024_S1024x1024_S16x1024x1024_2_0_01_1_n_n none (shapeCast _ (transpose S16x1024x16x64 [0, 2, 1, 3] (Host.dotGeneral (F := Ideal) dot_S16x16x1024x256_S16x16x256x64_S16x16x1024x64_3_2_2_3_01_01 none (Host.divf (F := Ideal) (Host.exp (F := Ideal) (subf (mulf (Host.dotGeneral (F := Ideal) dot_S16x16x1024x64_S16x16x256x64_S16x16x1024x256_3_3_2_2_01_01 none (transpose S16x16x1024x64 [0, 2, 1, 3] (shapeCast _ Qa shapeCasts_S16x1024x1024_S16x1024x16x64) transposes_S16x1024x16x64_S16x16x1024x64_0_2_1_3) (transpose S16x16x256x64 [0, 2, 1, 3] (shapeCast _ Ka shapeCasts_S16x256x1024_S16x256x16x64) transposes_S16x256x16x64_S16x16x256x64_0_2_1_3)) (broadcastInDim S16x16x1024x256 ![] bcast_S_S16x16x1024x256 (constant (F := Ideal) S_ .f32 0x3E000000#32))) (broadcastInDim S16x16x1024x256 ![0, 1, 2, 3] bcast_S16x16x1024x1_S16x16x1024x256_0_1_2_3 (broadcastInDim S16x16x1024x1 ![0, 1, 2] bcast_S16x16x1024_S16x16x1024x1_0_1_2 (maximumf (broadcastInDim S16x16x1024 ![] bcast_S_S16x16x1024 (constant (F := Ideal) S_ .f32 0xFF800000#32)) (Host.reduce (FloatOps.maximumf (F := Ideal)) (mulf (Host.dotGeneral (F := Ideal) dot_S16x16x1024x64_S16x16x256x64_S16x16x1024x256_3_3_2_2_01_01 none (transpose S16x16x1024x64 [0, 2, 1, 3] (shapeCast _ Qa shapeCasts_S16x1024x1024_S16x1024x16x64) transposes_S16x1024x16x64_S16x16x1024x64_0_2_1_3) (transpose S16x16x256x64 [0, 2, 1, 3] (shapeCast _ Ka shapeCasts_S16x256x1024_S16x256x16x64) transposes_S16x256x16x64_S16x16x256x64_0_2_1_3)) (broadcastInDim S16x16x1024x256 ![] bcast_S_S16x16x1024x256 (constant (F := Ideal) S_ .f32 0x3E000000#32))) (constant (F := Ideal) S_ .f32 0xFF800000#32) reducesTo_S16x16x1024x256_S16x16x1024_d3 h_S_)))))) (broadcastInDim S16x16x1024x256 ![0, 1, 2, 3] bcast_S16x16x1024x1_S16x16x1024x256_0_1_2_3 (broadcastInDim S16x16x1024x1 ![0, 1, 2] bcast_S16x16x1024_S16x16x1024x1_0_1_2 (Host.reduceAdd (F := Ideal) (Host.exp (F := Ideal) (subf (mulf (Host.dotGeneral (F := Ideal) dot_S16x16x1024x64_S16x16x256x64_S16x16x1024x256_3_3_2_2_01_01 none (transpose S16x16x1024x64 [0, 2, 1, 3] (shapeCast _ Qa shapeCasts_S16x1024x1024_S16x1024x16x64) transposes_S16x1024x16x64_S16x16x1024x64_0_2_1_3) (transpose S16x16x256x64 [0, 2, 1, 3] (shapeCast _ Ka shapeCasts_S16x256x1024_S16x256x16x64) transposes_S16x256x16x64_S16x16x256x64_0_2_1_3)) (broadcastInDim S16x16x1024x256 ![] bcast_S_S16x16x1024x256 (constant (F := Ideal) S_ .f32 0x3E000000#32))) (broadcastInDim S16x16x1024x256 ![0, 1, 2, 3] bcast_S16x16x1024x1_S16x16x1024x256_0_1_2_3 (broadcastInDim S16x16x1024x1 ![0, 1, 2] bcast_S16x16x1024_S16x16x1024x1_0_1_2 (maximumf (broadcastInDim S16x16x1024 ![] bcast_S_S16x16x1024 (constant (F := Ideal) S_ .f32 0xFF800000#32)) (Host.reduce (FloatOps.maximumf (F := Ideal)) (mulf (Host.dotGeneral (F := Ideal) dot_S16x16x1024x64_S16x16x256x64_S16x16x1024x256_3_3_2_2_01_01 none (transpose S16x16x1024x64 [0, 2, 1, 3] (shapeCast _ Qa shapeCasts_S16x1024x1024_S16x1024x16x64) transposes_S16x1024x16x64_S16x16x1024x64_0_2_1_3) (transpose S16x16x256x64 [0, 2, 1, 3] (shapeCast _ Ka shapeCasts_S16x256x1024_S16x256x16x64) transposes_S16x256x16x64_S16x16x256x64_0_2_1_3)) (broadcastInDim S16x16x1024x256 ![] bcast_S_S16x16x1024x256 (constant (F := Ideal) S_ .f32 0x3E000000#32))) (constant (F := Ideal) S_ .f32 0xFF800000#32) reducesTo_S16x16x1024x256_S16x16x1024_d3 h_S_)))))) (constant (F := Ideal) S_ .f32 0x00000000#32) reducesTo_S16x16x1024x256_S16x16x1024_d3 h_S_)))) (transpose S16x16x256x64 [0, 2, 1, 3] (shapeCast _ Va shapeCasts_S16x256x1024_S16x256x16x64) transposes_S16x256x16x64_S16x16x256x64_0_2_1_3)) transposes_S16x16x1024x64_S16x1024x16x64_0_2_1_3) shapeCasts_S16x1024x16x64_S16x1024x1024) Wo)

/-! ## The same term in named pieces -/

/-- The scaled scores of all heads. -/
def sc (Qa : FVec Ideal S16x1024x1024 .f32) (Ka : FVec Ideal S16x256x1024 .f32) : FVec Ideal S16x16x1024x256 .f32 :=
  mulf (Host.dotGeneral (F := Ideal) dot_S16x16x1024x64_S16x16x256x64_S16x16x1024x256_3_3_2_2_01_01 none (transpose S16x16x1024x64 [0, 2, 1, 3] (shapeCast _ Qa shapeCasts_S16x1024x1024_S16x1024x16x64) transposes_S16x1024x16x64_S16x16x1024x64_0_2_1_3) (transpose S16x16x256x64 [0, 2, 1, 3] (shapeCast _ Ka shapeCasts_S16x256x1024_S16x256x16x64) transposes_S16x256x16x64_S16x16x256x64_0_2_1_3)) (broadcastInDim S16x16x1024x256 ![] bcast_S_S16x16x1024x256 (constant (F := Ideal) S_ .f32 0x3E000000#32))

/-- The exponentials of the scores less each row's maximum. -/
def ex (Qa : FVec Ideal S16x1024x1024 .f32) (Ka : FVec Ideal S16x256x1024 .f32) : FVec Ideal S16x16x1024x256 .f32 :=
  Host.exp (F := Ideal) (subf (sc Qa Ka) (broadcastInDim S16x16x1024x256 ![0, 1, 2, 3] bcast_S16x16x1024x1_S16x16x1024x256_0_1_2_3 (broadcastInDim S16x16x1024x1 ![0, 1, 2] bcast_S16x16x1024_S16x16x1024x1_0_1_2 (maximumf (broadcastInDim S16x16x1024 ![] bcast_S_S16x16x1024 (constant (F := Ideal) S_ .f32 0xFF800000#32)) (Host.reduce (FloatOps.maximumf (F := Ideal)) (sc Qa Ka) (constant (F := Ideal) S_ .f32 0xFF800000#32) reducesTo_S16x16x1024x256_S16x16x1024_d3 h_S_)))))

/-- The heads' outputs: the normalised weights times the values. -/
def att (Qa : FVec Ideal S16x1024x1024 .f32) (Ka Va : FVec Ideal S16x256x1024 .f32) : FVec Ideal S16x16x1024x64 .f32 :=
  Host.dotGeneral (F := Ideal) dot_S16x16x1024x256_S16x16x256x64_S16x16x1024x64_3_2_2_3_01_01 none (Host.divf (F := Ideal) (ex Qa Ka) (broadcastInDim S16x16x1024x256 ![0, 1, 2, 3] bcast_S16x16x1024x1_S16x16x1024x256_0_1_2_3 (broadcastInDim S16x16x1024x1 ![0, 1, 2] bcast_S16x16x1024_S16x16x1024x1_0_1_2 (Host.reduceAdd (F := Ideal) (ex Qa Ka) (constant (F := Ideal) S_ .f32 0x00000000#32) reducesTo_S16x16x1024x256_S16x16x1024_d3 h_S_)))) (transpose S16x16x256x64 [0, 2, 1, 3] (shapeCast _ Va shapeCasts_S16x256x1024_S16x256x16x64) transposes_S16x256x16x64_S16x16x256x64_0_2_1_3)

theorem refAttn_eq (Qa : FVec Ideal S16x1024x1024 .f32) (Ka Va : FVec Ideal S16x256x1024 .f32) (Wo : FVec Ideal S1024x1024 .f32) :
    refAttn Qa Ka Va Wo = addf Qa (Host.dotGeneral (F := Ideal) dot_S16x1024x1024_S1024x1024_S16x1024x1024_2_0_01_1_n_n none (shapeCast _ (transpose S16x1024x16x64 [0, 2, 1, 3] (att Qa Ka Va) transposes_S16x16x1024x64_S16x1024x16x64_0_2_1_3) shapeCasts_S16x1024x16x64_S16x1024x1024) Wo) := rfl

/-! ## Reading the pieces at an index -/

/-- Column `64 h + d` is `h · 64 + d`. -/
theorem hcol_val (h : Fin 16) (d : Fin 64) : (hcol h d).val = h.val * 64 + d.val := by
  show 64 * h.val + d.val = h.val * 64 + d.val
  omega

/-- The scores of head `h`, row `l`, key `m` of batch `b`: the scale moved inside the sum. -/
theorem sc_apply (Qa : FVec Ideal S16x1024x1024 .f32) (Ka : FVec Ideal S16x256x1024 .f32)
    (b : Fin 16) (h : Fin 16) (l : Fin 1024) (m : Fin 256) :
    sc Qa Ka (ix4 b h l m) = score (fun k => Qa (ix3 b l k)) (fun m k => Ka (ix3 b m k)) h m := by
  have hq : ∀ d : Fin 64, (transpose S16x16x1024x64 [0, 2, 1, 3] (shapeCast _ Qa shapeCasts_S16x1024x1024_S16x1024x16x64) transposes_S16x1024x16x64_S16x16x1024x64_0_2_1_3) (ix4 b h l d) = Qa (ix3 b l (hcol h d)) := fun d =>
    LibHeads.splitHeads_apply Qa _ _ (by norm_num) b h l d (hcol h d) (hcol_val h d)
  have hk : ∀ d : Fin 64, (transpose S16x16x256x64 [0, 2, 1, 3] (shapeCast _ Ka shapeCasts_S16x256x1024_S16x256x16x64) transposes_S16x256x16x64_S16x16x256x64_0_2_1_3) (ix4 b h m d) = Ka (ix3 b m (hcol h d)) := fun d =>
    LibHeads.splitHeads_apply Ka _ _ (by norm_num) b h m d (hcol h d) (hcol_val h d)
  have h1 : sc Qa Ka (ix4 b h l m)
      = (∑ d : Fin 64, (transpose S16x16x1024x64 [0, 2, 1, 3] (shapeCast _ Qa shapeCasts_S16x1024x1024_S16x1024x16x64) transposes_S16x1024x16x64_S16x16x1024x64_0_2_1_3) (ix4 b h l d) * (transpose S16x16x256x64 [0, 2, 1, 3] (shapeCast _ Ka shapeCasts_S16x256x1024_S16x256x16x64) transposes_S16x256x16x64_S16x16x256x64_0_2_1_3) (ix4 b h m d)) * Ideal.ofBits .f32 0x3E000000#32 :=
    congrArg (· * Ideal.ofBits .f32 0x3E000000#32)
      (LibHeads.dotQK_apply dot_S16x16x1024x64_S16x16x256x64_S16x16x1024x256_3_3_2_2_01_01_wf none _ _ b h l m)
  unfold score
  refine h1.trans ?_
  rw [LibSumScale.sum_mul_of_nonneg _ _ LibHeads.eighth_nonneg LibHeads.eighth_ne_top]
  refine Finset.sum_congr rfl fun d _ => ?_
  rw [hq d, hk d, mul_right_comm]

/-- The exponential of a score less the row's maximum. -/
theorem ex_apply (Qa : FVec Ideal S16x1024x1024 .f32) (Ka : FVec Ideal S16x256x1024 .f32)
    (b : Fin 16) (h : Fin 16) (l : Fin 1024) (m : Fin 256) :
    ex Qa Ka (ix4 b h l m)
      = Ideal.exp (score (fun k => Qa (ix3 b l k)) (fun m k => Ka (ix3 b m k)) h m - Finset.univ.sup (score (fun k => Qa (ix3 b l k)) (fun m k => Ka (ix3 b m k)) h)) := by
  have hs : (fun m' : Fin 256 => sc Qa Ka (ix4 b h l m')) = score (fun k => Qa (ix3 b l k)) (fun m k => Ka (ix3 b m k)) h :=
    funext fun m' => sc_apply Qa Ka b h l m'
  have hmax : (Host.reduce (FloatOps.maximumf (F := Ideal)) (sc Qa Ka) (constant (F := Ideal) S_ .f32 0xFF800000#32) reducesTo_S16x16x1024x256_S16x16x1024_d3 h_S_) (ix3 b h l) = Finset.univ.sup fun m' : Fin 256 => sc Qa Ka (ix4 b h l m') :=
    LibLastMax.hostMaxLast4_apply (sc Qa Ka) _ reducesTo_S16x16x1024x256_S16x16x1024_d3 h_S_ LibLastMax.ofBits_neg_inf b h l
  unfold ex
  refine (LibHeads.hostExp_apply _ _).trans (congrArg Ideal.exp ?_)
  refine (subf_apply _ _ _).trans (congrArg₂ (fun s t : EReal => s - t) (sc_apply Qa Ka b h l m) ?_)
  refine (LibHeads.keepLast4_apply _ bcast_S16x16x1024_S16x16x1024x1_0_1_2
    bcast_S16x16x1024x1_S16x16x1024x256_0_1_2_3 b h l m).trans ?_
  refine (maximumf_apply _ _ _).trans ?_
  refine (congrArg₂ (fun s t : EReal => max s t) (LibHeads.bcastConst_apply _ _ _ _) hmax).trans ?_
  rw [LibLastMax.ofBits_neg_inf, hs]
  exact max_bot_left _

/-- One head's output entry is the specification's. -/
theorem att_apply (Qa : FVec Ideal S16x1024x1024 .f32) (Ka Va : FVec Ideal S16x256x1024 .f32)
    (b : Fin 16) (h : Fin 16) (l : Fin 1024) (d : Fin 64) :
    att Qa Ka Va (ix4 b h l d)
      = headOut (fun k => Qa (ix3 b l k)) (fun m k => Ka (ix3 b m k)) (fun m k => Va (ix3 b m k)) h d := by
  have hsum : ∀ m : Fin 256,
      (broadcastInDim S16x16x1024x256 ![0, 1, 2, 3] bcast_S16x16x1024x1_S16x16x1024x256_0_1_2_3 (broadcastInDim S16x16x1024x1 ![0, 1, 2] bcast_S16x16x1024_S16x16x1024x1_0_1_2 (Host.reduceAdd (F := Ideal) (ex Qa Ka) (constant (F := Ideal) S_ .f32 0x00000000#32) reducesTo_S16x16x1024x256_S16x16x1024_d3 h_S_))) (ix4 b h l m)
        = ∑ m' : Fin 256, Ideal.exp (score (fun k => Qa (ix3 b l k)) (fun m k => Ka (ix3 b m k)) h m' - Finset.univ.sup (score (fun k => Qa (ix3 b l k)) (fun m k => Ka (ix3 b m k)) h)) := fun m =>
    (LibHeads.keepLast4_apply _ bcast_S16x16x1024_S16x16x1024x1_0_1_2 bcast_S16x16x1024x1_S16x16x1024x256_0_1_2_3 b h l m).trans
      ((LibHeads.hostSumLast4_apply (ex Qa Ka) _ reducesTo_S16x16x1024x256_S16x16x1024_d3 h_S_ LibHeads.ofBits_zero b h l).trans
        (Finset.sum_congr rfl fun m' _ => ex_apply Qa Ka b h l m'))
  unfold att
  refine (LibHeads.dotPV_apply dot_S16x16x1024x256_S16x16x256x64_S16x16x1024x64_3_2_2_3_01_01_wf none _ _ b h l d).trans ?_
  unfold headOut softAvg
  refine Finset.sum_congr rfl fun m _ => ?_
  refine congrArg₂ (fun s t : EReal => s * t) ?_
    (LibHeads.splitHeads_apply Va _ _ (by norm_num) b h m d (hcol h d) (hcol_val h d))
  exact (LibHeads.hostDivf_apply _ _ _).trans (congrArg₂ Ideal.div (ex_apply Qa Ka b h l m) (hsum m))

/-- The reference's attention middle at `(b, l, e)`: the query entry plus the heads' row times `Wo`. -/
theorem ref_attn (Qa : FVec Ideal S16x1024x1024 .f32) (Ka Va : FVec Ideal S16x256x1024 .f32) (Wo : FVec Ideal S1024x1024 .f32)
    (b : Fin 16) (l : Fin 1024) (e : Fin 1024) :
    refAttn Qa Ka Va Wo (ix3 b l e)
      = Qa (ix3 b l e) + rowMat (attnRow (fun k => Qa (ix3 b l k)) (fun m k => Ka (ix3 b m k)) (fun m k => Va (ix3 b m k))) Wo e := by
  rw [refAttn_eq]
  refine (addf_apply _ _ _).trans (congrArg (fun t : EReal => Qa (ix3 b l e) + t) ?_)
  refine (LibHeads.dotRM_apply dot_S16x1024x1024_S1024x1024_S16x1024x1024_2_0_01_1_n_n_wf none _ Wo b l e).trans ?_
  unfold rowMat
  refine Finset.sum_congr rfl fun k _ => congrArg (fun t : EReal => t * Wo (ix2 k e)) ?_
  exact (LibHeads.mergeHeads_apply (att Qa Ka Va) transposes_S16x16x1024x64_S16x1024x16x64_0_2_1_3
      shapeCasts_S16x1024x16x64_S16x1024x1024 (by norm_num) b
      ⟨k.val / 64, by have := k.isLt; omega⟩ l ⟨k.val % 64, Nat.mod_lt _ (by norm_num)⟩ k
      (by show k.val = k.val / 64 * 64 + k.val % 64; omega)).trans
    (att_apply Qa Ka Va b _ l _)

end Cert.Attn.Ref

end
-- ==== Proof.RefGlue.lean ====
/-
  The reference's result is the specification's function of its arguments, given the attention middle: if the residual
  array is a function `att` of the query, keys, values and `Wo` arrays that reads, at (b, l, e), the query entry plus
  the heads' row times `Wo`, then — the query, keys and values being the specification's rows entry by entry and the
  tail mapping the residual's row to the output row — the result array is `G` of the arguments.
-/
import proofs.«147995_j10943576670702_2_alg».proof.Proof.Gen.ReferenceIdeal.Run
import proofs.«147995_j10943576670702_2_alg».proof.Proof.Spec
import proofs.«147995_j10943576670702_2_alg».proof.Proof.LibHostRead
import proofs.«147995_j10943576670702_2_alg».proof.Proof.LibDot3
import proofs.«147995_j10943576670702_2_alg».proof.Proof.RefOps
import proofs.«147995_j10943576670702_2_alg».proof.Proof.RefFront
import proofs.«147995_j10943576670702_2_alg».proof.Proof.RefTail

set_option maxRecDepth 8192

noncomputable section

namespace Cert.Attn.Ref

open Cert.ReferenceIdeal Cert.ReferenceIdeal.Gen Cert.ReferenceIdeal.Value Cert.Attn Cert.LibHostRead
open Idealize.ShloMosaic Idealize.ShloMosaic.TcCoe Idealize.SL.Sem Idealize.ShloMosaic.StableHlo Idealize.ShloMosaic.ValueIdx
open scoped BigOperators

variable (V0 : Valuation τ sig (Elt Ideal))

/-- The residual at `(b, l, k)`: the specification's residual row of query row `(b, l)` with batch `b`'s keys and values. -/
theorem ref_res_of
    (refAttn' : FVec Ideal S16x1024x1024 .f32 → FVec Ideal S16x256x1024 .f32 → FVec Ideal S16x256x1024 .f32 →
      FVec Ideal S1024x1024 .f32 → FVec Ideal S16x1024x1024 .f32)
    (h76 : res_main_v76 V0 = refAttn' (res_main_v51 V0) (refK V0) (Host.dotGeneral (F := Ideal) (φ₁ := .f32) (φ₂ := .f32) dot_S16x256x1024_S1024x1024_S16x256x1024_2_0_01_1_n_n none (res_main_v0 V0) (V0 (Proc.devRef .tc main_arg4))) (V0 (Proc.devRef .tc main_arg5)))
    (ref_attn' : ∀ (Qa : FVec Ideal S16x1024x1024 .f32) (Ka Va : FVec Ideal S16x256x1024 .f32) (Wo : FVec Ideal S1024x1024 .f32)
      (b : Fin 16) (l : Fin 1024) (e : Fin 1024), refAttn' Qa Ka Va Wo (ix3 b l e)
        = Qa (ix3 b l e) + rowMat (attnRow (fun k => Qa (ix3 b l k)) (fun m k => Ka (ix3 b m k)) (fun m k => Va (ix3 b m k))) Wo e)
    (b : Fin 16) (l : Fin 1024) (k : Fin 1024) :
    res_main_v76 V0 (ix3 b l k) = resRow (V0 (Proc.devRef .tc main_arg2)) (V0 (Proc.devRef .tc main_arg5)) (V0 (Proc.devRef .tc main_arg8)) (V0 (Proc.devRef .tc main_arg9)) (fun d => (V0 (Proc.devRef .tc main_arg1)) (ix3 b l d)) (keys (res_main_v0 V0) (V0 (Proc.devRef .tc main_arg3)) (V0 (Proc.devRef .tc main_arg6)) (V0 (Proc.devRef .tc main_arg7)) b) (vals (res_main_v0 V0) (V0 (Proc.devRef .tc main_arg4)) b) k := by
  refine (congrFun h76 (ix3 b l k)).trans ?_
  refine (ref_attn' (res_main_v51 V0) (refK V0) (Host.dotGeneral (F := Ideal) (φ₁ := .f32) (φ₂ := .f32) dot_S16x256x1024_S1024x1024_S16x256x1024_2_0_01_1_n_n none (res_main_v0 V0) (V0 (Proc.devRef .tc main_arg4))) (V0 (Proc.devRef .tc main_arg5)) b l k).trans ?_
  unfold resRow
  rw [ref_query V0 b l k,
    show (fun k' => res_main_v51 V0 (ix3 b l k')) = queryRow (V0 (Proc.devRef .tc main_arg2)) (V0 (Proc.devRef .tc main_arg8)) (V0 (Proc.devRef .tc main_arg9)) (fun d => (V0 (Proc.devRef .tc main_arg1)) (ix3 b l d))
      from funext (ref_query V0 b l),
    show (fun m k' => refK V0 (ix3 b m k')) = keys (res_main_v0 V0) (V0 (Proc.devRef .tc main_arg3)) (V0 (Proc.devRef .tc main_arg6)) (V0 (Proc.devRef .tc main_arg7)) b
      from funext fun m => funext (ref_keys V0 b m),
    show (fun m k' => (Host.dotGeneral (F := Ideal) (φ₁ := .f32) (φ₂ := .f32) dot_S16x256x1024_S1024x1024_S16x256x1024_2_0_01_1_n_n none (res_main_v0 V0) (V0 (Proc.devRef .tc main_arg4))) (ix3 b m k')) = vals (res_main_v0 V0) (V0 (Proc.devRef .tc main_arg4)) b
      from funext fun m => funext (ref_vals V0 b m)]

/-- The reference's result is the specification's function of its arguments. -/
theorem ref_result_of
    (refAttn' : FVec Ideal S16x1024x1024 .f32 → FVec Ideal S16x256x1024 .f32 → FVec Ideal S16x256x1024 .f32 →
      FVec Ideal S1024x1024 .f32 → FVec Ideal S16x1024x1024 .f32)
    (h76 : res_main_v76 V0 = refAttn' (res_main_v51 V0) (refK V0) (Host.dotGeneral (F := Ideal) (φ₁ := .f32) (φ₂ := .f32) dot_S16x256x1024_S1024x1024_S16x256x1024_2_0_01_1_n_n none (res_main_v0 V0) (V0 (Proc.devRef .tc main_arg4))) (V0 (Proc.devRef .tc main_arg5)))
    (ref_attn' : ∀ (Qa : FVec Ideal S16x1024x1024 .f32) (Ka Va : FVec Ideal S16x256x1024 .f32) (Wo : FVec Ideal S1024x1024 .f32)
      (b : Fin 16) (l : Fin 1024) (e : Fin 1024), refAttn' Qa Ka Va Wo (ix3 b l e)
        = Qa (ix3 b l e) + rowMat (attnRow (fun k => Qa (ix3 b l k)) (fun m k => Ka (ix3 b m k)) (fun m k => Va (ix3 b m k))) Wo e) :
    addf (res_main_v76 V0) (addf (Host.dotGeneral (F := Ideal) (φ₁ := .f32) (φ₂ := .f32) dot_S16x1024x4096_S4096x1024_S16x1024x1024_2_0_01_1_n_n none (mulf (res_main_v104 V0) (mulf (broadcastInDim S16x1024x4096 ![] bcast_S_S16x1024x4096 (constant S_ .f32 0x3F000000#32)) (addf (broadcastInDim S16x1024x4096 ![] bcast_S_S16x1024x4096 (constant S_ .f32 0x3F800000#32)) (Host.tanh (mulf (broadcastInDim S16x1024x4096 ![] bcast_S_S16x1024x4096 (constant S_ .f32 0x3F4C422A#32)) (addf (res_main_v104 V0) (mulf (broadcastInDim S16x1024x4096 ![] bcast_S_S16x1024x4096 (constant S_ .f32 0x3D372713#32)) (mulf (mulf (res_main_v104 V0) (res_main_v104 V0)) (res_main_v104 V0))))))))) (V0 (Proc.devRef .tc main_arg14))) (broadcastInDim S16x1024x1024 ![0, 1, 2] bcast_S1x1x1024_S16x1024x1024_0_1_2 (broadcastInDim S1x1x1024 ![2] bcast_S1024_S1x1x1024_2 (V0 (Proc.devRef .tc main_arg15)))))
      = G (res_main_v0 V0) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  funext i
  obtain ⟨b, l, e, rfl⟩ : ∃ b l e, i = ix3 b l e := ⟨i 0, i 1, i 2, eq_ix3 i⟩
  refine (congrFun (refTail_eq V0).symm (ix3 b l e)).trans ?_
  refine (ref_tail V0 (res_main_v76 V0) b l e).trans ?_
  show _ = outRow (V0 (Proc.devRef .tc main_arg2)) (V0 (Proc.devRef .tc main_arg5)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))
    (fun d => (V0 (Proc.devRef .tc main_arg1)) (ix3 b l d)) (keys (res_main_v0 V0) (V0 (Proc.devRef .tc main_arg3)) (V0 (Proc.devRef .tc main_arg6)) (V0 (Proc.devRef .tc main_arg7)) b) (vals (res_main_v0 V0) (V0 (Proc.devRef .tc main_arg4)) b) e
  unfold outRow
  rw [show (fun k => res_main_v76 V0 (ix3 b l k)) = resRow (V0 (Proc.devRef .tc main_arg2)) (V0 (Proc.devRef .tc main_arg5)) (V0 (Proc.devRef .tc main_arg8)) (V0 (Proc.devRef .tc main_arg9)) (fun d => (V0 (Proc.devRef .tc main_arg1)) (ix3 b l d)) (keys (res_main_v0 V0) (V0 (Proc.devRef .tc main_arg3)) (V0 (Proc.devRef .tc main_arg6)) (V0 (Proc.devRef .tc main_arg7)) b) (vals (res_main_v0 V0) (V0 (Proc.devRef .tc main_arg4)) b)
    from funext (ref_res_of V0 refAttn' h76 ref_attn' b l)]

end Cert.Attn.Ref

end
-- ==== Proof.RefResult.lean ====
/-
  The reference's result is the specification's function of its arguments: the glue at the reference's own attention
  middle.
-/
import proofs.«147995_j10943576670702_2_alg».proof.Proof.Gen.ReferenceIdeal.Run
import proofs.«147995_j10943576670702_2_alg».proof.Proof.Spec
import proofs.«147995_j10943576670702_2_alg».proof.Proof.RefFront
import proofs.«147995_j10943576670702_2_alg».proof.Proof.RefTail
import proofs.«147995_j10943576670702_2_alg».proof.Proof.RefAttn
import proofs.«147995_j10943576670702_2_alg».proof.Proof.RefGlue

set_option maxRecDepth 8192

noncomputable section

namespace Cert.Attn.Ref

open Cert.ReferenceIdeal Cert.ReferenceIdeal.Gen Cert.ReferenceIdeal.Value Cert.Attn Cert.LibHostRead
open Idealize.ShloMosaic Idealize.ShloMosaic.TcCoe Idealize.SL.Sem Idealize.ShloMosaic.StableHlo Idealize.ShloMosaic.ValueIdx
open scoped BigOperators

variable (V0 : Valuation τ sig (Elt Ideal))

/-- The reference's residual array is its attention middle at its own query, keys, values and `Wo`. -/
theorem v76_eq :
    res_main_v76 V0 = refAttn (res_main_v51 V0) (refK V0) (Host.dotGeneral (F := Ideal) (φ₁ := .f32) (φ₂ := .f32) dot_S16x256x1024_S1024x1024_S16x256x1024_2_0_01_1_n_n none (res_main_v0 V0) (V0 (Proc.devRef .tc main_arg4))) (V0 (Proc.devRef .tc main_arg5)) := rfl

/-- The residual at `(b, l, k)`: the specification's residual row. -/
theorem ref_res (b : Fin 16) (l : Fin 1024) (k : Fin 1024) :
    res_main_v76 V0 (ix3 b l k) = resRow (V0 (Proc.devRef .tc main_arg2)) (V0 (Proc.devRef .tc main_arg5)) (V0 (Proc.devRef .tc main_arg8)) (V0 (Proc.devRef .tc main_arg9)) (fun d => (V0 (Proc.devRef .tc main_arg1)) (ix3 b l d)) (keys (res_main_v0 V0) (V0 (Proc.devRef .tc main_arg3)) (V0 (Proc.devRef .tc main_arg6)) (V0 (Proc.devRef .tc main_arg7)) b) (vals (res_main_v0 V0) (V0 (Proc.devRef .tc main_arg4)) b) k :=
  ref_res_of V0 refAttn (v76_eq V0) ref_attn b l k

/-- The reference's result is the specification's function of its arguments. -/
theorem ref_result :
    addf (res_main_v76 V0) (addf (Host.dotGeneral (F := Ideal) (φ₁ := .f32) (φ₂ := .f32) dot_S16x1024x4096_S4096x1024_S16x1024x1024_2_0_01_1_n_n none (mulf (res_main_v104 V0) (mulf (broadcastInDim S16x1024x4096 ![] bcast_S_S16x1024x4096 (constant S_ .f32 0x3F000000#32)) (addf (broadcastInDim S16x1024x4096 ![] bcast_S_S16x1024x4096 (constant S_ .f32 0x3F800000#32)) (Host.tanh (mulf (broadcastInDim S16x1024x4096 ![] bcast_S_S16x1024x4096 (constant S_ .f32 0x3F4C422A#32)) (addf (res_main_v104 V0) (mulf (broadcastInDim S16x1024x4096 ![] bcast_S_S16x1024x4096 (constant S_ .f32 0x3D372713#32)) (mulf (mulf (res_main_v104 V0) (res_main_v104 V0)) (res_main_v104 V0))))))))) (V0 (Proc.devRef .tc main_arg14))) (broadcastInDim S16x1024x1024 ![0, 1, 2] bcast_S1x1x1024_S16x1024x1024_0_1_2 (broadcastInDim S1x1x1024 ![2] bcast_S1024_S1x1x1024_2 (V0 (Proc.devRef .tc main_arg15)))))
      = G (res_main_v0 V0) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  ref_result_of V0 refAttn (v76_eq V0) ref_attn

end Cert.Attn.Ref

end
-- ==== Proof.lean ====
/-
  Cross-attention of 1024 query rows per batch against 256 keys and values computed from a grid, sixteen
  heads of 64 columns, a residual, a layer norm and a tanh-gelu hidden layer: the tiled kernel (one grid
  point per batch and tile of 128 query rows, the batch's keys and values computed at the batch's first
  point and carried in scratch) against the plain array program, at the extended reals.

  Both programs are shown to end with the same function `Cert.Attn.G` of the argument arrays (Proof/Spec.lean),
  entry by entry.  On the kernel's side: what one run of the body leaves (Proof/Pieces.lean), what the
  scratch and the output block hold after every grid point (Proof/Points.lean), the result array
  block by block (Proof/Final.lean), the block's arithmetic at an entry (Proof/Kern*.lean) and the
  identification with `G` (Proof/KIsG.lean, Proof/KResult.lean).  On the reference's side: its
  operations read at an entry (Proof/Ref*.lean).  The two arrangements differ in three places, none of
  which needs the inputs to be finite: the scale 1/8 multiplies the query before the score sum in the
  kernel and the sum afterwards in the reference (a nonnegative real factor moves across a finite sum
  of extended reals); the reference takes the maximum of the row maximum with −∞ (the identity); the
  cube in gelu is associated differently (multiplication is commutative and associative).
  The frames are the generated ones; the reference's is its generated run with the result dropped.
-/
import proofs.«147995_j10943576670702_2_alg».proof.Defs
import proofs.«147995_j10943576670702_2_alg».proof.Proof.Gen.Kernel
import proofs.«147995_j10943576670702_2_alg».proof.Proof.Gen.Kernel.Skeleton
import proofs.«147995_j10943576670702_2_alg».proof.Proof.Gen.Kernel.Launch
import proofs.«147995_j10943576670702_2_alg».proof.Proof.Gen.Kernel.Points
import proofs.«147995_j10943576670702_2_alg».proof.Proof.Gen.Kernel.Frame
import proofs.«147995_j10943576670702_2_alg».proof.Proof.Gen.KernelIdeal
import proofs.«147995_j10943576670702_2_alg».proof.Proof.Gen.KernelIdeal.Skeleton
import proofs.«147995_j10943576670702_2_alg».proof.Proof.Gen.KernelIdeal.Launch
import proofs.«147995_j10943576670702_2_alg».proof.Proof.Gen.KernelIdeal.Points
import proofs.«147995_j10943576670702_2_alg».proof.Proof.Gen.KernelIdeal.Frame
import proofs.«147995_j10943576670702_2_alg».proof.Proof.Gen.ReferenceIdeal
import proofs.«147995_j10943576670702_2_alg».proof.Proof.Gen.Pre_finite_inputs
import proofs.«147995_j10943576670702_2_alg».proof.Proof.Gen.KernelIdeal.Value
import proofs.«147995_j10943576670702_2_alg».proof.Proof.Gen.ReferenceIdeal.Run
import Idealize.ShloMosaic.Adequacy
import Idealize.ShloMosaic.Init
import proofs.«147995_j10943576670702_2_alg».proof.Proof.KResult
import proofs.«147995_j10943576670702_2_alg».proof.Proof.RefResult

set_option maxRecDepth 16384

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with `G` of the argument arrays, which agree. -/
theorem algebraic : Cert.algebraic_KernelIdeal_ReferenceIdeal := by
  intro m ρ m' ρ' _ hagree
  refine ⟨fun c => Cert.KernelIdeal.Final.result m c, Cert.KernelIdeal.Final.run_result m ρ, ?_⟩
  refine (θ_run Cert.ReferenceIdeal.defs _ _).mono (fun _ h c => ⟨(h c).1.trans ?_, (h c).2⟩)
    (Cert.ReferenceIdeal.Value.run (F := Ideal) m' ρ')
  refine (Cert.Attn.Ref.ref_result (StableHlo.launchContents m' c)).trans ?_
  obtain ⟨a0, a1, a2, a3, a4, a5, a6, a7, a8, a9, a10, a11, a12, a13, a14, a15⟩ := hagree c
  show Cert.Attn.G (shapeCast Cert.ReferenceIdeal.S16x256x1024 (m' ((c.tc : Thread Cert.ReferenceIdeal.nD Cert.ReferenceIdeal.τ).loc Cert.ReferenceIdeal.main_arg0)) _)
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
    = Cert.KernelIdeal.Final.result m c
  rw [a0, a1, a2, a3, a4, a5, a6, a7, a8, a9, a10, a11, a12, a13, a14, a15]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
